-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v143)) (v1 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_v141) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x6 : Shape := ⟨2, ![64, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S64x6 .f32) (main_arg12 : FVec F S6 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x6 .f32 := Host.absf main_arg11
  let main_cst_16 : FVec F S_ .f32 := constant S_ .f32 0x7F800000#32
  let main_v45 : FVec F S64x6 .f32 := broadcastInDim S64x6 ![] bcast_S_S64x6 main_cst_16
  let main_v46 : IVec S64x6 1 := cmpf .olt main_v44 main_v45
  let main_c_17 : IVec S_ 1 := constantI S_ 1 1#1
  let main_v47 : IVec S_ 1 := (fun x v => Host.reduce IntOp.andi x v reducesTo_S64x6_S_d0_1 h_S_) main_v46 main_c_17
  let main_v48 : IVec S_ 1 := andi main_v43 main_v47
  let main_v49 : FVec F S6 .f32 := Host.absf main_arg12
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg6 : FVec F S2x128 .f32) (main_arg7 : FVec F S128x64 .f32) (main_arg8 : FVec F S64 .f32) (main_arg9 : FVec F S64x32 .f32) (main_arg10 : FVec F S32 .f32) (main_arg11 : FVec F S64x6 .f32) (main_arg12 : FVec F S6 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S2x128x128 .f32) (main_arg6 : FVec F S2x128 .f32) (main_arg7 : FVec F S128x64 .f32) (main_arg8 : FVec F S64 .f32) (main_arg9 : FVec F S64x32 .f32) (main_arg10 : FVec F S32 .f32) (main_arg11 : FVec F S64x6 .f32) (main_arg12 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩
abbrev S1x128x128 : Shape := ⟨3, ![1, 128, 128]⟩
abbrev S1x64 : Shape := ⟨2, ![1, 64]⟩
abbrev S100000x64 : Shape := ⟨2, ![100000, 64]⟩
abbrev S5000x64 : Shape := ⟨2, ![5000, 64]⟩
abbrev S1x32 : Shape := ⟨2, ![1, 32]⟩
abbrev S100000x32 : Shape := ⟨2, ![100000, 32]⟩
abbrev S5000x32 : Shape := ⟨2, ![5000, 32]⟩
abbrev S1600000x32 : Shape := ⟨2, ![1600000, 32]⟩
abbrev S1600000x64 : Shape := ⟨2, ![1600000, 64]⟩
abbrev S1x6 : Shape := ⟨2, ![1, 6]⟩
abbrev S1600000x6 : Shape := ⟨2, ![1600000, 6]⟩
abbrev S8000x64 : Shape := ⟨2, ![8000, 64]⟩
abbrev S8000x6 : Shape := ⟨2, ![8000, 6]⟩

abbrev nBuf : Space → Nat
  | .hbm => 189
  | .vmem => 63
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S2x128x128, .f32⟩
  | 6 => ⟨S2x128, .f32⟩
  | 7 => ⟨S128x64, .f32⟩
  | 8 => ⟨S64, .f32⟩
  | 9 => ⟨S64x32, .f32⟩
  | 10 => ⟨S32, .f32⟩
  | 11 => ⟨S64x6, .f32⟩
  | 12 => ⟨S6, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .f32⟩
  | 31 => ⟨S128, .f32⟩
  | 32 => ⟨S1x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x1, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x1, .f32⟩
  | 70 => ⟨S1x128, .f32⟩
  | 71 => ⟨S100000x128, .f32⟩
  | 72 => ⟨S1x128x128, .f32⟩
  | 73 => ⟨S128x128, .f32⟩
  | 74 => ⟨S1x128, .f32⟩
  | 75 => ⟨S128, .f32⟩
  | 76 => ⟨S_, .f32⟩
  | 77 => ⟨S128, .f32⟩
  | 78 => ⟨S1x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x1, .f32⟩
  | 116 => ⟨S1x128, .f32⟩
  | 117 => ⟨S100000x128, .f32⟩
  | 118 => ⟨S1x128x128, .f32⟩
  | 119 => ⟨S128x128, .f32⟩
  | 120 => ⟨S1x128, .f32⟩
  | 121 => ⟨S128, .f32⟩
  | 122 => ⟨S_, .f32⟩
  | 123 => ⟨S128, .f32⟩
  | 124 => ⟨S1x128, .f32⟩
  | 125 => ⟨S100000x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x1, .f32⟩
  | 27 => ⟨S1600000x128, .f32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x1, .f32⟩
  | 34 => ⟨S1x128, .f32⟩
  | 35 => ⟨S100000x128, .f32⟩
  | 36 => ⟨S1x64, .f32⟩
  | 37 => ⟨S100000x64, .f32⟩
  | 38 => ⟨S1x32, .f32⟩
  | 39 => ⟨S100000x32, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x32, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x64, .f32⟩
  | 59 => ⟨S1x6, .f32⟩
  | 60 => ⟨S1600000x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S64x32, .f32⟩
  | .local _ .vmem, ⟨54, _⟩ => ⟨S1x32, .f32⟩
  | .local _ .vmem, ⟨55, _⟩ => ⟨S5000x32, .f32⟩
  | .local _ .vmem, ⟨56, _⟩ => ⟨S5000x32, .f32⟩
  | .local _ .vmem, ⟨57, _⟩ => ⟨S8000x64, .f32⟩
  | .local _ .vmem, ⟨58, _⟩ => ⟨S8000x64, .f32⟩
  | .local _ .vmem, ⟨59, _⟩ => ⟨S64x6, .f32⟩
  | .local _ .vmem, ⟨60, _⟩ => ⟨S1x6, .f32⟩
  | .local _ .vmem, ⟨61, _⟩ => ⟨S8000x6, .f32⟩
  | .local _ .vmem, ⟨62, _⟩ => ⟨S8000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_19 : Ref sig .tc := ⟨.hbm, 126, rfl⟩
abbrev main_v92 : Ref sig .tc := ⟨.hbm, 127, rfl⟩
abbrev main_v93 : Ref sig .tc := ⟨.hbm, 128, rfl⟩
abbrev main_c_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_21 : Ref sig .tc := ⟨.hbm, 135, rfl⟩
abbrev main_v99 : Ref sig .tc := ⟨.hbm, 136, rfl⟩
abbrev main_v100 : Ref sig .tc := ⟨.hbm, 137, rfl⟩
abbrev main_c_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_23 : Ref sig .tc := ⟨.hbm, 145, rfl⟩
abbrev main_v107 : Ref sig .tc := ⟨.hbm, 146, rfl⟩
abbrev main_v108 : Ref sig .tc := ⟨.hbm, 147, rfl⟩
abbrev main_c_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_25 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_26 : Ref sig .tc := ⟨.hbm, 168, rfl⟩
abbrev main_v127 : Ref sig .tc := ⟨.hbm, 169, rfl⟩
abbrev main_v128 : Ref sig .tc := ⟨.hbm, 170, rfl⟩
abbrev main_c_27 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_28 : Ref sig .tc := ⟨.hbm, 177, rfl⟩
abbrev main_v134 : Ref sig .tc := ⟨.hbm, 178, rfl⟩
abbrev main_v135 : Ref sig .tc := ⟨.hbm, 179, rfl⟩
abbrev main_c_29 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem3_0 : DmaSem sig := 61
abbrev cc8_sem3_1 : DmaSem sig := 62

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![200], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x6 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x6 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8000x6 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  concatenates_S1600000x32_S1600000x32_S1600000x64_d1 : Shape.Concatenates [S1600000x32, S1600000x32] S1600000x64 1
  shapeCasts_S6_S1x6 : S6.ShapeCasts S1x6
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S8000x6 : S1x6.Broadcasts S8000x6
  inb_S8000x6_S8000x6_0_0 : ∀ a, (![0, 0] : Fin 2 → Nat) a + S8000x6.size a ≤ S8000x6.size a
  h_S8000x6 : 0 < S8000x6.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  dot_S8000x64_S64x6_S8000x6_1_0_0_1_n_n_wf : DotDims.WF S8000x64 S64x6 S8000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x32.size a ≤ S100000x32.size a
  hwx7_3 : ∀ i : grid7.Coords, EltTy.bits .f32 = 32 ∨ (Rect.block (s := S100000x32) S5000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x64.size a ≤ S1600000x64.size a
  hwx8_0 : ∀ i : grid8.Coords, EltTy.bits .f32 = 32 ∨ (Rect.block (s := S1600000x64) S8000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x6.size a ≤ S64x6.size a
  hwx8_1 : ∀ i : grid8.Coords, EltTy.bits .f32 = 32 ∨ (Rect.block (s := S64x6) S64x6.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x6.size a ≤ S1x6.size a
  hwx8_2 : ∀ i : grid8.Coords, EltTy.bits .f32 = 32 ∨ (Rect.block (s := S1x6) S1x6.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8000x6.size a ≤ S1600000x6.size a
  hwx8_3 : ∀ i : grid8.Coords, EltTy.bits .f32 = 32 ∨ (Rect.block (s := S1600000x6) S8000x6.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x64_S64x6_S8000x6_1_0_0_1_n_n : DotDims S8000x64 S64x6 S8000x6 where
  lhsContracting := [1]
  rhsContracting := [0]
  lhsNonContracting := [0]
  rhsNonContracting := [1]
  lhsBatch := []
  rhsBatch := []
  wf := dot_S8000x64_S64x6_S8000x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v84) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v120) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v121) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v122) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v123) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v124) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v124) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v125) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v126) S5000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v141) S8000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x6.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v142) S1x6.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S8000x6.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x128x128 : Shape := ⟨3, ![1, 128, 128]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S1600000x32 : Shape := ⟨2, ![1600000, 32]⟩
abbrev S1600000x64 : Shape := ⟨2, ![1600000, 64]⟩
abbrev S1600000x6 : Shape := ⟨2, ![1600000, 6]⟩
abbrev S1x6 : Shape := ⟨2, ![1, 6]⟩

abbrev nBuf : Space → Nat
  | .hbm => 205
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S2x128x128, .f32⟩
  | 6 => ⟨S2x128, .f32⟩
  | 7 => ⟨S128x64, .f32⟩
  | 8 => ⟨S64, .f32⟩
  | 9 => ⟨S64x32, .f32⟩
  | 10 => ⟨S32, .f32⟩
  | 11 => ⟨S64x6, .f32⟩
  | 12 => ⟨S6, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S1x128, .f32⟩
  | 126 => ⟨S128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S1600000, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x128, .f32⟩
  | 44 => ⟨S100000x64, .f32⟩
  | 45 => ⟨S1x64, .f32⟩
  | 46 => ⟨S100000x64, .f32⟩
  | 47 => ⟨S100000x64, .f32⟩
  | 48 => ⟨S100000x64, .f32⟩
  | 49 => ⟨S100000x32, .f32⟩
  | 50 => ⟨S1x32, .f32⟩
  | 51 => ⟨S100000x32, .f32⟩
  | 52 => ⟨S100000x32, .f32⟩
  | 53 => ⟨S100000x32, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x32, .f32⟩
  | 72 => ⟨S1600000x64, .f32⟩
  | 73 => ⟨S1600000x6, .f32⟩
  | 74 => ⟨S1x6, .f32⟩
  | 75 => ⟨S1600000x6, .f32⟩
  | 76 => ⟨S1600000x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_16 : Ref sig .tc := ⟨.hbm, 128, rfl⟩
abbrev main_v97 : Ref sig .tc := ⟨.hbm, 129, rfl⟩
abbrev main_v98 : Ref sig .tc := ⟨.hbm, 130, rfl⟩
abbrev main_c_17 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_18 : Ref sig .tc := ⟨.hbm, 137, rfl⟩
abbrev main_v104 : Ref sig .tc := ⟨.hbm, 138, rfl⟩
abbrev main_v105 : Ref sig .tc := ⟨.hbm, 139, rfl⟩
abbrev main_c_19 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_20 : Ref sig .tc := ⟨.hbm, 148, rfl⟩
abbrev main_v113 : Ref sig .tc := ⟨.hbm, 149, rfl⟩
abbrev main_v114 : Ref sig .tc := ⟨.hbm, 150, rfl⟩
abbrev main_c_21 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_22 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_c_23 : Ref sig .tc := ⟨.hbm, 182, rfl⟩
abbrev main_v144 : Ref sig .tc := ⟨.hbm, 183, rfl⟩
abbrev main_v145 : Ref sig .tc := ⟨.hbm, 184, rfl⟩
abbrev main_c_24 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_c_25 : Ref sig .tc := ⟨.hbm, 191, rfl⟩
abbrev main_v151 : Ref sig .tc := ⟨.hbm, 192, rfl⟩
abbrev main_v152 : Ref sig .tc := ⟨.hbm, 193, rfl⟩
abbrev main_c_26 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S1600000x32_S1600000x32_S1600000x64_d1 : Shape.Concatenates [S1600000x32, S1600000x32] S1600000x64 1
  bcast_S6_S1x6_1 : S6.BroadcastsInDim S1x6 (![1] : Fin 1 → Fin S1x6.rank)
  bcast_S1x6_S1600000x6_0_1 : S1x6.BroadcastsInDim S1600000x6 (![0, 1] : Fin 2 → Fin S1600000x6.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  dot_S1600000x64_S64x6_S1600000x6_1_0_0_1_n_n_wf : DotDims.WF S1600000x64 S64x6 S1600000x6 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x6_S1600000x6_1_0_0_1_n_n : DotDims S1600000x64 S64x6 S1600000x6 where
  lhsContracting := [1]
  rhsContracting := [0]
  lhsNonContracting := [0]
  rhsNonContracting := [1]
  lhsBatch := []
  rhsBatch := []
  wf := dot_S1600000x64_S64x6_S1600000x6_1_0_0_1_n_n_wf

class Facts : Prop extends Facts₀ where

variable [Facts]
-- ==== Proof.KernelRun.lean ====
/-
  The idealized kernel's run, with its two results named.

  The whole program is a chain of eighteen segments: nine stretches of host operations, each followed by one
  pipelined region.  Along that chain the contents of every buffer at each boundary is a fold from the launch
  memory (the generated `W0 … W18`).  The generated frame keeps, of the last boundary, only that the argument
  arrays are as launched.  Here the same run is read once more, keeping also the two result buffers: at the end
  they hold what the last boundary's fold `W18` says, and the arguments are unchanged.
-/
import proofs.«170606_j48361331753433_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the two result buffers hold
    the last boundary's contents, and every argument array is as launched. -/
theorem run_results : θ_run defs (onTc (τ := τ) (main (F := F))) ⟨m, fun _ => 0, ρ⟩ (fun r => ∀ c : Dev nD,
      r.2.mem ((c.tc : Thread nD τ).loc main_v143) = W18 m ρ c (Proc.devRef .tc main_v143)
      ∧ r.2.mem ((c.tc : Thread nD τ).loc main_v141) = W18 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v143 (by decide)),
       h c _ (mem_uc main_v141 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.Run

end
-- ==== Proof.KStretches.lean ====
/-
  The host operations between the regions, read back.

  Each stretch of host operations is a straight line of pure array operations.  Every array a later segment reads is
  named here as ONE function of the arrays the stretch itself only reads (the composition of the operations that lead
  to it).  Folding a stretch over any contents `W` of the buffers, such a buffer holds that function of `W`'s
  contents, and a buffer the stretch does not write keeps its contents.
-/
import proofs.«170606_j48361331753433_2_alg».proof.Proof.Gen.KernelIdeal.Launch
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-! ## Stretch 0 -/

/-- The buffers stretch 0 writes. -/
abbrev written0 : List (Ref sig .tc) := [main_v0, main_v1, main_v2, main_v3, main_cst, main_v4, main_cst_0, main_v5, main_v6, main_v7, main_cst_1, main_v8, main_v9, main_cst_2, main_v10, main_v11, main_v12, main_cst_3, main_v13, main_v14]
theorem hostOps0_writes : (hostOps0 : List (HloOp τ sig (Elt F))).Forall fun op => op.writes ⊆ (written0.map (Proc.devRef (τ := τ) .tc)).toFinset := by
  simp only [hostOps0, List.Forall, nullary_writes, unary_writes, binary_writes, ternary_writes, reshape_writes, Finset.singleton_subset_iff, List.mem_toFinset]
  repeat' apply And.intro
  all_goals exact List.mem_map_of_mem (by decide)
/-- A buffer stretch 0 does not write keeps its contents through it. -/
theorem keep0 (W : Valuation τ sig (Elt F)) (r : Ref sig .tc) (h : r ∉ written0) :
    after hostOps0 W (Proc.devRef .tc r) = W (Proc.devRef .tc r) :=
  after_of_writes_sub hostOps0 W hostOps0_writes h

/-- `main_v1` as a function of what the stretch reads. -/
def g_main_v1 (x_arg1 : (Proc.devRef .tc main_arg1 : DevRef τ sig).ty.Contents (Elt F)) : (Proc.devRef .tc main_v1 : DevRef τ sig).ty.Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_arg1) shapeCasts_S1x1600000_S1600000)

set_option maxHeartbeats 2000000 in
theorem stretch0_main_v1 (W : Valuation τ sig (Elt F)) :
    after hostOps0 W (Proc.devRef .tc main_v1) = g_main_v1 (W (Proc.devRef .tc main_arg1)) := by
  simp only [hostOps0]
  after_results_simp
  rfl

/-- `main_v3` as a function of what the stretch reads. -/
def g_main_v3 (x_arg1 : (Proc.devRef .tc main_arg1 : DevRef τ sig).ty.Contents (Elt F)) : (Proc.devRef .tc main_v3 : DevRef τ sig).ty.Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_arg1) shapeCasts_S1x1600000_S1600000)

set_option maxHeartbeats 2000000 in
theorem stretch0_main_v3 (W : Valuation τ sig (Elt F)) :
    after hostOps0 W (Proc.devRef .tc main_v3) = g_main_v3 (W (Proc.devRef .tc main_arg1)) := by
  simp only [hostOps0]
  after_results_simp
  rfl

/-- `main_v11` as a function of what the stretch reads. -/
def g_main_v11 (x_arg1 : (Proc.devRef .tc main_arg1 : DevRef τ sig).ty.Contents (Elt F)) : (Proc.devRef .tc main_v11 : DevRef τ sig).ty.Contents (Elt F) :=
  ((Host.powf : (⟨S100000, .f32⟩ : BufTy).Contents (Elt F) → (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_arg1) shapeCasts_S1x1600000_S1600000)) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0xBF000000#32)))

set_option maxHeartbeats 2000000 in
theorem stretch0_main_v11 (W : Valuation τ sig (Elt F)) :
    after hostOps0 W (Proc.devRef .tc main_v11) = g_main_v11 (W (Proc.devRef .tc main_arg1)) := by
  simp only [hostOps0]
  after_results_simp
  rfl

/-- `main_v12` as a function of what the stretch reads. -/
def g_main_v12 (x_arg1 : (Proc.devRef .tc main_arg1 : DevRef τ sig).ty.Contents (Elt F)) : (Proc.devRef .tc main_v12 : DevRef τ sig).ty.Contents (Elt F) :=
  ((mulf : (⟨S100000, .f32⟩ : BufTy).Contents (Elt F) → (⟨S100000, .f32⟩ : BufTy).Contents (Elt F) → (⟨S100000, .f32⟩ : BufTy).Contents (Elt F)) ((Host.powf : (⟨S100000, .f32⟩ : BufTy).Contents (Elt F) → (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_arg1) shapeCasts_S1x1600000_S1600000)) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0xBF000000#32))) ((Host.powf : (⟨S100000, .f32⟩ : BufTy).Contents (Elt F) → (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_arg1) shapeCasts_S1x1600000_S1600000)) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0xBF000000#32))))

set_option maxHeartbeats 2000000 in
theorem stretch0_main_v12 (W : Valuation τ sig (Elt F)) :
    after hostOps0 W (Proc.devRef .tc main_v12) = g_main_v12 (W (Proc.devRef .tc main_arg1)) := by
  simp only [hostOps0]
  after_results_simp
  rfl

/-- `main_v14` as a function of what the stretch reads. -/
def g_main_v14  : (Proc.devRef .tc main_v14 : DevRef τ sig).ty.Contents (Elt F) :=
  (shapeCast S1x128 ((broadcastInDim S128 ![] bcast_S_S128 : (⟨S_, .f32⟩ : BufTy).Contents (Elt F) → (⟨S128, .f32⟩ : BufTy).Contents (Elt F)) (constant S_ .f32 0x00000000#32)) shapeCasts_S128_S1x128)

set_option maxHeartbeats 2000000 in
theorem stretch0_main_v14 (W : Valuation τ sig (Elt F)) :
    after hostOps0 W (Proc.devRef .tc main_v14) = g_main_v14 (F := F) := by
  simp only [hostOps0]
  after_results_simp
  rfl

/-! ## Stretch 1 -/

/-- The buffers stretch 1 writes. -/
abbrev written1 : List (Ref sig .tc) := [main_c, main_v16, main_v17, main_c_4, main_v18, main_v19, main_v20, main_v21, main_v22, main_c_5, main_v23, main_v24, main_c_6, main_v25, main_v26, main_v27, main_v28, main_v29, main_v30, main_c_7, main_v31, main_v32, main_c_8, main_v33, main_v34, main_v35, main_v36, main_v37, main_v38, main_v39, main_v40, main_cst_9, main_v41, main_v42, main_v43, main_v44, main_v45]
theorem hostOps1_writes : (hostOps1 : List (HloOp τ sig (Elt F))).Forall fun op => op.writes ⊆ (written1.map (Proc.devRef (τ := τ) .tc)).toFinset := by
  simp only [hostOps1, List.Forall, nullary_writes, unary_writes, binary_writes, ternary_writes, reshape_writes, Finset.singleton_subset_iff, List.mem_toFinset]
  repeat' apply And.intro
  all_goals exact List.mem_map_of_mem (by decide)
/-- A buffer stretch 1 does not write keeps its contents through it. -/
theorem keep1 (W : Valuation τ sig (Elt F)) (r : Ref sig .tc) (h : r ∉ written1) :
    after hostOps1 W (Proc.devRef .tc r) = W (Proc.devRef .tc r) :=
  after_of_writes_sub hostOps1 W hostOps1_writes h

/-- `main_v43` as a function of what the stretch reads. -/
def g_main_v43 (x_v3 : (Proc.devRef .tc main_v3 : DevRef τ sig).ty.Contents (Elt F)) (x_v15 : (Proc.devRef .tc main_v15 : DevRef τ sig).ty.Contents (Elt F)) (x_v1 : (Proc.devRef .tc main_v1 : DevRef τ sig).ty.Contents (Elt F)) (x_v11 : (Proc.devRef .tc main_v11 : DevRef τ sig).ty.Contents (Elt F)) : (Proc.devRef .tc main_v43 : DevRef τ sig).ty.Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x_v3) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_v15 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))))))

set_option maxHeartbeats 2000000 in
theorem stretch1_main_v43 (W : Valuation τ sig (Elt F)) :
    after hostOps1 W (Proc.devRef .tc main_v43) = g_main_v43 (W (Proc.devRef .tc main_v3)) (W (Proc.devRef .tc main_v15)) (W (Proc.devRef .tc main_v1)) (W (Proc.devRef .tc main_v11)) := by
  simp only [hostOps1]
  after_results_simp
  rfl

/-- `main_v44` as a function of what the stretch reads. -/
def g_main_v44 (x_v12 : (Proc.devRef .tc main_v12 : DevRef τ sig).ty.Contents (Elt F)) : (Proc.devRef .tc main_v44 : DevRef τ sig).ty.Contents (Elt F) :=
  (shapeCast S100000x1 x_v12 shapeCasts_S100000_S100000x1)

set_option maxHeartbeats 2000000 in
theorem stretch1_main_v44 (W : Valuation τ sig (Elt F)) :
    after hostOps1 W (Proc.devRef .tc main_v44) = g_main_v44 (W (Proc.devRef .tc main_v12)) := by
  simp only [hostOps1]
  after_results_simp
  rfl

/-- `main_v45` as a function of what the stretch reads. -/
def g_main_v45 (x_arg4 : (Proc.devRef .tc main_arg4 : DevRef τ sig).ty.Contents (Elt F)) : (Proc.devRef .tc main_v45 : DevRef τ sig).ty.Contents (Elt F) :=
  (shapeCast S1x128 x_arg4 shapeCasts_S128_S1x128)

set_option maxHeartbeats 2000000 in
theorem stretch1_main_v45 (W : Valuation τ sig (Elt F)) :
    after hostOps1 W (Proc.devRef .tc main_v45) = g_main_v45 (W (Proc.devRef .tc main_arg4)) := by
  simp only [hostOps1]
  after_results_simp
  rfl

/-! ## Stretch 2 -/

/-- The buffers stretch 2 writes. -/
abbrev written2 : List (Ref sig .tc) := [main_v47, main_v48, main_v49, main_v50, main_cst_10, main_v51, main_v52]
theorem hostOps2_writes : (hostOps2 : List (HloOp τ sig (Elt F))).Forall fun op => op.writes ⊆ (written2.map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)
/-- A buffer stretch 2 does not write keeps its contents through it. -/
theorem keep2 (W : Valuation τ sig (Elt F)) (r : Ref sig .tc) (h : r ∉ written2) :
    after hostOps2 W (Proc.devRef .tc r) = W (Proc.devRef .tc r) :=
  after_of_writes_sub hostOps2 W hostOps2_writes h

/-- `main_v48` as a function of what the stretch reads. -/
def g_main_v48 (x_arg5 : (Proc.devRef .tc main_arg5 : DevRef τ sig).ty.Contents (Elt F)) : (Proc.devRef .tc main_v48 : DevRef τ sig).ty.Contents (Elt F) :=
  (shapeCast S128x128 (((extractStridedSlice S1x128x128 ![0, 0, 0] · slices_S2x128x128_S1x128x128_0_0_0) : (⟨S2x128x128, .f32⟩ : BufTy).Contents (Elt F) → (⟨S1x128x128, .f32⟩ : BufTy).Contents (Elt F)) x_arg5) shapeCasts_S1x128x128_S128x128)

set_option maxHeartbeats 2000000 in
theorem stretch2_main_v48 (W : Valuation τ sig (Elt F)) :
    after hostOps2 W (Proc.devRef .tc main_v48) = g_main_v48 (W (Proc.devRef .tc main_arg5)) := by
  simp only [hostOps2]
  after_results_simp
  rfl

/-- `main_v50` as a function of what the stretch reads. -/
def g_main_v50 (x_arg6 : (Proc.devRef .tc main_arg6 : DevRef τ sig).ty.Contents (Elt F)) : (Proc.devRef .tc main_v50 : DevRef τ sig).ty.Contents (Elt F) :=
  (shapeCast S128 (((extractStridedSlice S1x128 ![0, 0] · slices_S2x128_S1x128_0_0) : (⟨S2x128, .f32⟩ : BufTy).Contents (Elt F) → (⟨S1x128, .f32⟩ : BufTy).Contents (Elt F)) x_arg6) shapeCasts_S1x128_S128)

set_option maxHeartbeats 2000000 in
theorem stretch2_main_v50 (W : Valuation τ sig (Elt F)) :
    after hostOps2 W (Proc.devRef .tc main_v50) = g_main_v50 (W (Proc.devRef .tc main_arg6)) := by
  simp only [hostOps2]
  after_results_simp
  rfl

/-- `main_v52` as a function of what the stretch reads. -/
def g_main_v52  : (Proc.devRef .tc main_v52 : DevRef τ sig).ty.Contents (Elt F) :=
  (shapeCast S1x128 ((broadcastInDim S128 ![] bcast_S_S128 : (⟨S_, .f32⟩ : BufTy).Contents (Elt F) → (⟨S128, .f32⟩ : BufTy).Contents (Elt F)) (constant S_ .f32 0x00000000#32)) shapeCasts_S128_S1x128)

set_option maxHeartbeats 2000000 in
theorem stretch2_main_v52 (W : Valuation τ sig (Elt F)) :
    after hostOps2 W (Proc.devRef .tc main_v52) = g_main_v52 (F := F) := by
  simp only [hostOps2]
  after_results_simp
  rfl

/-! ## Stretch 3 -/

/-- The buffers stretch 3 writes. -/
abbrev written3 : List (Ref sig .tc) := [main_c_11, main_v54, main_v55, main_c_12, main_v56, main_v57, main_v58, main_v59, main_v60, main_c_13, main_v61, main_v62, main_c_14, main_v63, main_v64, main_v65, main_v66, main_v67, main_v68, main_c_15, main_v69, main_v70, main_c_16, main_v71, main_v72, main_v73, main_v74, main_v75, main_v76, main_v77, main_v78, main_cst_17, main_v79, main_v80, main_v81, main_v82, main_v83]
theorem hostOps3_writes : (hostOps3 : List (HloOp τ sig (Elt F))).Forall fun op => op.writes ⊆ (written3.map (Proc.devRef (τ := τ) .tc)).toFinset := by
  simp only [hostOps3, List.Forall, nullary_writes, unary_writes, binary_writes, ternary_writes, reshape_writes, Finset.singleton_subset_iff, List.mem_toFinset]
  repeat' apply And.intro
  all_goals exact List.mem_map_of_mem (by decide)
/-- A buffer stretch 3 does not write keeps its contents through it. -/
theorem keep3 (W : Valuation τ sig (Elt F)) (r : Ref sig .tc) (h : r ∉ written3) :
    after hostOps3 W (Proc.devRef .tc r) = W (Proc.devRef .tc r) :=
  after_of_writes_sub hostOps3 W hostOps3_writes h

/-- `main_v81` as a function of what the stretch reads. -/
def g_main_v81 (x_v3 : (Proc.devRef .tc main_v3 : DevRef τ sig).ty.Contents (Elt F)) (x_v53 : (Proc.devRef .tc main_v53 : DevRef τ sig).ty.Contents (Elt F)) (x_v1 : (Proc.devRef .tc main_v1 : DevRef τ sig).ty.Contents (Elt F)) (x_v11 : (Proc.devRef .tc main_v11 : DevRef τ sig).ty.Contents (Elt F)) : (Proc.devRef .tc main_v81 : DevRef τ sig).ty.Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x_v3) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_v53 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))))))

set_option maxHeartbeats 2000000 in
theorem stretch3_main_v81 (W : Valuation τ sig (Elt F)) :
    after hostOps3 W (Proc.devRef .tc main_v81) = g_main_v81 (W (Proc.devRef .tc main_v3)) (W (Proc.devRef .tc main_v53)) (W (Proc.devRef .tc main_v1)) (W (Proc.devRef .tc main_v11)) := by
  simp only [hostOps3]
  after_results_simp
  rfl

/-- `main_v82` as a function of what the stretch reads. -/
def g_main_v82 (x_v12 : (Proc.devRef .tc main_v12 : DevRef τ sig).ty.Contents (Elt F)) : (Proc.devRef .tc main_v82 : DevRef τ sig).ty.Contents (Elt F) :=
  (shapeCast S100000x1 x_v12 shapeCasts_S100000_S100000x1)

set_option maxHeartbeats 2000000 in
theorem stretch3_main_v82 (W : Valuation τ sig (Elt F)) :
    after hostOps3 W (Proc.devRef .tc main_v82) = g_main_v82 (W (Proc.devRef .tc main_v12)) := by
  simp only [hostOps3]
  after_results_simp
  rfl

/-- `main_v83` as a function of what the stretch reads. -/
def g_main_v83 (x_v50 : (Proc.devRef .tc main_v50 : DevRef τ sig).ty.Contents (Elt F)) : (Proc.devRef .tc main_v83 : DevRef τ sig).ty.Contents (Elt F) :=
  (shapeCast S1x128 x_v50 shapeCasts_S128_S1x128)

set_option maxHeartbeats 2000000 in
theorem stretch3_main_v83 (W : Valuation τ sig (Elt F)) :
    after hostOps3 W (Proc.devRef .tc main_v83) = g_main_v83 (W (Proc.devRef .tc main_v50)) := by
  simp only [hostOps3]
  after_results_simp
  rfl

/-! ## Stretch 4 -/

/-- The buffers stretch 4 writes. -/
abbrev written4 : List (Ref sig .tc) := [main_v85, main_v86, main_v87, main_v88, main_cst_18, main_v89, main_v90]
theorem hostOps4_writes : (hostOps4 : List (HloOp τ sig (Elt F))).Forall fun op => op.writes ⊆ (written4.map (Proc.devRef (τ := τ) .tc)).toFinset := by
  simp only [hostOps4, List.Forall, nullary_writes, unary_writes, binary_writes, ternary_writes, reshape_writes, Finset.singleton_subset_iff, List.mem_toFinset]
  repeat' apply And.intro
  all_goals exact List.mem_map_of_mem (by decide)
/-- A buffer stretch 4 does not write keeps its contents through it. -/
theorem keep4 (W : Valuation τ sig (Elt F)) (r : Ref sig .tc) (h : r ∉ written4) :
    after hostOps4 W (Proc.devRef .tc r) = W (Proc.devRef .tc r) :=
  after_of_writes_sub hostOps4 W hostOps4_writes h

/-- `main_v86` as a function of what the stretch reads. -/
def g_main_v86 (x_arg5 : (Proc.devRef .tc main_arg5 : DevRef τ sig).ty.Contents (Elt F)) : (Proc.devRef .tc main_v86 : DevRef τ sig).ty.Contents (Elt F) :=
  (shapeCast S128x128 (((extractStridedSlice S1x128x128 ![1, 0, 0] · slices_S2x128x128_S1x128x128_1_0_0) : (⟨S2x128x128, .f32⟩ : BufTy).Contents (Elt F) → (⟨S1x128x128, .f32⟩ : BufTy).Contents (Elt F)) x_arg5) shapeCasts_S1x128x128_S128x128)

set_option maxHeartbeats 2000000 in
theorem stretch4_main_v86 (W : Valuation τ sig (Elt F)) :
    after hostOps4 W (Proc.devRef .tc main_v86) = g_main_v86 (W (Proc.devRef .tc main_arg5)) := by
  simp only [hostOps4]
  after_results_simp
  rfl

/-- `main_v88` as a function of what the stretch reads. -/
def g_main_v88 (x_arg6 : (Proc.devRef .tc main_arg6 : DevRef τ sig).ty.Contents (Elt F)) : (Proc.devRef .tc main_v88 : DevRef τ sig).ty.Contents (Elt F) :=
  (shapeCast S128 (((extractStridedSlice S1x128 ![1, 0] · slices_S2x128_S1x128_1_0) : (⟨S2x128, .f32⟩ : BufTy).Contents (Elt F) → (⟨S1x128, .f32⟩ : BufTy).Contents (Elt F)) x_arg6) shapeCasts_S1x128_S128)

set_option maxHeartbeats 2000000 in
theorem stretch4_main_v88 (W : Valuation τ sig (Elt F)) :
    after hostOps4 W (Proc.devRef .tc main_v88) = g_main_v88 (W (Proc.devRef .tc main_arg6)) := by
  simp only [hostOps4]
  after_results_simp
  rfl

/-- `main_v90` as a function of what the stretch reads. -/
def g_main_v90  : (Proc.devRef .tc main_v90 : DevRef τ sig).ty.Contents (Elt F) :=
  (shapeCast S1x128 ((broadcastInDim S128 ![] bcast_S_S128 : (⟨S_, .f32⟩ : BufTy).Contents (Elt F) → (⟨S128, .f32⟩ : BufTy).Contents (Elt F)) (constant S_ .f32 0x00000000#32)) shapeCasts_S128_S1x128)

set_option maxHeartbeats 2000000 in
theorem stretch4_main_v90 (W : Valuation τ sig (Elt F)) :
    after hostOps4 W (Proc.devRef .tc main_v90) = g_main_v90 (F := F) := by
  simp only [hostOps4]
  after_results_simp
  rfl

/-! ## Stretch 5 -/

/-- The buffers stretch 5 writes. -/
abbrev written5 : List (Ref sig .tc) := [main_c_19, main_v92, main_v93, main_c_20, main_v94, main_v95, main_v96, main_v97, main_v98, main_c_21, main_v99, main_v100, main_c_22, main_v101, main_v102, main_v103, main_v104, main_v105, main_v106, main_c_23, main_v107, main_v108, main_c_24, main_v109, main_v110, main_v111, main_v112, main_v113, main_v114, main_v115, main_v116, main_cst_25, main_v117, main_v118, main_v119, main_v120, main_v121]
theorem hostOps5_writes : (hostOps5 : List (HloOp τ sig (Elt F))).Forall fun op => op.writes ⊆ (written5.map (Proc.devRef (τ := τ) .tc)).toFinset := by
  simp only [hostOps5, List.Forall, nullary_writes, unary_writes, binary_writes, ternary_writes, reshape_writes, Finset.singleton_subset_iff, List.mem_toFinset]
  repeat' apply And.intro
  all_goals exact List.mem_map_of_mem (by decide)
/-- A buffer stretch 5 does not write keeps its contents through it. -/
theorem keep5 (W : Valuation τ sig (Elt F)) (r : Ref sig .tc) (h : r ∉ written5) :
    after hostOps5 W (Proc.devRef .tc r) = W (Proc.devRef .tc r) :=
  after_of_writes_sub hostOps5 W hostOps5_writes h

/-- `main_v119` as a function of what the stretch reads. -/
def g_main_v119 (x_v3 : (Proc.devRef .tc main_v3 : DevRef τ sig).ty.Contents (Elt F)) (x_v91 : (Proc.devRef .tc main_v91 : DevRef τ sig).ty.Contents (Elt F)) (x_v1 : (Proc.devRef .tc main_v1 : DevRef τ sig).ty.Contents (Elt F)) (x_v11 : (Proc.devRef .tc main_v11 : DevRef τ sig).ty.Contents (Elt F)) : (Proc.devRef .tc main_v119 : DevRef τ sig).ty.Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x_v3) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_v91 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))))))

set_option maxHeartbeats 2000000 in
theorem stretch5_main_v119 (W : Valuation τ sig (Elt F)) :
    after hostOps5 W (Proc.devRef .tc main_v119) = g_main_v119 (W (Proc.devRef .tc main_v3)) (W (Proc.devRef .tc main_v91)) (W (Proc.devRef .tc main_v1)) (W (Proc.devRef .tc main_v11)) := by
  simp only [hostOps5]
  after_results_simp
  rfl

/-- `main_v120` as a function of what the stretch reads. -/
def g_main_v120 (x_v12 : (Proc.devRef .tc main_v12 : DevRef τ sig).ty.Contents (Elt F)) : (Proc.devRef .tc main_v120 : DevRef τ sig).ty.Contents (Elt F) :=
  (shapeCast S100000x1 x_v12 shapeCasts_S100000_S100000x1)

set_option maxHeartbeats 2000000 in
theorem stretch5_main_v120 (W : Valuation τ sig (Elt F)) :
    after hostOps5 W (Proc.devRef .tc main_v120) = g_main_v120 (W (Proc.devRef .tc main_v12)) := by
  simp only [hostOps5]
  after_results_simp
  rfl

/-- `main_v121` as a function of what the stretch reads. -/
def g_main_v121 (x_v88 : (Proc.devRef .tc main_v88 : DevRef τ sig).ty.Contents (Elt F)) : (Proc.devRef .tc main_v121 : DevRef τ sig).ty.Contents (Elt F) :=
  (shapeCast S1x128 x_v88 shapeCasts_S128_S1x128)

set_option maxHeartbeats 2000000 in
theorem stretch5_main_v121 (W : Valuation τ sig (Elt F)) :
    after hostOps5 W (Proc.devRef .tc main_v121) = g_main_v121 (W (Proc.devRef .tc main_v88)) := by
  simp only [hostOps5]
  after_results_simp
  rfl

/-! ## Stretch 6 -/

/-- The buffers stretch 6 writes. -/
abbrev written6 : List (Ref sig .tc) := [main_v123]
theorem hostOps6_writes : (hostOps6 : List (HloOp τ sig (Elt F))).Forall fun op => op.writes ⊆ (written6.map (Proc.devRef (τ := τ) .tc)).toFinset := by
  simp only [hostOps6, List.Forall, nullary_writes, unary_writes, binary_writes, ternary_writes, reshape_writes, Finset.singleton_subset_iff, List.mem_toFinset]
  repeat' apply And.intro
  all_goals exact List.mem_map_of_mem (by decide)
/-- A buffer stretch 6 does not write keeps its contents through it. -/
theorem keep6 (W : Valuation τ sig (Elt F)) (r : Ref sig .tc) (h : r ∉ written6) :
    after hostOps6 W (Proc.devRef .tc r) = W (Proc.devRef .tc r) :=
  after_of_writes_sub hostOps6 W hostOps6_writes h

/-- `main_v123` as a function of what the stretch reads. -/
def g_main_v123 (x_arg8 : (Proc.devRef .tc main_arg8 : DevRef τ sig).ty.Contents (Elt F)) : (Proc.devRef .tc main_v123 : DevRef τ sig).ty.Contents (Elt F) :=
  (shapeCast S1x64 x_arg8 shapeCasts_S64_S1x64)

set_option maxHeartbeats 2000000 in
theorem stretch6_main_v123 (W : Valuation τ sig (Elt F)) :
    after hostOps6 W (Proc.devRef .tc main_v123) = g_main_v123 (W (Proc.devRef .tc main_arg8)) := by
  simp only [hostOps6]
  after_results_simp
  rfl

/-! ## Stretch 7 -/

/-- The buffers stretch 7 writes. -/
abbrev written7 : List (Ref sig .tc) := [main_v125]
theorem hostOps7_writes : (hostOps7 : List (HloOp τ sig (Elt F))).Forall fun op => op.writes ⊆ (written7.map (Proc.devRef (τ := τ) .tc)).toFinset := by
  simp only [hostOps7, List.Forall, nullary_writes, unary_writes, binary_writes, ternary_writes, reshape_writes, Finset.singleton_subset_iff, List.mem_toFinset]
  repeat' apply And.intro
  all_goals exact List.mem_map_of_mem (by decide)
/-- A buffer stretch 7 does not write keeps its contents through it. -/
theorem keep7 (W : Valuation τ sig (Elt F)) (r : Ref sig .tc) (h : r ∉ written7) :
    after hostOps7 W (Proc.devRef .tc r) = W (Proc.devRef .tc r) :=
  after_of_writes_sub hostOps7 W hostOps7_writes h

/-- `main_v125` as a function of what the stretch reads. -/
def g_main_v125 (x_arg10 : (Proc.devRef .tc main_arg10 : DevRef τ sig).ty.Contents (Elt F)) : (Proc.devRef .tc main_v125 : DevRef τ sig).ty.Contents (Elt F) :=
  (shapeCast S1x32 x_arg10 shapeCasts_S32_S1x32)

set_option maxHeartbeats 2000000 in
theorem stretch7_main_v125 (W : Valuation τ sig (Elt F)) :
    after hostOps7 W (Proc.devRef .tc main_v125) = g_main_v125 (W (Proc.devRef .tc main_arg10)) := by
  simp only [hostOps7]
  after_results_simp
  rfl

/-! ## Stretch 8 -/

/-- The buffers stretch 8 writes. -/
abbrev written8 : List (Ref sig .tc) := [main_c_26, main_v127, main_v128, main_c_27, main_v129, main_v130, main_v131, main_v132, main_v133, main_c_28, main_v134, main_v135, main_c_29, main_v136, main_v137, main_v138, main_v139, main_v140, main_v141, main_v142]
theorem hostOps8_writes : (hostOps8 : List (HloOp τ sig (Elt F))).Forall fun op => op.writes ⊆ (written8.map (Proc.devRef (τ := τ) .tc)).toFinset := by
  simp only [hostOps8, List.Forall, nullary_writes, unary_writes, binary_writes, ternary_writes, reshape_writes, Finset.singleton_subset_iff, List.mem_toFinset]
  repeat' apply And.intro
  all_goals exact List.mem_map_of_mem (by decide)
/-- A buffer stretch 8 does not write keeps its contents through it. -/
theorem keep8 (W : Valuation τ sig (Elt F)) (r : Ref sig .tc) (h : r ∉ written8) :
    after hostOps8 W (Proc.devRef .tc r) = W (Proc.devRef .tc r) :=
  after_of_writes_sub hostOps8 W hostOps8_writes h

/-- `main_v141` as a function of what the stretch reads. -/
def g_main_v141 (x_v126 : (Proc.devRef .tc main_v126 : DevRef τ sig).ty.Contents (Elt F)) (x_v1 : (Proc.devRef .tc main_v1 : DevRef τ sig).ty.Contents (Elt F)) (x_v3 : (Proc.devRef .tc main_v3 : DevRef τ sig).ty.Contents (Elt F)) : (Proc.devRef .tc main_v141 : DevRef τ sig).ty.Contents (Elt F) :=
  (((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)) (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) x_v126 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) x_v126 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))

set_option maxHeartbeats 2000000 in
theorem stretch8_main_v141 (W : Valuation τ sig (Elt F)) :
    after hostOps8 W (Proc.devRef .tc main_v141) = g_main_v141 (W (Proc.devRef .tc main_v126)) (W (Proc.devRef .tc main_v1)) (W (Proc.devRef .tc main_v3)) := by
  simp only [hostOps8]
  after_results_simp
  rfl

/-- `main_v142` as a function of what the stretch reads. -/
def g_main_v142 (x_arg12 : (Proc.devRef .tc main_arg12 : DevRef τ sig).ty.Contents (Elt F)) : (Proc.devRef .tc main_v142 : DevRef τ sig).ty.Contents (Elt F) :=
  (shapeCast S1x6 x_arg12 shapeCasts_S6_S1x6)

set_option maxHeartbeats 2000000 in
theorem stretch8_main_v142 (W : Valuation τ sig (Elt F)) :
    after hostOps8 W (Proc.devRef .tc main_v142) = g_main_v142 (W (Proc.devRef .tc main_arg12)) := by
  simp only [hostOps8]
  after_results_simp
  rfl

end Cert.KernelIdeal.Stretch

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.KValues.lean ====
/-
  The idealized kernel's intermediate arrays, as functions of the argument arrays.

  From the launch contents `A` of the arguments: the edge sources and destinations, the normalisation
  dinv = (deg + 1)^(-1/2) and its square, and then layer by layer — the dense product hw = h · W (a dense layer with a
  zero bias row), the normalised aggregate of hw's rows over the edges, the combine step
  tanh((agg + hw · dinv²) + b) —, the two dense layers with tanh, the concatenation of the rows at the edges' two ends,
  and the final dense layer.  Each array is named once, in terms of the arrays before it.
-/
import proofs.«170606_j48361331753433_2_alg».proof.Proof.KStretches
import proofs.«170606_j48361331753433_2_alg».proof.Proof.LibDense

set_option maxRecDepth 16384

noncomputable section

namespace Cert.KernelIdeal.Values

open Cert.KernelIdeal Cert.KernelIdeal.Gen Cert.KernelIdeal.Stretch Cert.Lib.Dense
open Idealize.ShloMosaic Idealize.ShloMosaic.TcCoe Idealize.SL.Sem Idealize.ShloMosaic.StableHlo

def kv_main_v1 (A : Valuation τ sig (Elt Ideal)) : (Proc.devRef .tc main_v1 : DevRef τ sig).ty.Contents (Elt Ideal) :=
  g_main_v1 (F := Ideal) (A (Proc.devRef .tc main_arg1))

def kv_main_v3 (A : Valuation τ sig (Elt Ideal)) : (Proc.devRef .tc main_v3 : DevRef τ sig).ty.Contents (Elt Ideal) :=
  g_main_v3 (F := Ideal) (A (Proc.devRef .tc main_arg1))

def kv_main_v11 (A : Valuation τ sig (Elt Ideal)) : (Proc.devRef .tc main_v11 : DevRef τ sig).ty.Contents (Elt Ideal) :=
  g_main_v11 (F := Ideal) (A (Proc.devRef .tc main_arg1))

def kv_main_v12 (A : Valuation τ sig (Elt Ideal)) : (Proc.devRef .tc main_v12 : DevRef τ sig).ty.Contents (Elt Ideal) :=
  g_main_v12 (F := Ideal) (A (Proc.devRef .tc main_arg1))

def kv_main_v14 (A : Valuation τ sig (Elt Ideal)) : (Proc.devRef .tc main_v14 : DevRef τ sig).ty.Contents (Elt Ideal) :=
  g_main_v14 (F := Ideal)

/-- The dense layer of region 0. -/
def kv_main_v15 (A : Valuation τ sig (Elt Ideal)) : (Proc.devRef .tc main_v15 : DevRef τ sig).ty.Contents (Elt Ideal) :=
  dense (M := 100000) (K := 128) (N := 128) id (A (Proc.devRef .tc main_arg0)) (A (Proc.devRef .tc main_arg3)) (kv_main_v14 A)

def kv_main_v43 (A : Valuation τ sig (Elt Ideal)) : (Proc.devRef .tc main_v43 : DevRef τ sig).ty.Contents (Elt Ideal) :=
  g_main_v43 (F := Ideal) (kv_main_v3 A) (kv_main_v15 A) (kv_main_v1 A) (kv_main_v11 A)

def kv_main_v44 (A : Valuation τ sig (Elt Ideal)) : (Proc.devRef .tc main_v44 : DevRef τ sig).ty.Contents (Elt Ideal) :=
  g_main_v44 (F := Ideal) (kv_main_v12 A)

def kv_main_v45 (A : Valuation τ sig (Elt Ideal)) : (Proc.devRef .tc main_v45 : DevRef τ sig).ty.Contents (Elt Ideal) :=
  g_main_v45 (F := Ideal) (A (Proc.devRef .tc main_arg4))

/-- The combine step of region 1. -/
def kv_main_v46 (A : Valuation τ sig (Elt Ideal)) : (Proc.devRef .tc main_v46 : DevRef τ sig).ty.Contents (Elt Ideal) :=
  combine (M := 100000) (N := 128) (kv_main_v43 A) (kv_main_v15 A) (kv_main_v44 A) (kv_main_v45 A)

def kv_main_v48 (A : Valuation τ sig (Elt Ideal)) : (Proc.devRef .tc main_v48 : DevRef τ sig).ty.Contents (Elt Ideal) :=
  g_main_v48 (F := Ideal) (A (Proc.devRef .tc main_arg5))

def kv_main_v50 (A : Valuation τ sig (Elt Ideal)) : (Proc.devRef .tc main_v50 : DevRef τ sig).ty.Contents (Elt Ideal) :=
  g_main_v50 (F := Ideal) (A (Proc.devRef .tc main_arg6))

def kv_main_v52 (A : Valuation τ sig (Elt Ideal)) : (Proc.devRef .tc main_v52 : DevRef τ sig).ty.Contents (Elt Ideal) :=
  g_main_v52 (F := Ideal)

/-- The dense layer of region 2. -/
def kv_main_v53 (A : Valuation τ sig (Elt Ideal)) : (Proc.devRef .tc main_v53 : DevRef τ sig).ty.Contents (Elt Ideal) :=
  dense (M := 100000) (K := 128) (N := 128) id (kv_main_v46 A) (kv_main_v48 A) (kv_main_v52 A)

def kv_main_v81 (A : Valuation τ sig (Elt Ideal)) : (Proc.devRef .tc main_v81 : DevRef τ sig).ty.Contents (Elt Ideal) :=
  g_main_v81 (F := Ideal) (kv_main_v3 A) (kv_main_v53 A) (kv_main_v1 A) (kv_main_v11 A)

def kv_main_v82 (A : Valuation τ sig (Elt Ideal)) : (Proc.devRef .tc main_v82 : DevRef τ sig).ty.Contents (Elt Ideal) :=
  g_main_v82 (F := Ideal) (kv_main_v12 A)

def kv_main_v83 (A : Valuation τ sig (Elt Ideal)) : (Proc.devRef .tc main_v83 : DevRef τ sig).ty.Contents (Elt Ideal) :=
  g_main_v83 (F := Ideal) (kv_main_v50 A)

/-- The combine step of region 3. -/
def kv_main_v84 (A : Valuation τ sig (Elt Ideal)) : (Proc.devRef .tc main_v84 : DevRef τ sig).ty.Contents (Elt Ideal) :=
  combine (M := 100000) (N := 128) (kv_main_v81 A) (kv_main_v53 A) (kv_main_v82 A) (kv_main_v83 A)

def kv_main_v86 (A : Valuation τ sig (Elt Ideal)) : (Proc.devRef .tc main_v86 : DevRef τ sig).ty.Contents (Elt Ideal) :=
  g_main_v86 (F := Ideal) (A (Proc.devRef .tc main_arg5))

def kv_main_v88 (A : Valuation τ sig (Elt Ideal)) : (Proc.devRef .tc main_v88 : DevRef τ sig).ty.Contents (Elt Ideal) :=
  g_main_v88 (F := Ideal) (A (Proc.devRef .tc main_arg6))

def kv_main_v90 (A : Valuation τ sig (Elt Ideal)) : (Proc.devRef .tc main_v90 : DevRef τ sig).ty.Contents (Elt Ideal) :=
  g_main_v90 (F := Ideal)

/-- The dense layer of region 4. -/
def kv_main_v91 (A : Valuation τ sig (Elt Ideal)) : (Proc.devRef .tc main_v91 : DevRef τ sig).ty.Contents (Elt Ideal) :=
  dense (M := 100000) (K := 128) (N := 128) id (kv_main_v84 A) (kv_main_v86 A) (kv_main_v90 A)

def kv_main_v119 (A : Valuation τ sig (Elt Ideal)) : (Proc.devRef .tc main_v119 : DevRef τ sig).ty.Contents (Elt Ideal) :=
  g_main_v119 (F := Ideal) (kv_main_v3 A) (kv_main_v91 A) (kv_main_v1 A) (kv_main_v11 A)

def kv_main_v120 (A : Valuation τ sig (Elt Ideal)) : (Proc.devRef .tc main_v120 : DevRef τ sig).ty.Contents (Elt Ideal) :=
  g_main_v120 (F := Ideal) (kv_main_v12 A)

def kv_main_v121 (A : Valuation τ sig (Elt Ideal)) : (Proc.devRef .tc main_v121 : DevRef τ sig).ty.Contents (Elt Ideal) :=
  g_main_v121 (F := Ideal) (kv_main_v88 A)

/-- The combine step of region 5. -/
def kv_main_v122 (A : Valuation τ sig (Elt Ideal)) : (Proc.devRef .tc main_v122 : DevRef τ sig).ty.Contents (Elt Ideal) :=
  combine (M := 100000) (N := 128) (kv_main_v119 A) (kv_main_v91 A) (kv_main_v120 A) (kv_main_v121 A)

def kv_main_v123 (A : Valuation τ sig (Elt Ideal)) : (Proc.devRef .tc main_v123 : DevRef τ sig).ty.Contents (Elt Ideal) :=
  g_main_v123 (F := Ideal) (A (Proc.devRef .tc main_arg8))

/-- The dense layer of region 6. -/
def kv_main_v124 (A : Valuation τ sig (Elt Ideal)) : (Proc.devRef .tc main_v124 : DevRef τ sig).ty.Contents (Elt Ideal) :=
  dense (M := 100000) (K := 128) (N := 64) Ideal.tanh (kv_main_v122 A) (A (Proc.devRef .tc main_arg7)) (kv_main_v123 A)

def kv_main_v125 (A : Valuation τ sig (Elt Ideal)) : (Proc.devRef .tc main_v125 : DevRef τ sig).ty.Contents (Elt Ideal) :=
  g_main_v125 (F := Ideal) (A (Proc.devRef .tc main_arg10))

/-- The dense layer of region 7. -/
def kv_main_v126 (A : Valuation τ sig (Elt Ideal)) : (Proc.devRef .tc main_v126 : DevRef τ sig).ty.Contents (Elt Ideal) :=
  dense (M := 100000) (K := 64) (N := 32) Ideal.tanh (kv_main_v124 A) (A (Proc.devRef .tc main_arg9)) (kv_main_v125 A)

def kv_main_v141 (A : Valuation τ sig (Elt Ideal)) : (Proc.devRef .tc main_v141 : DevRef τ sig).ty.Contents (Elt Ideal) :=
  g_main_v141 (F := Ideal) (kv_main_v126 A) (kv_main_v1 A) (kv_main_v3 A)

def kv_main_v142 (A : Valuation τ sig (Elt Ideal)) : (Proc.devRef .tc main_v142 : DevRef τ sig).ty.Contents (Elt Ideal) :=
  g_main_v142 (F := Ideal) (A (Proc.devRef .tc main_arg12))

/-- The dense layer of region 8. -/
def kv_main_v143 (A : Valuation τ sig (Elt Ideal)) : (Proc.devRef .tc main_v143 : DevRef τ sig).ty.Contents (Elt Ideal) :=
  dense (M := 1600000) (K := 64) (N := 6) id (kv_main_v141 A) (A (Proc.devRef .tc main_arg11)) (kv_main_v142 A)

end Cert.KernelIdeal.Values

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Payloads.lean ====
/-
  What each kernel body computes, entry by entry, on the extended reals.

  The six dense bodies load a block of rows x, the whole weight matrix w and the bias row b, and store
      y(p, q) = (∑ k, x(p, k) · w(k, q)) + b(0, q)            (three of them)
      y(p, q) = tanh((∑ k, x(p, k) · w(k, q)) + b(0, q))      (the other three)
  (the narrowing of x and w to a shorter float format is the identity on the extended reals, and the product
  accumulates into zero).  The three combine bodies load a block of the aggregate a, of the product h, the
  matching piece of the scale column d and the bias row b, and store
      y(p, q) = tanh((a(p, q) + h(p, q) · d(p, 0)) + b(0, q)).
-/
import proofs.«170606_j48361331753433_2_alg».proof.Proof.Gen.KernelIdeal.Skeleton
import proofs.«170606_j48361331753433_2_alg».proof.Proof.LibDense
import proofs.«170606_j48361331753433_2_alg».proof.Proof.LibKeepdims
import Idealize.ShloMosaic.Lib.ValueLayout

noncomputable section

namespace Cert.KernelIdeal.Pay

open Cert.KernelIdeal Cert.KernelIdeal.Gen
open Idealize.ShloMosaic Idealize.ShloMosaic.ValueIdx Cert.Lib.Dense Cert.Lib.Keepdims
open scoped BigOperators

/-- Dense body 0: entry `(p, q)` of the stored block. -/
theorem pay0_at (x0 : Vec Ideal S5000x128 .f32) (x1 : Vec Ideal S128x128 .f32) (x2 : Vec Ideal S1x128 .f32)
    (p : Fin 5000) (q : Fin 128) :
    k0_pay1 x0 x1 x2 (ix2 p q) = rowDot x0 x1 p q + x2 (ix2 (0 : Fin 1) q) := by
  unfold k0_pay1
  simp only [shapeCast_self]
  exact (congrArg₂ (fun a b : EReal => a + b)
      ((Ideal.matmul_constant_zero_apply dot_S5000x128_S128x128_S5000x128_1_0_0_1_n_n none _ _ (ix2 p q)).trans
        (plain_sum dot_S5000x128_S128x128_S5000x128_1_0_0_1_n_n rfl rfl rfl rfl rfl rfl _ _ p q))
      (broadcastTo_1b_ab_apply x2 _ p q))

/-- Dense body 2: entry `(p, q)` of the stored block. -/
theorem pay2_at (x0 : Vec Ideal S5000x128 .f32) (x1 : Vec Ideal S128x128 .f32) (x2 : Vec Ideal S1x128 .f32)
    (p : Fin 5000) (q : Fin 128) :
    k2_pay1 x0 x1 x2 (ix2 p q) = rowDot x0 x1 p q + x2 (ix2 (0 : Fin 1) q) := by
  unfold k2_pay1
  simp only [shapeCast_self]
  exact (congrArg₂ (fun a b : EReal => a + b)
      ((Ideal.matmul_constant_zero_apply dot_S5000x128_S128x128_S5000x128_1_0_0_1_n_n none _ _ (ix2 p q)).trans
        (plain_sum dot_S5000x128_S128x128_S5000x128_1_0_0_1_n_n rfl rfl rfl rfl rfl rfl _ _ p q))
      (broadcastTo_1b_ab_apply x2 _ p q))

/-- Dense body 4: entry `(p, q)` of the stored block. -/
theorem pay4_at (x0 : Vec Ideal S5000x128 .f32) (x1 : Vec Ideal S128x128 .f32) (x2 : Vec Ideal S1x128 .f32)
    (p : Fin 5000) (q : Fin 128) :
    k4_pay1 x0 x1 x2 (ix2 p q) = rowDot x0 x1 p q + x2 (ix2 (0 : Fin 1) q) := by
  unfold k4_pay1
  simp only [shapeCast_self]
  exact (congrArg₂ (fun a b : EReal => a + b)
      ((Ideal.matmul_constant_zero_apply dot_S5000x128_S128x128_S5000x128_1_0_0_1_n_n none _ _ (ix2 p q)).trans
        (plain_sum dot_S5000x128_S128x128_S5000x128_1_0_0_1_n_n rfl rfl rfl rfl rfl rfl _ _ p q))
      (broadcastTo_1b_ab_apply x2 _ p q))

/-- Dense body 6: entry `(p, q)` of the stored block. -/
theorem pay6_at (x0 : Vec Ideal S5000x128 .f32) (x1 : Vec Ideal S128x64 .f32) (x2 : Vec Ideal S1x64 .f32)
    (p : Fin 5000) (q : Fin 64) :
    k6_pay1 x0 x1 x2 (ix2 p q) = Ideal.tanh (rowDot x0 x1 p q + x2 (ix2 (0 : Fin 1) q)) := by
  unfold k6_pay1
  simp only [shapeCast_self]
  exact congrArg Ideal.tanh (congrArg₂ (fun a b : EReal => a + b)
      ((Ideal.matmul_constant_zero_apply dot_S5000x128_S128x64_S5000x64_1_0_0_1_n_n none _ _ (ix2 p q)).trans
        (plain_sum dot_S5000x128_S128x64_S5000x64_1_0_0_1_n_n rfl rfl rfl rfl rfl rfl _ _ p q))
      (broadcastTo_1b_ab_apply x2 _ p q))

/-- Dense body 7: entry `(p, q)` of the stored block. -/
theorem pay7_at (x0 : Vec Ideal S5000x64 .f32) (x1 : Vec Ideal S64x32 .f32) (x2 : Vec Ideal S1x32 .f32)
    (p : Fin 5000) (q : Fin 32) :
    k7_pay1 x0 x1 x2 (ix2 p q) = Ideal.tanh (rowDot x0 x1 p q + x2 (ix2 (0 : Fin 1) q)) := by
  unfold k7_pay1
  simp only [shapeCast_self]
  exact congrArg Ideal.tanh (congrArg₂ (fun a b : EReal => a + b)
      ((Ideal.matmul_constant_zero_apply dot_S5000x64_S64x32_S5000x32_1_0_0_1_n_n none _ _ (ix2 p q)).trans
        (plain_sum dot_S5000x64_S64x32_S5000x32_1_0_0_1_n_n rfl rfl rfl rfl rfl rfl _ _ p q))
      (broadcastTo_1b_ab_apply x2 _ p q))

/-- Dense body 8: entry `(p, q)` of the stored block. -/
theorem pay8_at (x0 : Vec Ideal S8000x64 .f32) (x1 : Vec Ideal S64x6 .f32) (x2 : Vec Ideal S1x6 .f32)
    (p : Fin 8000) (q : Fin 6) :
    k8_pay1 x0 x1 x2 (ix2 p q) = rowDot x0 x1 p q + x2 (ix2 (0 : Fin 1) q) := by
  unfold k8_pay1
  simp only [shapeCast_self]
  exact (congrArg₂ (fun a b : EReal => a + b)
      ((Ideal.matmul_constant_zero_apply dot_S8000x64_S64x6_S8000x6_1_0_0_1_n_n none _ _ (ix2 p q)).trans
        (plain_sum dot_S8000x64_S64x6_S8000x6_1_0_0_1_n_n rfl rfl rfl rfl rfl rfl _ _ p q))
      (broadcastTo_1b_ab_apply x2 _ p q))

/-- Combine body 1: entry `(p, q)` of the stored block. -/
theorem pay1_at (x0 x1 : Vec Ideal S5000x128 .f32) (x2 : Vec Ideal S5000x1 .f32) (x3 : Vec Ideal S1x128 .f32)
    (p : Fin 5000) (q : Fin 128) :
    k1_pay1 x0 x1 x2 x3 (ix2 p q)
      = Ideal.tanh ((x0 (ix2 p q) + x1 (ix2 p q) * x2 (ix2 p (0 : Fin 1))) + x3 (ix2 (0 : Fin 1) q)) := by
  unfold k1_pay1
  simp only [shapeCast_self]
  exact congrArg Ideal.tanh (congrArg₂ (fun a b : EReal => a + b)
    (congrArg₂ (fun a b : EReal => a + b) rfl
      (congrArg₂ (fun a b : EReal => a * b) rfl (broadcastTo_a1_ab_apply x2 _ p q)))
    (broadcastTo_1b_ab_apply x3 _ p q))

/-- Combine body 3: entry `(p, q)` of the stored block. -/
theorem pay3_at (x0 x1 : Vec Ideal S5000x128 .f32) (x2 : Vec Ideal S5000x1 .f32) (x3 : Vec Ideal S1x128 .f32)
    (p : Fin 5000) (q : Fin 128) :
    k3_pay1 x0 x1 x2 x3 (ix2 p q)
      = Ideal.tanh ((x0 (ix2 p q) + x1 (ix2 p q) * x2 (ix2 p (0 : Fin 1))) + x3 (ix2 (0 : Fin 1) q)) := by
  unfold k3_pay1
  simp only [shapeCast_self]
  exact congrArg Ideal.tanh (congrArg₂ (fun a b : EReal => a + b)
    (congrArg₂ (fun a b : EReal => a + b) rfl
      (congrArg₂ (fun a b : EReal => a * b) rfl (broadcastTo_a1_ab_apply x2 _ p q)))
    (broadcastTo_1b_ab_apply x3 _ p q))

/-- Combine body 5: entry `(p, q)` of the stored block. -/
theorem pay5_at (x0 x1 : Vec Ideal S5000x128 .f32) (x2 : Vec Ideal S5000x1 .f32) (x3 : Vec Ideal S1x128 .f32)
    (p : Fin 5000) (q : Fin 128) :
    k5_pay1 x0 x1 x2 x3 (ix2 p q)
      = Ideal.tanh ((x0 (ix2 p q) + x1 (ix2 p q) * x2 (ix2 p (0 : Fin 1))) + x3 (ix2 (0 : Fin 1) q)) := by
  unfold k5_pay1
  simp only [shapeCast_self]
  exact congrArg Ideal.tanh (congrArg₂ (fun a b : EReal => a + b)
    (congrArg₂ (fun a b : EReal => a + b) rfl
      (congrArg₂ (fun a b : EReal => a * b) rfl (broadcastTo_a1_ab_apply x2 _ p q)))
    (broadcastTo_1b_ab_apply x3 _ p q))

end Cert.KernelIdeal.Pay

end
-- ==== Proof.Region0.lean ====
/-
  Region 0: a dense layer over 20 blocks of 5000 rows.

  Grid point t loads rows 5000·t … 5000·t + 4999 of x, the whole of w and of the bias row, and writes back the same rows of
  the result.  So block t of the result is block t of ONE function of the whole arrays,
      y(r, q) = (∑ k, x(r, k) · w(k, q)) + b(0, q),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the dense layer of the arrays as the region finds them. -/
theorem flushed_eq (c : Dev nD) (t : Fin cfg0.N) :
    (dat0 V c).flushed 3 t = ((cfg0.win 3).blk t).view.read (Elt Ideal)
      (dense id (V c main_arg0) (V c main_arg3) (V c main_v14)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := block_indices t
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  -- the row of the whole array this entry is
  have hE : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, iblk0 V c 0 t (ix2 p k) = V c main_arg0 (ix2 (⟨t.val * 5000 + p.val, by omega⟩ : Fin 100000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k q) = V c main_arg3 (ix2 k q) := fun k => by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 (0 : Fin 1) q) = V c main_v14 (ix2 (0 : Fin 1) q) := by
    show V c main_v14 (((cfg0.win 2).blk t).view.emb (ix2 (0 : Fin 1) q)) = _
    refine congrArg (V c main_v14) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  refine (pay0_at (iblk0 V c 0 t) (iblk0 V c 1 t) (iblk0 V c 2 t) p q).trans ?_
  show _ = dense id (V c main_arg0) (V c main_arg3) (V c main_v14) (((cfg0.win 3).blk t).view.emb (ix2 p q))
  rw [hE, dense_ix2]
  refine congrArg (id : EReal → EReal) (congrArg₂ (fun a b : EReal => a + b) ?_ h2)
  exact Finset.sum_congr rfl fun k _ => congrArg₂ (fun a b : EReal => a * b) (h0 k) (h1 k)

/-- An index of the result array is in point `t`'s block iff each coordinate is in the block's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row `r` lies in the block of point `r / 5000`: the blocks tile the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨e0, e1, e2, e3, e4, e5, e6, e7⟩ := block_indices ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- After the region the result array is the dense layer of the arrays the region found. -/
theorem final (c : Dev nD) :
    (dat0 V c).arrAt 3 cfg0.N = dense id (V c main_arg0) (V c main_arg3) (V c main_v14) :=
  (dat0 V c).arrAt_eq_of_cover 3 _ (fun t _ => flushed_eq V c t) cover

end Cert.KernelIdeal.Region0

end
-- ==== Proof.Region1.lean ====
/-
  Region 1: the combine step over 20 blocks of 5000 rows.

  Grid point t loads rows 5000·t … 5000·t + 4999 of the aggregate a, of the product h and of the scale column d, and the
  whole bias row b, and writes back the same rows of the result.  So block t of the result is block t of ONE function
  of the whole arrays,
      y(r, q) = tanh((a(r, q) + h(r, q) · d(r, 0)) + b(0, q)),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region1

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combine step of the arrays as the region finds them. -/
theorem flushed_eq (c : Dev nD) (t : Fin cfg1.N) :
    (dat1 V c).flushed 4 t = ((cfg1.win 4).blk t).view.read (Elt Ideal)
      (combine (V c main_v43) (V c main_v15) (V c main_v44) (V c main_v45)) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := block_indices t
  have hN : cfg1.N = 20 := N_1
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  have hE : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  have h0 : iblk1 V c 0 t (ix2 p q) = V c main_v43 (ix2 (⟨t.val * 5000 + p.val, by omega⟩ : Fin 100000) q) := by
    show V c main_v43 (((cfg1.win 0).blk t).view.emb (ix2 p q)) = _
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 p q) = V c main_v15 (ix2 (⟨t.val * 5000 + p.val, by omega⟩ : Fin 100000) q) := by
    show V c main_v15 (((cfg1.win 1).blk t).view.emb (ix2 p q)) = _
    refine congrArg (V c main_v15) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  have h2 : iblk1 V c 2 t (ix2 p (0 : Fin 1)) = V c main_v44 (ix2 (⟨t.val * 5000 + p.val, by omega⟩ : Fin 100000) (0 : Fin 1)) := by
    show V c main_v44 (((cfg1.win 2).blk t).view.emb (ix2 p (0 : Fin 1))) = _
    refine congrArg (V c main_v44) ?_
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : iblk1 V c 3 t (ix2 (0 : Fin 1) q) = V c main_v45 (ix2 (0 : Fin 1) q) := by
    show V c main_v45 (((cfg1.win 3).blk t).view.emb (ix2 (0 : Fin 1) q)) = _
    refine congrArg (V c main_v45) ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega
  refine (pay1_at (iblk1 V c 0 t) (iblk1 V c 1 t) (iblk1 V c 2 t) (iblk1 V c 3 t) p q).trans ?_
  show _ = combine (V c main_v43) (V c main_v15) (V c main_v44) (V c main_v45) (((cfg1.win 4).blk t).view.emb (ix2 p q))
  rw [hE, combine_ix2, h0, h1, h2, h3]

/-- An index of the result array is in point `t`'s block iff each coordinate is in the block's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- Row `r` lies in the block of point `r / 5000`: the blocks tile the array. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  rw [mem_blk]
  obtain ⟨e0, e1, e2, e3, e4, e5, e6, e7, e8, e9⟩ := block_indices ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e9]; omega

/-- After the region the result array is the combine step of the arrays the region found. -/
theorem final (c : Dev nD) :
    (dat1 V c).arrAt 4 cfg1.N = combine (V c main_v43) (V c main_v15) (V c main_v44) (V c main_v45) :=
  (dat1 V c).arrAt_eq_of_cover 4 _ (fun t _ => flushed_eq V c t) cover

end Cert.KernelIdeal.Region1

end
-- ==== Proof.Region2.lean ====
/-
  Region 2: a dense layer over 20 blocks of 5000 rows.

  Grid point t loads rows 5000·t … 5000·t + 4999 of x, the whole of w and of the bias row, and writes back the same rows of
  the result.  So block t of the result is block t of ONE function of the whole arrays,
      y(r, q) = (∑ k, x(r, k) · w(k, q)) + b(0, q),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region2

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the dense layer of the arrays as the region finds them. -/
theorem flushed_eq (c : Dev nD) (t : Fin cfg2.N) :
    (dat2 V c).flushed 3 t = ((cfg2.win 3).blk t).view.read (Elt Ideal)
      (dense id (V c main_v46) (V c main_v48) (V c main_v52)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := block_indices t
  have hN : cfg2.N = 20 := N_2
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  -- the row of the whole array this entry is
  have hE : ((cfg2.win 3).blk t).view.emb (ix2 p q) = ix2 (⟨t.val * 5000 + p.val, by omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  have h0 : ∀ k : Fin 128, iblk2 V c 0 t (ix2 p k) = V c main_v46 (ix2 (⟨t.val * 5000 + p.val, by omega⟩ : Fin 100000) k) := fun k => by
    show V c main_v46 (((cfg2.win 0).blk t).view.emb (ix2 p k)) = _
    refine congrArg (V c main_v46) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 k q) = V c main_v48 (ix2 k q) := fun k => by
    show V c main_v48 (((cfg2.win 1).blk t).view.emb (ix2 k q)) = _
    refine congrArg (V c main_v48) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : iblk2 V c 2 t (ix2 (0 : Fin 1) q) = V c main_v52 (ix2 (0 : Fin 1) q) := by
    show V c main_v52 (((cfg2.win 2).blk t).view.emb (ix2 (0 : Fin 1) q)) = _
    refine congrArg (V c main_v52) ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega
  refine (pay2_at (iblk2 V c 0 t) (iblk2 V c 1 t) (iblk2 V c 2 t) p q).trans ?_
  show _ = dense id (V c main_v46) (V c main_v48) (V c main_v52) (((cfg2.win 3).blk t).view.emb (ix2 p q))
  rw [hE, dense_ix2]
  refine congrArg (id : EReal → EReal) (congrArg₂ (fun a b : EReal => a + b) ?_ h2)
  exact Finset.sum_congr rfl fun k _ => congrArg₂ (fun a b : EReal => a * b) (h0 k) (h1 k)

/-- An index of the result array is in point `t`'s block iff each coordinate is in the block's range. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v53).slice (win2_3.rect t)).set ↔ _
  rw [View.set_slice_whole, Rect.mem_set_unit]
  exact Iff.rfl

/-- Row `r` lies in the block of point `r / 5000`: the blocks tile the array. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [mem_blk]
  obtain ⟨e0, e1, e2, e3, e4, e5, e6, e7⟩ := block_indices ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e7]; omega

/-- After the region the result array is the dense layer of the arrays the region found. -/
theorem final (c : Dev nD) :
    (dat2 V c).arrAt 3 cfg2.N = dense id (V c main_v46) (V c main_v48) (V c main_v52) :=
  (dat2 V c).arrAt_eq_of_cover 3 _ (fun t _ => flushed_eq V c t) cover

end Cert.KernelIdeal.Region2

end
-- ==== Proof.Region3.lean ====
/-
  Region 3: the combine step over 20 blocks of 5000 rows.

  Grid point t loads rows 5000·t … 5000·t + 4999 of the aggregate a, of the product h and of the scale column d, and the
  whole bias row b, and writes back the same rows of the result.  So block t of the result is block t of ONE function
  of the whole arrays,
      y(r, q) = tanh((a(r, q) + h(r, q) · d(r, 0)) + b(0, q)),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region3

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the combine step of the arrays as the region finds them. -/
theorem flushed_eq (c : Dev nD) (t : Fin cfg3.N) :
    (dat3 V c).flushed 4 t = ((cfg3.win 4).blk t).view.read (Elt Ideal)
      (combine (V c main_v81) (V c main_v53) (V c main_v82) (V c main_v83)) := by
  show (cfg3.win 4).cut (grid3.coords t) ((dat3 V c).after 4 t) = _
  rw [after3_4]
  unfold out3_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := block_indices t
  have hN : cfg3.N = 20 := N_3
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  have hE : ((cfg3.win 4).blk t).view.emb (ix2 p q) = ix2 (⟨t.val * 5000 + p.val, by omega⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * q.val = q.val; omega
  have h0 : iblk3 V c 0 t (ix2 p q) = V c main_v81 (ix2 (⟨t.val * 5000 + p.val, by omega⟩ : Fin 100000) q) := by
    show V c main_v81 (((cfg3.win 0).blk t).view.emb (ix2 p q)) = _
    refine congrArg (V c main_v81) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 p q) = V c main_v53 (ix2 (⟨t.val * 5000 + p.val, by omega⟩ : Fin 100000) q) := by
    show V c main_v53 (((cfg3.win 1).blk t).view.emb (ix2 p q)) = _
    refine congrArg (V c main_v53) ?_
    funext a; apply Fin.ext
    match a with
    | ⟨0, _⟩ => show win3_1.index t (0 : Fin 2) * 5000 + 1 * p.val = t.val * 5000 + p.val; omega
    | ⟨1, _⟩ => show win3_1.index t (1 : Fin 2) * 128 + 1 * q.val = q.val; omega
  have h2 : iblk3 V c 2 t (ix2 p (0 : Fin 1)) = V c main_v82 (ix2 (⟨t.val * 5000 + p.val, by omega⟩ : Fin 100000) (0 : Fin 1)) := by
    show V c main_v82 (((cfg3.win 2).blk t).view.emb (ix2 p (0 : Fin 1))) = _
    refine congrArg (V c main_v82) ?_
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : iblk3 V c 3 t (ix2 (0 : Fin 1) q) = V c main_v83 (ix2 (0 : Fin 1) q) := by
    show V c main_v83 (((cfg3.win 3).blk t).view.emb (ix2 (0 : Fin 1) q)) = _
    refine congrArg (V c main_v83) ?_
    funext a; apply Fin.ext
    match a with
    | ⟨0, _⟩ => show win3_3.index t (0 : Fin 2) * 1 + 1 * 0 = 0; omega
    | ⟨1, _⟩ => show win3_3.index t (1 : Fin 2) * 128 + 1 * q.val = q.val; omega
  refine (pay3_at (iblk3 V c 0 t) (iblk3 V c 1 t) (iblk3 V c 2 t) (iblk3 V c 3 t) p q).trans ?_
  show _ = combine (V c main_v81) (V c main_v53) (V c main_v82) (V c main_v83) (((cfg3.win 4).blk t).view.emb (ix2 p q))
  rw [hE, combine_ix2, h0, h1, h2, h3]

/-- An index of the result array is in point `t`'s block iff each coordinate is in the block's range. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v84).slice (win3_4.rect t)).set ↔ _
  rw [View.set_slice_whole, Rect.mem_set_unit]
  exact Iff.rfl

/-- Row `r` lies in the block of point `r / 5000`: the blocks tile the array. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_4 _, ?_⟩
  rw [mem_blk]
  obtain ⟨e0, e1, e2, e3, e4, e5, e6, e7, e8, e9⟩ := block_indices ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [e8]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e9]; omega

/-- After the region the result array is the combine step of the arrays the region found. -/
theorem final (c : Dev nD) :
    (dat3 V c).arrAt 4 cfg3.N = combine (V c main_v81) (V c main_v53) (V c main_v82) (V c main_v83) :=
  (dat3 V c).arrAt_eq_of_cover 4 _ (fun t _ => flushed_eq V c t) cover

end Cert.KernelIdeal.Region3

end
-- ==== Proof.Region4.lean ====
/-
  Region 4: a dense layer over 20 blocks of 5000 rows.

  Grid point t loads rows 5000·t … 5000·t + 4999 of x, the whole of w and of the bias row, and writes back the same rows of
  the result.  So block t of the result is block t of ONE function of the whole arrays,
      y(r, q) = (∑ k, x(r, k) · w(k, q)) + b(0, q),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region4

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the dense layer of the arrays as the region finds them. -/
theorem flushed_eq (c : Dev nD) (t : Fin cfg4.N) :
    (dat4 V c).flushed 3 t = ((cfg4.win 3).blk t).view.read (Elt Ideal)
      (dense id (V c main_v84) (V c main_v86) (V c main_v90)) := by
  show (cfg4.win 3).cut (grid4.coords t) ((dat4 V c).after 3 t) = _
  rw [after4_3]
  unfold out4_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := block_indices t
  have hN : cfg4.N = 20 := N_4
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  -- the row of the whole array this entry is
  have hE : ((cfg4.win 3).blk t).view.emb (ix2 p q) = ix2 (⟨t.val * 5000 + p.val, by omega⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 128 + 1 * q.val = q.val; omega
  have h0 : ∀ k : Fin 128, iblk4 V c 0 t (ix2 p k) = V c main_v84 (ix2 (⟨t.val * 5000 + p.val, by omega⟩ : Fin 100000) k) := fun k => by
    show V c main_v84 (((cfg4.win 0).blk t).view.emb (ix2 p k)) = _
    refine congrArg (V c main_v84) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ∀ k : Fin 128, iblk4 V c 1 t (ix2 k q) = V c main_v86 (ix2 k q) := fun k => by
    show V c main_v86 (((cfg4.win 1).blk t).view.emb (ix2 k q)) = _
    refine congrArg (V c main_v86) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  have h2 : iblk4 V c 2 t (ix2 (0 : Fin 1) q) = V c main_v90 (ix2 (0 : Fin 1) q) := by
    show V c main_v90 (((cfg4.win 2).blk t).view.emb (ix2 (0 : Fin 1) q)) = _
    refine congrArg (V c main_v90) ?_
    funext a; apply Fin.ext
    match a with
    | ⟨0, _⟩ => show win4_2.index t (0 : Fin 2) * 1 + 1 * 0 = 0; omega
    | ⟨1, _⟩ => show win4_2.index t (1 : Fin 2) * 128 + 1 * q.val = q.val; omega
  refine (pay4_at (iblk4 V c 0 t) (iblk4 V c 1 t) (iblk4 V c 2 t) p q).trans ?_
  show _ = dense id (V c main_v84) (V c main_v86) (V c main_v90) (((cfg4.win 3).blk t).view.emb (ix2 p q))
  rw [hE, dense_ix2]
  refine congrArg (id : EReal → EReal) (congrArg₂ (fun a b : EReal => a + b) ?_ h2)
  exact Finset.sum_congr rfl fun k _ => congrArg₂ (fun a b : EReal => a * b) (h0 k) (h1 k)

/-- An index of the result array is in point `t`'s block iff each coordinate is in the block's range. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v91).slice (win4_3.rect t)).set ↔ _
  rw [View.set_slice_whole, Rect.mem_set_unit]
  exact Iff.rfl

/-- Row `r` lies in the block of point `r / 5000`: the blocks tile the array. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_3 _, ?_⟩
  rw [mem_blk]
  obtain ⟨e0, e1, e2, e3, e4, e5, e6, e7⟩ := block_indices ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e6]; show (i 0).val / 5000 * 5000 ≤ (i 0).val ∧ (i 0).val < (i 0).val / 5000 * 5000 + 5000; omega
  | ⟨1, _⟩ =>
    show win4_3.index _ (1 : Fin 2) * 128 ≤ (i 1).val ∧ (i 1).val < win4_3.index _ (1 : Fin 2) * 128 + 128
    rw [e7]; omega

/-- After the region the result array is the dense layer of the arrays the region found. -/
theorem final (c : Dev nD) :
    (dat4 V c).arrAt 3 cfg4.N = dense id (V c main_v84) (V c main_v86) (V c main_v90) :=
  (dat4 V c).arrAt_eq_of_cover 3 _ (fun t _ => flushed_eq V c t) cover

end Cert.KernelIdeal.Region4

end
-- ==== Proof.Region5.lean ====
/-
  Region 5: the combine step over 20 blocks of 5000 rows.

  Grid point t loads rows 5000·t … 5000·t + 4999 of the aggregate a, of the product h and of the scale column d, and the
  whole bias row b, and writes back the same rows of the result.  So block t of the result is block t of ONE function
  of the whole arrays,
      y(r, q) = tanh((a(r, q) + h(r, q) · d(r, 0)) + b(0, q)),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region5

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the combine step of the arrays as the region finds them. -/
theorem flushed_eq (c : Dev nD) (t : Fin cfg5.N) :
    (dat5 V c).flushed 4 t = ((cfg5.win 4).blk t).view.read (Elt Ideal)
      (combine (V c main_v119) (V c main_v91) (V c main_v120) (V c main_v121)) := by
  show (cfg5.win 4).cut (grid5.coords t) ((dat5 V c).after 4 t) = _
  rw [after5_4]
  unfold out5_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := block_indices t
  have hN : cfg5.N = 20 := N_5
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  have hE : ((cfg5.win 4).blk t).view.emb (ix2 p q) = ix2 (⟨t.val * 5000 + p.val, by omega⟩ : Fin 100000) q := by
    funext a; apply Fin.ext
    match a with
    | ⟨0, _⟩ => show win5_4.index t (0 : Fin 2) * 5000 + 1 * p.val = t.val * 5000 + p.val; omega
    | ⟨1, _⟩ => show win5_4.index t (1 : Fin 2) * 128 + 1 * q.val = q.val; omega
  have h0 : iblk5 V c 0 t (ix2 p q) = V c main_v119 (ix2 (⟨t.val * 5000 + p.val, by omega⟩ : Fin 100000) q) := by
    show V c main_v119 (((cfg5.win 0).blk t).view.emb (ix2 p q)) = _
    refine congrArg (V c main_v119) ?_
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : iblk5 V c 1 t (ix2 p q) = V c main_v91 (ix2 (⟨t.val * 5000 + p.val, by omega⟩ : Fin 100000) q) := by
    show V c main_v91 (((cfg5.win 1).blk t).view.emb (ix2 p q)) = _
    refine congrArg (V c main_v91) ?_
    funext a; apply Fin.ext
    match a with
    | ⟨0, _⟩ => show win5_1.index t (0 : Fin 2) * 5000 + 1 * p.val = t.val * 5000 + p.val; omega
    | ⟨1, _⟩ => show win5_1.index t (1 : Fin 2) * 128 + 1 * q.val = q.val; omega
  have h2 : iblk5 V c 2 t (ix2 p (0 : Fin 1)) = V c main_v120 (ix2 (⟨t.val * 5000 + p.val, by omega⟩ : Fin 100000) (0 : Fin 1)) := by
    show V c main_v120 (((cfg5.win 2).blk t).view.emb (ix2 p (0 : Fin 1))) = _
    refine congrArg (V c main_v120) ?_
    funext a; apply Fin.ext
    match a with
    | ⟨0, _⟩ => show win5_2.index t (0 : Fin 2) * 5000 + 1 * p.val = t.val * 5000 + p.val; omega
    | ⟨1, _⟩ => show win5_2.index t (1 : Fin 2) * 1 + 1 * 0 = 0; omega
  have h3 : iblk5 V c 3 t (ix2 (0 : Fin 1) q) = V c main_v121 (ix2 (0 : Fin 1) q) := by
    show V c main_v121 (((cfg5.win 3).blk t).view.emb (ix2 (0 : Fin 1) q)) = _
    refine congrArg (V c main_v121) ?_
    funext a; apply Fin.ext
    match a with
    | ⟨0, _⟩ => show win5_3.index t (0 : Fin 2) * 1 + 1 * 0 = 0; omega
    | ⟨1, _⟩ => show win5_3.index t (1 : Fin 2) * 128 + 1 * q.val = q.val; omega
  refine (pay5_at (iblk5 V c 0 t) (iblk5 V c 1 t) (iblk5 V c 2 t) (iblk5 V c 3 t) p q).trans ?_
  show _ = combine (V c main_v119) (V c main_v91) (V c main_v120) (V c main_v121) (((cfg5.win 4).blk t).view.emb (ix2 p q))
  rw [hE, combine_ix2, h0, h1, h2, h3]

/-- An index of the result array is in point `t`'s block iff each coordinate is in the block's range. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v122).slice (win5_4.rect t)).set ↔ _
  rw [View.set_slice_whole, Rect.mem_set_unit]
  exact Iff.rfl

/-- Row `r` lies in the block of point `r / 5000`: the blocks tile the array. -/
theorem cover (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_4 _, ?_⟩
  rw [mem_blk]
  obtain ⟨e0, e1, e2, e3, e4, e5, e6, e7, e8, e9⟩ := block_indices ⟨(i 0).val / 5000, by rw [hN]; omega⟩
  intro a
  match a with
  | ⟨0, _⟩ =>
    show win5_4.index _ (0 : Fin 2) * 5000 ≤ (i 0).val ∧ (i 0).val < win5_4.index _ (0 : Fin 2) * 5000 + 5000
    rw [e8]; show (i 0).val / 5000 * 5000 ≤ (i 0).val ∧ (i 0).val < (i 0).val / 5000 * 5000 + 5000; omega
  | ⟨1, _⟩ =>
    show win5_4.index _ (1 : Fin 2) * 128 ≤ (i 1).val ∧ (i 1).val < win5_4.index _ (1 : Fin 2) * 128 + 128
    rw [e9]; omega

/-- After the region the result array is the combine step of the arrays the region found. -/
theorem final (c : Dev nD) :
    (dat5 V c).arrAt 4 cfg5.N = combine (V c main_v119) (V c main_v91) (V c main_v120) (V c main_v121) :=
  (dat5 V c).arrAt_eq_of_cover 4 _ (fun t _ => flushed_eq V c t) cover

end Cert.KernelIdeal.Region5

end
-- ==== Proof.Region6.lean ====
/-
  Region 6: a dense layer over 20 blocks of 5000 rows.

  Grid point t loads rows 5000·t … 5000·t + 4999 of x, the whole of w and of the bias row, and writes back the same rows of
  the result.  So block t of the result is block t of ONE function of the whole arrays,
      y(r, q) = tanh((∑ k, x(r, k) · w(k, q)) + b(0, q)),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region6

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the dense layer of the arrays as the region finds them. -/
theorem flushed_eq (c : Dev nD) (t : Fin cfg6.N) :
    (dat6 V c).flushed 3 t = ((cfg6.win 3).blk t).view.read (Elt Ideal)
      (dense Ideal.tanh (V c main_v122) (V c main_arg7) (V c main_v123)) := by
  show (cfg6.win 3).cut (grid6.coords t) ((dat6 V c).after 3 t) = _
  rw [after6_3]
  unfold out6_3
  rw [View.canon_unit_zero origin]
  simp only [View.ld_unit_zero (S := S5000x128) origin, View.ld_unit_zero (S := S128x64) origin, View.ld_unit_zero (S := S1x64) origin]
  obtain ⟨e0, e1, e2, e3, e4, e5, e6, e7⟩ := block_indices t
  have hN : cfg6.N = 20 := N_6
  have ht : t.val < 20 := hN ▸ t.isLt
  funext j
  obtain ⟨p, q, rfl⟩ : ∃ (p : Fin 5000) (q : Fin 64), j = ix2 p q := ⟨j 0, j 1, eq_ix2 j⟩
  have hp : p.val < 5000 := p.isLt
  -- the row of the whole array this entry is
  have hE : ((cfg6.win 3).blk t).view.emb (ix2 p q) = ix2 (⟨t.val * 5000 + p.val, by omega⟩ : Fin 100000) q := by
    funext a; apply Fin.ext
    match a with
    | ⟨0, _⟩ => show win6_3.index t (0 : Fin 2) * 5000 + 1 * p.val = t.val * 5000 + p.val; omega
    | ⟨1, _⟩ => show win6_3.index t (1 : Fin 2) * 64 + 1 * q.val = q.val; omega
  have h0 : ∀ k : Fin 128, iblk6 V c 0 t (ix2 p k) = V c main_v122 (ix2 (⟨t.val * 5000 + p.val, by omega⟩ : Fin 100000) k) := fun k => by
    show V c main_v122 (((cfg6.win 0).blk t).view.emb (ix2 p k)) = _
    refine congrArg (V c main_v122) ?_
    funext a; apply Fin.ext
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : ∀ k : Fin 128, iblk6 V c 1 t (ix2 k q) = V c main_arg7 (ix2 k q) := fun k => by
    show V c main_arg7 (((cfg6.win 1).blk t).view.emb (ix2 k q)) = _
    refine congrArg (V c main_arg7) ?_
    funext a; apply Fin.ext
    match a with
    | ⟨0, _⟩ => show win6_1.index t (0 : Fin 2) * 128 + 1 * k.val = k.val; omega
    | ⟨1, _⟩ => show win6_1.index t (1 : Fin 2) * 64 + 1 * q.val = q.val; omega
  have h2 : iblk6 V c 2 t (ix2 (0 : Fin 1) q) = V c main_v123 (ix2 (0 : Fin 1) q) := by
    show V c main_v123 (((cfg6.win 2).blk t).view.emb (ix2 (0 : Fin 1) q)) = _
    refine congrArg (V c main_v123) ?_
    funext a; apply Fin.ext
    match a with
    | ⟨0, _⟩ => show win6_2.index t (0 : Fin 2) * 1 + 1 * 0 = 0; omega
    | ⟨1, _⟩ => show win6_2.index t (1 : Fin 2) * 64 + 1 * q.val = q.val; omega
  refine (pay6_at (iblk6 V c 0 t) (iblk6 V c 1 t) (iblk6 V c 2 t) p q).trans ?_
  show _ = dense Ideal.tanh (V c main_v122) (V c main_arg7) (V c main_v123) (((cfg6.win 3).blk t).view.emb (ix2 p q))
  rw [hE, dense_ix2]
  refine congrArg Ideal.tanh (congrArg₂ (fun a b : EReal => a + b) ?_ h2)
  exact Finset.sum_congr rfl fun k _ => congrArg₂ (fun a b : EReal => a * b) (h0 k) (h1 k)

/-- An index of the result array is in point `t`'s block iff each coordinate is in the block's range. -/
theorem mem_blk (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v124).slice (win6_3.rect t)).set ↔ _
  rw [View.set_slice_whole, Rect.mem_set_unit]
  exact Iff.rfl

/-- Row `r` lies in the block of point `r / 5000`: the blocks tile the array. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_3 _, ?_⟩
  rw [mem_blk]
  obtain ⟨e0, e1, e2, e3, e4, e5, e6, e7⟩ := block_indices ⟨(i 0).val / 5000, by rw [hN]; omega⟩
  intro a
  match a with
  | ⟨0, _⟩ =>
    show win6_3.index _ (0 : Fin 2) * 5000 ≤ (i 0).val ∧ (i 0).val < win6_3.index _ (0 : Fin 2) * 5000 + 5000
    rw [e6]; show (i 0).val / 5000 * 5000 ≤ (i 0).val ∧ (i 0).val < (i 0).val / 5000 * 5000 + 5000; omega
  | ⟨1, _⟩ =>
    show win6_3.index _ (1 : Fin 2) * 64 ≤ (i 1).val ∧ (i 1).val < win6_3.index _ (1 : Fin 2) * 64 + 64
    rw [e7]; omega

/-- After the region the result array is the dense layer of the arrays the region found. -/
theorem final (c : Dev nD) :
    (dat6 V c).arrAt 3 cfg6.N = dense Ideal.tanh (V c main_v122) (V c main_arg7) (V c main_v123) :=
  (dat6 V c).arrAt_eq_of_cover 3 _ (fun t _ => flushed_eq V c t) cover

end Cert.KernelIdeal.Region6

end
-- ==== Proof.Region7.lean ====
/-
  Region 7: a dense layer over 20 blocks of 5000 rows.

  Grid point t loads rows 5000·t … 5000·t + 4999 of x, the whole of w and of the bias row, and writes back the same rows of
  the result.  So block t of the result is block t of ONE function of the whole arrays,
      y(r, q) = tanh((∑ k, x(r, k) · w(k, q)) + b(0, q)),
  and the 20 blocks tile the 100000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region7

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of the dense layer of the arrays as the region finds them. -/
theorem flushed_eq (c : Dev nD) (t : Fin cfg7.N) :
    (dat7 V c).flushed 3 t = ((cfg7.win 3).blk t).view.read (Elt Ideal)
      (dense Ideal.tanh (V c main_v124) (V c main_arg9) (V c main_v125)) := by
  show (cfg7.win 3).cut (grid7.coords t) ((dat7 V c).after 3 t) = _
  rw [after7_3]
  unfold out7_3
  rw [View.canon_unit_zero origin]
  simp only [View.ld_unit_zero (S := S5000x64) origin, View.ld_unit_zero (S := S64x32) origin, View.ld_unit_zero (S := S1x32) origin]
  obtain ⟨e0, e1, e2, e3, e4, e5, e6, e7⟩ := block_indices t
  have hN : cfg7.N = 20 := N_7
  have ht : t.val < 20 := hN ▸ t.isLt
  funext j
  obtain ⟨p, q, rfl⟩ : ∃ (p : Fin 5000) (q : Fin 32), j = ix2 p q := ⟨j 0, j 1, eq_ix2 j⟩
  have hp : p.val < 5000 := p.isLt
  -- the row of the whole array this entry is
  have hE : ((cfg7.win 3).blk t).view.emb (ix2 p q) = ix2 (⟨t.val * 5000 + p.val, by omega⟩ : Fin 100000) q := by
    funext a; apply Fin.ext
    match a with
    | ⟨0, _⟩ => show win7_3.index t (0 : Fin 2) * 5000 + 1 * p.val = t.val * 5000 + p.val; omega
    | ⟨1, _⟩ => show win7_3.index t (1 : Fin 2) * 32 + 1 * q.val = q.val; omega
  have h0 : ∀ k : Fin 64, iblk7 V c 0 t (ix2 p k) = V c main_v124 (ix2 (⟨t.val * 5000 + p.val, by omega⟩ : Fin 100000) k) := fun k => by
    show V c main_v124 (((cfg7.win 0).blk t).view.emb (ix2 p k)) = _
    refine congrArg (V c main_v124) ?_
    funext a; apply Fin.ext
    match a with
    | ⟨0, _⟩ => show win7_0.index t (0 : Fin 2) * 5000 + 1 * p.val = t.val * 5000 + p.val; omega
    | ⟨1, _⟩ => show win7_0.index t (1 : Fin 2) * 64 + 1 * k.val = k.val; omega
  have h1 : ∀ k : Fin 64, iblk7 V c 1 t (ix2 k q) = V c main_arg9 (ix2 k q) := fun k => by
    show V c main_arg9 (((cfg7.win 1).blk t).view.emb (ix2 k q)) = _
    refine congrArg (V c main_arg9) ?_
    funext a; apply Fin.ext
    match a with
    | ⟨0, _⟩ => show win7_1.index t (0 : Fin 2) * 64 + 1 * k.val = k.val; omega
    | ⟨1, _⟩ => show win7_1.index t (1 : Fin 2) * 32 + 1 * q.val = q.val; omega
  have h2 : iblk7 V c 2 t (ix2 (0 : Fin 1) q) = V c main_v125 (ix2 (0 : Fin 1) q) := by
    show V c main_v125 (((cfg7.win 2).blk t).view.emb (ix2 (0 : Fin 1) q)) = _
    refine congrArg (V c main_v125) ?_
    funext a; apply Fin.ext
    match a with
    | ⟨0, _⟩ => show win7_2.index t (0 : Fin 2) * 1 + 1 * 0 = 0; omega
    | ⟨1, _⟩ => show win7_2.index t (1 : Fin 2) * 32 + 1 * q.val = q.val; omega
  refine (pay7_at (iblk7 V c 0 t) (iblk7 V c 1 t) (iblk7 V c 2 t) p q).trans ?_
  show _ = dense Ideal.tanh (V c main_v124) (V c main_arg9) (V c main_v125) (((cfg7.win 3).blk t).view.emb (ix2 p q))
  rw [hE, dense_ix2]
  refine congrArg Ideal.tanh (congrArg₂ (fun a b : EReal => a + b) ?_ h2)
  exact Finset.sum_congr rfl fun k _ => congrArg₂ (fun a b : EReal => a * b) (h0 k) (h1 k)

/-- An index of the result array is in point `t`'s block iff each coordinate is in the block's range. -/
theorem mem_blk (t : Fin cfg7.N) (i : S100000x32.Idx) :
    i ∈ ((cfg7.win 3).blk t).view.set ↔ ∀ a : Fin 2, win7_3.index t a * S5000x32.size a ≤ (i a).val ∧ (i a).val < win7_3.index t a * S5000x32.size a + S5000x32.size a := by
  show i ∈ ((View.whole main_v126).slice (win7_3.rect t)).set ↔ _
  rw [View.set_slice_whole, Rect.mem_set_unit]
  exact Iff.rfl

/-- Row `r` lies in the block of point `r / 5000`: the blocks tile the array. -/
theorem cover (i : S100000x32.Idx) : ∃ t : Fin cfg7.N, (cfg7.win 3).flush t = true ∧ i ∈ ((cfg7.win 3).blk t).view.set := by
  have hi0 : (i 0).val < 100000 := (i 0).isLt
  have hi1 : (i 1).val < 32 := (i 1).isLt
  have hN : cfg7.N = 20 := N_7
  refine ⟨⟨(i 0).val / 5000, by rw [hN]; omega⟩, flush7_3 _, ?_⟩
  rw [mem_blk]
  obtain ⟨e0, e1, e2, e3, e4, e5, e6, e7⟩ := block_indices ⟨(i 0).val / 5000, by rw [hN]; omega⟩
  intro a
  match a with
  | ⟨0, _⟩ =>
    show win7_3.index _ (0 : Fin 2) * 5000 ≤ (i 0).val ∧ (i 0).val < win7_3.index _ (0 : Fin 2) * 5000 + 5000
    rw [e6]; show (i 0).val / 5000 * 5000 ≤ (i 0).val ∧ (i 0).val < (i 0).val / 5000 * 5000 + 5000; omega
  | ⟨1, _⟩ =>
    show win7_3.index _ (1 : Fin 2) * 32 ≤ (i 1).val ∧ (i 1).val < win7_3.index _ (1 : Fin 2) * 32 + 32
    rw [e7]; omega

/-- After the region the result array is the dense layer of the arrays the region found. -/
theorem final (c : Dev nD) :
    (dat7 V c).arrAt 3 cfg7.N = dense Ideal.tanh (V c main_v124) (V c main_arg9) (V c main_v125) :=
  (dat7 V c).arrAt_eq_of_cover 3 _ (fun t _ => flushed_eq V c t) cover

end Cert.KernelIdeal.Region7

end
-- ==== Proof.Region8.lean ====
/-
  Region 8: a dense layer over 200 blocks of 8000 rows.

  Grid point t loads rows 8000·t … 8000·t + 7999 of x, the whole of w and of the bias row, and writes back the same rows of
  the result.  So block t of the result is block t of ONE function of the whole arrays,
      y(r, q) = (∑ k, x(r, k) · w(k, q)) + b(0, q),
  and the 200 blocks tile the 1600000 rows: after the region the result array is that function.
-/
import proofs.«170606_j48361331753433_2_alg».proof.Proof.Gen.KernelIdeal.Frame
import proofs.«170606_j48361331753433_2_alg».proof.Proof.Payloads

set_option maxRecDepth 16384

noncomputable section

namespace Cert.KernelIdeal.Region8

open Cert.KernelIdeal Cert.KernelIdeal.Gen Cert.KernelIdeal.Pay
open Idealize.ShloMosaic Idealize.ShloMosaic.TcCoe Idealize.ShloMosaic.ValueIdx Idealize.SL.Sem Cert.Lib.Dense
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: rows move with the point, everything else stays at block 0. -/
theorem block_indices : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point `t` writes back is block `t` of the dense layer of the arrays as the region finds them. -/
theorem flushed_eq (c : Dev nD) (t : Fin cfg8.N) :
    (dat8 V c).flushed 3 t = ((cfg8.win 3).blk t).view.read (Elt Ideal)
      (dense id (V c main_v141) (V c main_arg11) (V c main_v142)) := by
  show (cfg8.win 3).cut (grid8.coords t) ((dat8 V c).after 3 t) = _
  rw [after8_3]
  unfold out8_3
  rw [View.canon_unit_zero origin]
  simp only [View.ld_unit_zero (S := S8000x64) origin, View.ld_unit_zero (S := S64x6) origin, View.ld_unit_zero (S := S1x6) origin]
  obtain ⟨e0, e1, e2, e3, e4, e5, e6, e7⟩ := block_indices t
  have hN : cfg8.N = 200 := N_8
  have ht : t.val < 200 := hN ▸ t.isLt
  funext j
  obtain ⟨p, q, rfl⟩ : ∃ (p : Fin 8000) (q : Fin 6), j = ix2 p q := ⟨j 0, j 1, eq_ix2 j⟩
  have hp : p.val < 8000 := p.isLt
  -- the row of the whole array this entry is
  have hE : ((cfg8.win 3).blk t).view.emb (ix2 p q) = ix2 (⟨t.val * 8000 + p.val, by omega⟩ : Fin 1600000) q := by
    funext a; apply Fin.ext
    match a with
    | ⟨0, _⟩ => show win8_3.index t (0 : Fin 2) * 8000 + 1 * p.val = t.val * 8000 + p.val; omega
    | ⟨1, _⟩ => show win8_3.index t (1 : Fin 2) * 6 + 1 * q.val = q.val; omega
  have h0 : ∀ k : Fin 64, iblk8 V c 0 t (ix2 p k) = V c main_v141 (ix2 (⟨t.val * 8000 + p.val, by omega⟩ : Fin 1600000) k) := fun k => by
    show V c main_v141 (((cfg8.win 0).blk t).view.emb (ix2 p k)) = _
    refine congrArg (V c main_v141) ?_
    funext a; apply Fin.ext
    match a with
    | ⟨0, _⟩ => show win8_0.index t (0 : Fin 2) * 8000 + 1 * p.val = t.val * 8000 + p.val; omega
    | ⟨1, _⟩ => show win8_0.index t (1 : Fin 2) * 64 + 1 * k.val = k.val; omega
  have h1 : ∀ k : Fin 64, iblk8 V c 1 t (ix2 k q) = V c main_arg11 (ix2 k q) := fun k => by
    show V c main_arg11 (((cfg8.win 1).blk t).view.emb (ix2 k q)) = _
    refine congrArg (V c main_arg11) ?_
    funext a; apply Fin.ext
    match a with
    | ⟨0, _⟩ => show win8_1.index t (0 : Fin 2) * 64 + 1 * k.val = k.val; omega
    | ⟨1, _⟩ => show win8_1.index t (1 : Fin 2) * 6 + 1 * q.val = q.val; omega
  have h2 : iblk8 V c 2 t (ix2 (0 : Fin 1) q) = V c main_v142 (ix2 (0 : Fin 1) q) := by
    show V c main_v142 (((cfg8.win 2).blk t).view.emb (ix2 (0 : Fin 1) q)) = _
    refine congrArg (V c main_v142) ?_
    funext a; apply Fin.ext
    match a with
    | ⟨0, _⟩ => show win8_2.index t (0 : Fin 2) * 1 + 1 * 0 = 0; omega
    | ⟨1, _⟩ => show win8_2.index t (1 : Fin 2) * 6 + 1 * q.val = q.val; omega
  refine (pay8_at (iblk8 V c 0 t) (iblk8 V c 1 t) (iblk8 V c 2 t) p q).trans ?_
  show _ = dense id (V c main_v141) (V c main_arg11) (V c main_v142) (((cfg8.win 3).blk t).view.emb (ix2 p q))
  rw [hE, dense_ix2]
  refine congrArg (id : EReal → EReal) (congrArg₂ (fun a b : EReal => a + b) ?_ h2)
  exact Finset.sum_congr rfl fun k _ => congrArg₂ (fun a b : EReal => a * b) (h0 k) (h1 k)

/-- An index of the result array is in point `t`'s block iff each coordinate is in the block's range. -/
theorem mem_blk (t : Fin cfg8.N) (i : S1600000x6.Idx) :
    i ∈ ((cfg8.win 3).blk t).view.set ↔ ∀ a : Fin 2, win8_3.index t a * S8000x6.size a ≤ (i a).val ∧ (i a).val < win8_3.index t a * S8000x6.size a + S8000x6.size a := by
  show i ∈ ((View.whole main_v143).slice (win8_3.rect t)).set ↔ _
  rw [View.set_slice_whole, Rect.mem_set_unit]
  exact Iff.rfl

/-- Row `r` lies in the block of point `r / 8000`: the blocks tile the array. -/
theorem cover (i : S1600000x6.Idx) : ∃ t : Fin cfg8.N, (cfg8.win 3).flush t = true ∧ i ∈ ((cfg8.win 3).blk t).view.set := by
  have hi0 : (i 0).val < 1600000 := (i 0).isLt
  have hi1 : (i 1).val < 6 := (i 1).isLt
  have hN : cfg8.N = 200 := N_8
  refine ⟨⟨(i 0).val / 8000, by rw [hN]; omega⟩, flush8_3 _, ?_⟩
  rw [mem_blk]
  obtain ⟨e0, e1, e2, e3, e4, e5, e6, e7⟩ := block_indices ⟨(i 0).val / 8000, by rw [hN]; omega⟩
  intro a
  match a with
  | ⟨0, _⟩ =>
    show win8_3.index _ (0 : Fin 2) * 8000 ≤ (i 0).val ∧ (i 0).val < win8_3.index _ (0 : Fin 2) * 8000 + 8000
    rw [e6]; show (i 0).val / 8000 * 8000 ≤ (i 0).val ∧ (i 0).val < (i 0).val / 8000 * 8000 + 8000; omega
  | ⟨1, _⟩ =>
    show win8_3.index _ (1 : Fin 2) * 6 ≤ (i 1).val ∧ (i 1).val < win8_3.index _ (1 : Fin 2) * 6 + 6
    rw [e7]; omega

/-- After the region the result array is the dense layer of the arrays the region found. -/
theorem final (c : Dev nD) :
    (dat8 V c).arrAt 3 cfg8.N = dense id (V c main_v141) (V c main_arg11) (V c main_v142) :=
  (dat8 V c).arrAt_eq_of_cover 3 _ (fun t _ => flushed_eq V c t) cover

end Cert.KernelIdeal.Region8

end
-- ==== Proof.KChain.lean ====
/-
  The contents of the buffers at every boundary between segments, read back to the argument arrays.

  Boundary 0 is the launch; an odd boundary follows a stretch of host operations, an even one a region.  For every
  buffer that something later still reads, its contents at the boundary is the named function of the launch contents
  of the arguments: through a stretch, a written buffer is the stretch's composition of what it read and an unwritten
  one is kept; through a region, the output array is the region's whole-array function of its input arrays and every
  other buffer is kept.
-/
import proofs.«170606_j48361331753433_2_alg».proof.Proof.Gen.KernelIdeal.Frame
import proofs.«170606_j48361331753433_2_alg».proof.Proof.KStretches
import proofs.«170606_j48361331753433_2_alg».proof.Proof.KValues
import proofs.«170606_j48361331753433_2_alg».proof.Proof.Region0
import proofs.«170606_j48361331753433_2_alg».proof.Proof.Region1
import proofs.«170606_j48361331753433_2_alg».proof.Proof.Region2
import proofs.«170606_j48361331753433_2_alg».proof.Proof.Region3
import proofs.«170606_j48361331753433_2_alg».proof.Proof.Region4
import proofs.«170606_j48361331753433_2_alg».proof.Proof.Region5
import proofs.«170606_j48361331753433_2_alg».proof.Proof.Region6
import proofs.«170606_j48361331753433_2_alg».proof.Proof.Region7
import proofs.«170606_j48361331753433_2_alg».proof.Proof.Region8

set_option maxRecDepth 16384

noncomputable section

namespace Cert.KernelIdeal.Chain

open Cert.KernelIdeal Cert.KernelIdeal.Gen Cert.KernelIdeal.Stretch Cert.KernelIdeal.Values Cert.Lib.Dense
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Boundary 0 -/

theorem at0_main_arg1 (c : Dev nD) : W0 m ρ c (Proc.devRef .tc main_arg1) = W0 m ρ c (Proc.devRef .tc main_arg1) := rfl
theorem at0_main_arg0 (c : Dev nD) : W0 m ρ c (Proc.devRef .tc main_arg0) = W0 m ρ c (Proc.devRef .tc main_arg0) := rfl
theorem at0_main_arg3 (c : Dev nD) : W0 m ρ c (Proc.devRef .tc main_arg3) = W0 m ρ c (Proc.devRef .tc main_arg3) := rfl
theorem at0_main_arg4 (c : Dev nD) : W0 m ρ c (Proc.devRef .tc main_arg4) = W0 m ρ c (Proc.devRef .tc main_arg4) := rfl
theorem at0_main_arg5 (c : Dev nD) : W0 m ρ c (Proc.devRef .tc main_arg5) = W0 m ρ c (Proc.devRef .tc main_arg5) := rfl
theorem at0_main_arg6 (c : Dev nD) : W0 m ρ c (Proc.devRef .tc main_arg6) = W0 m ρ c (Proc.devRef .tc main_arg6) := rfl
theorem at0_main_arg7 (c : Dev nD) : W0 m ρ c (Proc.devRef .tc main_arg7) = W0 m ρ c (Proc.devRef .tc main_arg7) := rfl
theorem at0_main_arg8 (c : Dev nD) : W0 m ρ c (Proc.devRef .tc main_arg8) = W0 m ρ c (Proc.devRef .tc main_arg8) := rfl
theorem at0_main_arg9 (c : Dev nD) : W0 m ρ c (Proc.devRef .tc main_arg9) = W0 m ρ c (Proc.devRef .tc main_arg9) := rfl
theorem at0_main_arg10 (c : Dev nD) : W0 m ρ c (Proc.devRef .tc main_arg10) = W0 m ρ c (Proc.devRef .tc main_arg10) := rfl
theorem at0_main_arg11 (c : Dev nD) : W0 m ρ c (Proc.devRef .tc main_arg11) = W0 m ρ c (Proc.devRef .tc main_arg11) := rfl
theorem at0_main_arg12 (c : Dev nD) : W0 m ρ c (Proc.devRef .tc main_arg12) = W0 m ρ c (Proc.devRef .tc main_arg12) := rfl

/-! ## Boundary 1 -/

theorem at1_main_v3 (c : Dev nD) : W1 m ρ c (Proc.devRef .tc main_v3) = kv_main_v3 (W0 m ρ c) := by
  refine (stretch0_main_v3 (W0 m ρ c)).trans ?_
  rfl
theorem at1_main_v11 (c : Dev nD) : W1 m ρ c (Proc.devRef .tc main_v11) = kv_main_v11 (W0 m ρ c) := by
  refine (stretch0_main_v11 (W0 m ρ c)).trans ?_
  rfl
theorem at1_main_v1 (c : Dev nD) : W1 m ρ c (Proc.devRef .tc main_v1) = kv_main_v1 (W0 m ρ c) := by
  refine (stretch0_main_v1 (W0 m ρ c)).trans ?_
  rfl
theorem at1_main_arg0 (c : Dev nD) : W1 m ρ c (Proc.devRef .tc main_arg0) = W0 m ρ c (Proc.devRef .tc main_arg0) :=
  (keep0 (W0 m ρ c) main_arg0 (by decide)).trans (at0_main_arg0 m ρ c)
theorem at1_main_arg3 (c : Dev nD) : W1 m ρ c (Proc.devRef .tc main_arg3) = W0 m ρ c (Proc.devRef .tc main_arg3) :=
  (keep0 (W0 m ρ c) main_arg3 (by decide)).trans (at0_main_arg3 m ρ c)
theorem at1_main_v14 (c : Dev nD) : W1 m ρ c (Proc.devRef .tc main_v14) = kv_main_v14 (W0 m ρ c) := by
  refine (stretch0_main_v14 (W0 m ρ c)).trans ?_
  rfl
theorem at1_main_v12 (c : Dev nD) : W1 m ρ c (Proc.devRef .tc main_v12) = kv_main_v12 (W0 m ρ c) := by
  refine (stretch0_main_v12 (W0 m ρ c)).trans ?_
  rfl
theorem at1_main_arg4 (c : Dev nD) : W1 m ρ c (Proc.devRef .tc main_arg4) = W0 m ρ c (Proc.devRef .tc main_arg4) :=
  (keep0 (W0 m ρ c) main_arg4 (by decide)).trans (at0_main_arg4 m ρ c)
theorem at1_main_arg5 (c : Dev nD) : W1 m ρ c (Proc.devRef .tc main_arg5) = W0 m ρ c (Proc.devRef .tc main_arg5) :=
  (keep0 (W0 m ρ c) main_arg5 (by decide)).trans (at0_main_arg5 m ρ c)
theorem at1_main_arg6 (c : Dev nD) : W1 m ρ c (Proc.devRef .tc main_arg6) = W0 m ρ c (Proc.devRef .tc main_arg6) :=
  (keep0 (W0 m ρ c) main_arg6 (by decide)).trans (at0_main_arg6 m ρ c)
theorem at1_main_arg7 (c : Dev nD) : W1 m ρ c (Proc.devRef .tc main_arg7) = W0 m ρ c (Proc.devRef .tc main_arg7) :=
  (keep0 (W0 m ρ c) main_arg7 (by decide)).trans (at0_main_arg7 m ρ c)
theorem at1_main_arg8 (c : Dev nD) : W1 m ρ c (Proc.devRef .tc main_arg8) = W0 m ρ c (Proc.devRef .tc main_arg8) :=
  (keep0 (W0 m ρ c) main_arg8 (by decide)).trans (at0_main_arg8 m ρ c)
theorem at1_main_arg9 (c : Dev nD) : W1 m ρ c (Proc.devRef .tc main_arg9) = W0 m ρ c (Proc.devRef .tc main_arg9) :=
  (keep0 (W0 m ρ c) main_arg9 (by decide)).trans (at0_main_arg9 m ρ c)
theorem at1_main_arg10 (c : Dev nD) : W1 m ρ c (Proc.devRef .tc main_arg10) = W0 m ρ c (Proc.devRef .tc main_arg10) :=
  (keep0 (W0 m ρ c) main_arg10 (by decide)).trans (at0_main_arg10 m ρ c)
theorem at1_main_arg11 (c : Dev nD) : W1 m ρ c (Proc.devRef .tc main_arg11) = W0 m ρ c (Proc.devRef .tc main_arg11) :=
  (keep0 (W0 m ρ c) main_arg11 (by decide)).trans (at0_main_arg11 m ρ c)
theorem at1_main_arg12 (c : Dev nD) : W1 m ρ c (Proc.devRef .tc main_arg12) = W0 m ρ c (Proc.devRef .tc main_arg12) :=
  (keep0 (W0 m ρ c) main_arg12 (by decide)).trans (at0_main_arg12 m ρ c)

/-! ## Boundary 2 -/

theorem at2_main_v3 (c : Dev nD) : W2 m ρ c (Proc.devRef .tc main_v3) = kv_main_v3 (W0 m ρ c) :=
  (W2_of_ne m ρ c main_v3 (by decide)).trans (at1_main_v3 m ρ c)
theorem at2_main_v11 (c : Dev nD) : W2 m ρ c (Proc.devRef .tc main_v11) = kv_main_v11 (W0 m ρ c) :=
  (W2_of_ne m ρ c main_v11 (by decide)).trans (at1_main_v11 m ρ c)
theorem at2_main_v1 (c : Dev nD) : W2 m ρ c (Proc.devRef .tc main_v1) = kv_main_v1 (W0 m ρ c) :=
  (W2_of_ne m ρ c main_v1 (by decide)).trans (at1_main_v1 m ρ c)
theorem at2_main_v15 (c : Dev nD) : W2 m ρ c (Proc.devRef .tc main_v15) = kv_main_v15 (W0 m ρ c) := by
  refine ((W2_arr m ρ c 3).trans (Region0.final (V1 m ρ) c)).trans ?_
  show dense id (W1 m ρ c (Proc.devRef .tc main_arg0)) (W1 m ρ c (Proc.devRef .tc main_arg3)) (W1 m ρ c (Proc.devRef .tc main_v14)) = _
  rw [at1_main_arg0 m ρ c, at1_main_arg3 m ρ c, at1_main_v14 m ρ c]
  rfl
theorem at2_main_v12 (c : Dev nD) : W2 m ρ c (Proc.devRef .tc main_v12) = kv_main_v12 (W0 m ρ c) :=
  (W2_of_ne m ρ c main_v12 (by decide)).trans (at1_main_v12 m ρ c)
theorem at2_main_arg4 (c : Dev nD) : W2 m ρ c (Proc.devRef .tc main_arg4) = W0 m ρ c (Proc.devRef .tc main_arg4) :=
  (W2_of_ne m ρ c main_arg4 (by decide)).trans (at1_main_arg4 m ρ c)
theorem at2_main_arg5 (c : Dev nD) : W2 m ρ c (Proc.devRef .tc main_arg5) = W0 m ρ c (Proc.devRef .tc main_arg5) :=
  (W2_of_ne m ρ c main_arg5 (by decide)).trans (at1_main_arg5 m ρ c)
theorem at2_main_arg6 (c : Dev nD) : W2 m ρ c (Proc.devRef .tc main_arg6) = W0 m ρ c (Proc.devRef .tc main_arg6) :=
  (W2_of_ne m ρ c main_arg6 (by decide)).trans (at1_main_arg6 m ρ c)
theorem at2_main_arg7 (c : Dev nD) : W2 m ρ c (Proc.devRef .tc main_arg7) = W0 m ρ c (Proc.devRef .tc main_arg7) :=
  (W2_of_ne m ρ c main_arg7 (by decide)).trans (at1_main_arg7 m ρ c)
theorem at2_main_arg8 (c : Dev nD) : W2 m ρ c (Proc.devRef .tc main_arg8) = W0 m ρ c (Proc.devRef .tc main_arg8) :=
  (W2_of_ne m ρ c main_arg8 (by decide)).trans (at1_main_arg8 m ρ c)
theorem at2_main_arg9 (c : Dev nD) : W2 m ρ c (Proc.devRef .tc main_arg9) = W0 m ρ c (Proc.devRef .tc main_arg9) :=
  (W2_of_ne m ρ c main_arg9 (by decide)).trans (at1_main_arg9 m ρ c)
theorem at2_main_arg10 (c : Dev nD) : W2 m ρ c (Proc.devRef .tc main_arg10) = W0 m ρ c (Proc.devRef .tc main_arg10) :=
  (W2_of_ne m ρ c main_arg10 (by decide)).trans (at1_main_arg10 m ρ c)
theorem at2_main_arg11 (c : Dev nD) : W2 m ρ c (Proc.devRef .tc main_arg11) = W0 m ρ c (Proc.devRef .tc main_arg11) :=
  (W2_of_ne m ρ c main_arg11 (by decide)).trans (at1_main_arg11 m ρ c)
theorem at2_main_arg12 (c : Dev nD) : W2 m ρ c (Proc.devRef .tc main_arg12) = W0 m ρ c (Proc.devRef .tc main_arg12) :=
  (W2_of_ne m ρ c main_arg12 (by decide)).trans (at1_main_arg12 m ρ c)

/-! ## Boundary 3 -/

theorem at3_main_v3 (c : Dev nD) : W3 m ρ c (Proc.devRef .tc main_v3) = kv_main_v3 (W0 m ρ c) :=
  (keep1 (W2 m ρ c) main_v3 (by decide)).trans (at2_main_v3 m ρ c)
theorem at3_main_v11 (c : Dev nD) : W3 m ρ c (Proc.devRef .tc main_v11) = kv_main_v11 (W0 m ρ c) :=
  (keep1 (W2 m ρ c) main_v11 (by decide)).trans (at2_main_v11 m ρ c)
theorem at3_main_v1 (c : Dev nD) : W3 m ρ c (Proc.devRef .tc main_v1) = kv_main_v1 (W0 m ρ c) :=
  (keep1 (W2 m ρ c) main_v1 (by decide)).trans (at2_main_v1 m ρ c)
theorem at3_main_v43 (c : Dev nD) : W3 m ρ c (Proc.devRef .tc main_v43) = kv_main_v43 (W0 m ρ c) := by
  refine (stretch1_main_v43 (W2 m ρ c)).trans ?_
  rw [at2_main_v3 m ρ c, at2_main_v15 m ρ c, at2_main_v1 m ρ c, at2_main_v11 m ρ c]
  rfl
theorem at3_main_v15 (c : Dev nD) : W3 m ρ c (Proc.devRef .tc main_v15) = kv_main_v15 (W0 m ρ c) :=
  (keep1 (W2 m ρ c) main_v15 (by decide)).trans (at2_main_v15 m ρ c)
theorem at3_main_v44 (c : Dev nD) : W3 m ρ c (Proc.devRef .tc main_v44) = kv_main_v44 (W0 m ρ c) := by
  refine (stretch1_main_v44 (W2 m ρ c)).trans ?_
  rw [at2_main_v12 m ρ c]
  rfl
theorem at3_main_v45 (c : Dev nD) : W3 m ρ c (Proc.devRef .tc main_v45) = kv_main_v45 (W0 m ρ c) := by
  refine (stretch1_main_v45 (W2 m ρ c)).trans ?_
  rw [at2_main_arg4 m ρ c]
  rfl
theorem at3_main_arg5 (c : Dev nD) : W3 m ρ c (Proc.devRef .tc main_arg5) = W0 m ρ c (Proc.devRef .tc main_arg5) :=
  (keep1 (W2 m ρ c) main_arg5 (by decide)).trans (at2_main_arg5 m ρ c)
theorem at3_main_v12 (c : Dev nD) : W3 m ρ c (Proc.devRef .tc main_v12) = kv_main_v12 (W0 m ρ c) :=
  (keep1 (W2 m ρ c) main_v12 (by decide)).trans (at2_main_v12 m ρ c)
theorem at3_main_arg6 (c : Dev nD) : W3 m ρ c (Proc.devRef .tc main_arg6) = W0 m ρ c (Proc.devRef .tc main_arg6) :=
  (keep1 (W2 m ρ c) main_arg6 (by decide)).trans (at2_main_arg6 m ρ c)
theorem at3_main_arg7 (c : Dev nD) : W3 m ρ c (Proc.devRef .tc main_arg7) = W0 m ρ c (Proc.devRef .tc main_arg7) :=
  (keep1 (W2 m ρ c) main_arg7 (by decide)).trans (at2_main_arg7 m ρ c)
theorem at3_main_arg8 (c : Dev nD) : W3 m ρ c (Proc.devRef .tc main_arg8) = W0 m ρ c (Proc.devRef .tc main_arg8) :=
  (keep1 (W2 m ρ c) main_arg8 (by decide)).trans (at2_main_arg8 m ρ c)
theorem at3_main_arg9 (c : Dev nD) : W3 m ρ c (Proc.devRef .tc main_arg9) = W0 m ρ c (Proc.devRef .tc main_arg9) :=
  (keep1 (W2 m ρ c) main_arg9 (by decide)).trans (at2_main_arg9 m ρ c)
theorem at3_main_arg10 (c : Dev nD) : W3 m ρ c (Proc.devRef .tc main_arg10) = W0 m ρ c (Proc.devRef .tc main_arg10) :=
  (keep1 (W2 m ρ c) main_arg10 (by decide)).trans (at2_main_arg10 m ρ c)
theorem at3_main_arg11 (c : Dev nD) : W3 m ρ c (Proc.devRef .tc main_arg11) = W0 m ρ c (Proc.devRef .tc main_arg11) :=
  (keep1 (W2 m ρ c) main_arg11 (by decide)).trans (at2_main_arg11 m ρ c)
theorem at3_main_arg12 (c : Dev nD) : W3 m ρ c (Proc.devRef .tc main_arg12) = W0 m ρ c (Proc.devRef .tc main_arg12) :=
  (keep1 (W2 m ρ c) main_arg12 (by decide)).trans (at2_main_arg12 m ρ c)

/-! ## Boundary 4 -/

theorem at4_main_v3 (c : Dev nD) : W4 m ρ c (Proc.devRef .tc main_v3) = kv_main_v3 (W0 m ρ c) :=
  (W4_of_ne m ρ c main_v3 (by decide)).trans (at3_main_v3 m ρ c)
theorem at4_main_v11 (c : Dev nD) : W4 m ρ c (Proc.devRef .tc main_v11) = kv_main_v11 (W0 m ρ c) :=
  (W4_of_ne m ρ c main_v11 (by decide)).trans (at3_main_v11 m ρ c)
theorem at4_main_v1 (c : Dev nD) : W4 m ρ c (Proc.devRef .tc main_v1) = kv_main_v1 (W0 m ρ c) :=
  (W4_of_ne m ρ c main_v1 (by decide)).trans (at3_main_v1 m ρ c)
theorem at4_main_v46 (c : Dev nD) : W4 m ρ c (Proc.devRef .tc main_v46) = kv_main_v46 (W0 m ρ c) := by
  refine ((W4_arr m ρ c 4).trans (Region1.final (V3 m ρ) c)).trans ?_
  show combine (W3 m ρ c (Proc.devRef .tc main_v43)) (W3 m ρ c (Proc.devRef .tc main_v15)) (W3 m ρ c (Proc.devRef .tc main_v44)) (W3 m ρ c (Proc.devRef .tc main_v45)) = _
  rw [at3_main_v43 m ρ c, at3_main_v15 m ρ c, at3_main_v44 m ρ c, at3_main_v45 m ρ c]
  rfl
theorem at4_main_arg5 (c : Dev nD) : W4 m ρ c (Proc.devRef .tc main_arg5) = W0 m ρ c (Proc.devRef .tc main_arg5) :=
  (W4_of_ne m ρ c main_arg5 (by decide)).trans (at3_main_arg5 m ρ c)
theorem at4_main_v12 (c : Dev nD) : W4 m ρ c (Proc.devRef .tc main_v12) = kv_main_v12 (W0 m ρ c) :=
  (W4_of_ne m ρ c main_v12 (by decide)).trans (at3_main_v12 m ρ c)
theorem at4_main_arg6 (c : Dev nD) : W4 m ρ c (Proc.devRef .tc main_arg6) = W0 m ρ c (Proc.devRef .tc main_arg6) :=
  (W4_of_ne m ρ c main_arg6 (by decide)).trans (at3_main_arg6 m ρ c)
theorem at4_main_arg7 (c : Dev nD) : W4 m ρ c (Proc.devRef .tc main_arg7) = W0 m ρ c (Proc.devRef .tc main_arg7) :=
  (W4_of_ne m ρ c main_arg7 (by decide)).trans (at3_main_arg7 m ρ c)
theorem at4_main_arg8 (c : Dev nD) : W4 m ρ c (Proc.devRef .tc main_arg8) = W0 m ρ c (Proc.devRef .tc main_arg8) :=
  (W4_of_ne m ρ c main_arg8 (by decide)).trans (at3_main_arg8 m ρ c)
theorem at4_main_arg9 (c : Dev nD) : W4 m ρ c (Proc.devRef .tc main_arg9) = W0 m ρ c (Proc.devRef .tc main_arg9) :=
  (W4_of_ne m ρ c main_arg9 (by decide)).trans (at3_main_arg9 m ρ c)
theorem at4_main_arg10 (c : Dev nD) : W4 m ρ c (Proc.devRef .tc main_arg10) = W0 m ρ c (Proc.devRef .tc main_arg10) :=
  (W4_of_ne m ρ c main_arg10 (by decide)).trans (at3_main_arg10 m ρ c)
theorem at4_main_arg11 (c : Dev nD) : W4 m ρ c (Proc.devRef .tc main_arg11) = W0 m ρ c (Proc.devRef .tc main_arg11) :=
  (W4_of_ne m ρ c main_arg11 (by decide)).trans (at3_main_arg11 m ρ c)
theorem at4_main_arg12 (c : Dev nD) : W4 m ρ c (Proc.devRef .tc main_arg12) = W0 m ρ c (Proc.devRef .tc main_arg12) :=
  (W4_of_ne m ρ c main_arg12 (by decide)).trans (at3_main_arg12 m ρ c)

/-! ## Boundary 5 -/

theorem at5_main_v3 (c : Dev nD) : W5 m ρ c (Proc.devRef .tc main_v3) = kv_main_v3 (W0 m ρ c) :=
  (keep2 (W4 m ρ c) main_v3 (by decide)).trans (at4_main_v3 m ρ c)
theorem at5_main_v11 (c : Dev nD) : W5 m ρ c (Proc.devRef .tc main_v11) = kv_main_v11 (W0 m ρ c) :=
  (keep2 (W4 m ρ c) main_v11 (by decide)).trans (at4_main_v11 m ρ c)
theorem at5_main_v1 (c : Dev nD) : W5 m ρ c (Proc.devRef .tc main_v1) = kv_main_v1 (W0 m ρ c) :=
  (keep2 (W4 m ρ c) main_v1 (by decide)).trans (at4_main_v1 m ρ c)
theorem at5_main_v46 (c : Dev nD) : W5 m ρ c (Proc.devRef .tc main_v46) = kv_main_v46 (W0 m ρ c) :=
  (keep2 (W4 m ρ c) main_v46 (by decide)).trans (at4_main_v46 m ρ c)
theorem at5_main_v48 (c : Dev nD) : W5 m ρ c (Proc.devRef .tc main_v48) = kv_main_v48 (W0 m ρ c) := by
  refine (stretch2_main_v48 (W4 m ρ c)).trans ?_
  rw [at4_main_arg5 m ρ c]
  rfl
theorem at5_main_v52 (c : Dev nD) : W5 m ρ c (Proc.devRef .tc main_v52) = kv_main_v52 (W0 m ρ c) := by
  refine (stretch2_main_v52 (W4 m ρ c)).trans ?_
  rfl
theorem at5_main_v12 (c : Dev nD) : W5 m ρ c (Proc.devRef .tc main_v12) = kv_main_v12 (W0 m ρ c) :=
  (keep2 (W4 m ρ c) main_v12 (by decide)).trans (at4_main_v12 m ρ c)
theorem at5_main_v50 (c : Dev nD) : W5 m ρ c (Proc.devRef .tc main_v50) = kv_main_v50 (W0 m ρ c) := by
  refine (stretch2_main_v50 (W4 m ρ c)).trans ?_
  rw [at4_main_arg6 m ρ c]
  rfl
theorem at5_main_arg5 (c : Dev nD) : W5 m ρ c (Proc.devRef .tc main_arg5) = W0 m ρ c (Proc.devRef .tc main_arg5) :=
  (keep2 (W4 m ρ c) main_arg5 (by decide)).trans (at4_main_arg5 m ρ c)
theorem at5_main_arg6 (c : Dev nD) : W5 m ρ c (Proc.devRef .tc main_arg6) = W0 m ρ c (Proc.devRef .tc main_arg6) :=
  (keep2 (W4 m ρ c) main_arg6 (by decide)).trans (at4_main_arg6 m ρ c)
theorem at5_main_arg7 (c : Dev nD) : W5 m ρ c (Proc.devRef .tc main_arg7) = W0 m ρ c (Proc.devRef .tc main_arg7) :=
  (keep2 (W4 m ρ c) main_arg7 (by decide)).trans (at4_main_arg7 m ρ c)
theorem at5_main_arg8 (c : Dev nD) : W5 m ρ c (Proc.devRef .tc main_arg8) = W0 m ρ c (Proc.devRef .tc main_arg8) :=
  (keep2 (W4 m ρ c) main_arg8 (by decide)).trans (at4_main_arg8 m ρ c)
theorem at5_main_arg9 (c : Dev nD) : W5 m ρ c (Proc.devRef .tc main_arg9) = W0 m ρ c (Proc.devRef .tc main_arg9) :=
  (keep2 (W4 m ρ c) main_arg9 (by decide)).trans (at4_main_arg9 m ρ c)
theorem at5_main_arg10 (c : Dev nD) : W5 m ρ c (Proc.devRef .tc main_arg10) = W0 m ρ c (Proc.devRef .tc main_arg10) :=
  (keep2 (W4 m ρ c) main_arg10 (by decide)).trans (at4_main_arg10 m ρ c)
theorem at5_main_arg11 (c : Dev nD) : W5 m ρ c (Proc.devRef .tc main_arg11) = W0 m ρ c (Proc.devRef .tc main_arg11) :=
  (keep2 (W4 m ρ c) main_arg11 (by decide)).trans (at4_main_arg11 m ρ c)
theorem at5_main_arg12 (c : Dev nD) : W5 m ρ c (Proc.devRef .tc main_arg12) = W0 m ρ c (Proc.devRef .tc main_arg12) :=
  (keep2 (W4 m ρ c) main_arg12 (by decide)).trans (at4_main_arg12 m ρ c)

/-! ## Boundary 6 -/

theorem at6_main_v3 (c : Dev nD) : W6 m ρ c (Proc.devRef .tc main_v3) = kv_main_v3 (W0 m ρ c) :=
  (W6_of_ne m ρ c main_v3 (by decide)).trans (at5_main_v3 m ρ c)
theorem at6_main_v11 (c : Dev nD) : W6 m ρ c (Proc.devRef .tc main_v11) = kv_main_v11 (W0 m ρ c) :=
  (W6_of_ne m ρ c main_v11 (by decide)).trans (at5_main_v11 m ρ c)
theorem at6_main_v1 (c : Dev nD) : W6 m ρ c (Proc.devRef .tc main_v1) = kv_main_v1 (W0 m ρ c) :=
  (W6_of_ne m ρ c main_v1 (by decide)).trans (at5_main_v1 m ρ c)
theorem at6_main_v53 (c : Dev nD) : W6 m ρ c (Proc.devRef .tc main_v53) = kv_main_v53 (W0 m ρ c) := by
  refine ((W6_arr m ρ c 3).trans (Region2.final (V5 m ρ) c)).trans ?_
  show dense id (W5 m ρ c (Proc.devRef .tc main_v46)) (W5 m ρ c (Proc.devRef .tc main_v48)) (W5 m ρ c (Proc.devRef .tc main_v52)) = _
  rw [at5_main_v46 m ρ c, at5_main_v48 m ρ c, at5_main_v52 m ρ c]
  rfl
theorem at6_main_v12 (c : Dev nD) : W6 m ρ c (Proc.devRef .tc main_v12) = kv_main_v12 (W0 m ρ c) :=
  (W6_of_ne m ρ c main_v12 (by decide)).trans (at5_main_v12 m ρ c)
theorem at6_main_v50 (c : Dev nD) : W6 m ρ c (Proc.devRef .tc main_v50) = kv_main_v50 (W0 m ρ c) :=
  (W6_of_ne m ρ c main_v50 (by decide)).trans (at5_main_v50 m ρ c)
theorem at6_main_arg5 (c : Dev nD) : W6 m ρ c (Proc.devRef .tc main_arg5) = W0 m ρ c (Proc.devRef .tc main_arg5) :=
  (W6_of_ne m ρ c main_arg5 (by decide)).trans (at5_main_arg5 m ρ c)
theorem at6_main_arg6 (c : Dev nD) : W6 m ρ c (Proc.devRef .tc main_arg6) = W0 m ρ c (Proc.devRef .tc main_arg6) :=
  (W6_of_ne m ρ c main_arg6 (by decide)).trans (at5_main_arg6 m ρ c)
theorem at6_main_arg7 (c : Dev nD) : W6 m ρ c (Proc.devRef .tc main_arg7) = W0 m ρ c (Proc.devRef .tc main_arg7) :=
  (W6_of_ne m ρ c main_arg7 (by decide)).trans (at5_main_arg7 m ρ c)
theorem at6_main_arg8 (c : Dev nD) : W6 m ρ c (Proc.devRef .tc main_arg8) = W0 m ρ c (Proc.devRef .tc main_arg8) :=
  (W6_of_ne m ρ c main_arg8 (by decide)).trans (at5_main_arg8 m ρ c)
theorem at6_main_arg9 (c : Dev nD) : W6 m ρ c (Proc.devRef .tc main_arg9) = W0 m ρ c (Proc.devRef .tc main_arg9) :=
  (W6_of_ne m ρ c main_arg9 (by decide)).trans (at5_main_arg9 m ρ c)
theorem at6_main_arg10 (c : Dev nD) : W6 m ρ c (Proc.devRef .tc main_arg10) = W0 m ρ c (Proc.devRef .tc main_arg10) :=
  (W6_of_ne m ρ c main_arg10 (by decide)).trans (at5_main_arg10 m ρ c)
theorem at6_main_arg11 (c : Dev nD) : W6 m ρ c (Proc.devRef .tc main_arg11) = W0 m ρ c (Proc.devRef .tc main_arg11) :=
  (W6_of_ne m ρ c main_arg11 (by decide)).trans (at5_main_arg11 m ρ c)
theorem at6_main_arg12 (c : Dev nD) : W6 m ρ c (Proc.devRef .tc main_arg12) = W0 m ρ c (Proc.devRef .tc main_arg12) :=
  (W6_of_ne m ρ c main_arg12 (by decide)).trans (at5_main_arg12 m ρ c)

/-! ## Boundary 7 -/

theorem at7_main_v3 (c : Dev nD) : W7 m ρ c (Proc.devRef .tc main_v3) = kv_main_v3 (W0 m ρ c) :=
  (keep3 (W6 m ρ c) main_v3 (by decide)).trans (at6_main_v3 m ρ c)
theorem at7_main_v11 (c : Dev nD) : W7 m ρ c (Proc.devRef .tc main_v11) = kv_main_v11 (W0 m ρ c) :=
  (keep3 (W6 m ρ c) main_v11 (by decide)).trans (at6_main_v11 m ρ c)
theorem at7_main_v1 (c : Dev nD) : W7 m ρ c (Proc.devRef .tc main_v1) = kv_main_v1 (W0 m ρ c) :=
  (keep3 (W6 m ρ c) main_v1 (by decide)).trans (at6_main_v1 m ρ c)
theorem at7_main_v81 (c : Dev nD) : W7 m ρ c (Proc.devRef .tc main_v81) = kv_main_v81 (W0 m ρ c) := by
  refine (stretch3_main_v81 (W6 m ρ c)).trans ?_
  rw [at6_main_v3 m ρ c, at6_main_v53 m ρ c, at6_main_v1 m ρ c, at6_main_v11 m ρ c]
  rfl
theorem at7_main_v53 (c : Dev nD) : W7 m ρ c (Proc.devRef .tc main_v53) = kv_main_v53 (W0 m ρ c) :=
  (keep3 (W6 m ρ c) main_v53 (by decide)).trans (at6_main_v53 m ρ c)
theorem at7_main_v82 (c : Dev nD) : W7 m ρ c (Proc.devRef .tc main_v82) = kv_main_v82 (W0 m ρ c) := by
  refine (stretch3_main_v82 (W6 m ρ c)).trans ?_
  rw [at6_main_v12 m ρ c]
  rfl
theorem at7_main_v83 (c : Dev nD) : W7 m ρ c (Proc.devRef .tc main_v83) = kv_main_v83 (W0 m ρ c) := by
  refine (stretch3_main_v83 (W6 m ρ c)).trans ?_
  rw [at6_main_v50 m ρ c]
  rfl
theorem at7_main_arg5 (c : Dev nD) : W7 m ρ c (Proc.devRef .tc main_arg5) = W0 m ρ c (Proc.devRef .tc main_arg5) :=
  (keep3 (W6 m ρ c) main_arg5 (by decide)).trans (at6_main_arg5 m ρ c)
theorem at7_main_v12 (c : Dev nD) : W7 m ρ c (Proc.devRef .tc main_v12) = kv_main_v12 (W0 m ρ c) :=
  (keep3 (W6 m ρ c) main_v12 (by decide)).trans (at6_main_v12 m ρ c)
theorem at7_main_arg6 (c : Dev nD) : W7 m ρ c (Proc.devRef .tc main_arg6) = W0 m ρ c (Proc.devRef .tc main_arg6) :=
  (keep3 (W6 m ρ c) main_arg6 (by decide)).trans (at6_main_arg6 m ρ c)
theorem at7_main_arg7 (c : Dev nD) : W7 m ρ c (Proc.devRef .tc main_arg7) = W0 m ρ c (Proc.devRef .tc main_arg7) :=
  (keep3 (W6 m ρ c) main_arg7 (by decide)).trans (at6_main_arg7 m ρ c)
theorem at7_main_arg8 (c : Dev nD) : W7 m ρ c (Proc.devRef .tc main_arg8) = W0 m ρ c (Proc.devRef .tc main_arg8) :=
  (keep3 (W6 m ρ c) main_arg8 (by decide)).trans (at6_main_arg8 m ρ c)
theorem at7_main_arg9 (c : Dev nD) : W7 m ρ c (Proc.devRef .tc main_arg9) = W0 m ρ c (Proc.devRef .tc main_arg9) :=
  (keep3 (W6 m ρ c) main_arg9 (by decide)).trans (at6_main_arg9 m ρ c)
theorem at7_main_arg10 (c : Dev nD) : W7 m ρ c (Proc.devRef .tc main_arg10) = W0 m ρ c (Proc.devRef .tc main_arg10) :=
  (keep3 (W6 m ρ c) main_arg10 (by decide)).trans (at6_main_arg10 m ρ c)
theorem at7_main_arg11 (c : Dev nD) : W7 m ρ c (Proc.devRef .tc main_arg11) = W0 m ρ c (Proc.devRef .tc main_arg11) :=
  (keep3 (W6 m ρ c) main_arg11 (by decide)).trans (at6_main_arg11 m ρ c)
theorem at7_main_arg12 (c : Dev nD) : W7 m ρ c (Proc.devRef .tc main_arg12) = W0 m ρ c (Proc.devRef .tc main_arg12) :=
  (keep3 (W6 m ρ c) main_arg12 (by decide)).trans (at6_main_arg12 m ρ c)

/-! ## Boundary 8 -/

theorem at8_main_v3 (c : Dev nD) : W8 m ρ c (Proc.devRef .tc main_v3) = kv_main_v3 (W0 m ρ c) :=
  (W8_of_ne m ρ c main_v3 (by decide)).trans (at7_main_v3 m ρ c)
theorem at8_main_v11 (c : Dev nD) : W8 m ρ c (Proc.devRef .tc main_v11) = kv_main_v11 (W0 m ρ c) :=
  (W8_of_ne m ρ c main_v11 (by decide)).trans (at7_main_v11 m ρ c)
theorem at8_main_v1 (c : Dev nD) : W8 m ρ c (Proc.devRef .tc main_v1) = kv_main_v1 (W0 m ρ c) :=
  (W8_of_ne m ρ c main_v1 (by decide)).trans (at7_main_v1 m ρ c)
theorem at8_main_v84 (c : Dev nD) : W8 m ρ c (Proc.devRef .tc main_v84) = kv_main_v84 (W0 m ρ c) := by
  refine ((W8_arr m ρ c 4).trans (Region3.final (V7 m ρ) c)).trans ?_
  show combine (W7 m ρ c (Proc.devRef .tc main_v81)) (W7 m ρ c (Proc.devRef .tc main_v53)) (W7 m ρ c (Proc.devRef .tc main_v82)) (W7 m ρ c (Proc.devRef .tc main_v83)) = _
  rw [at7_main_v81 m ρ c, at7_main_v53 m ρ c, at7_main_v82 m ρ c, at7_main_v83 m ρ c]
  rfl
theorem at8_main_arg5 (c : Dev nD) : W8 m ρ c (Proc.devRef .tc main_arg5) = W0 m ρ c (Proc.devRef .tc main_arg5) :=
  (W8_of_ne m ρ c main_arg5 (by decide)).trans (at7_main_arg5 m ρ c)
theorem at8_main_v12 (c : Dev nD) : W8 m ρ c (Proc.devRef .tc main_v12) = kv_main_v12 (W0 m ρ c) :=
  (W8_of_ne m ρ c main_v12 (by decide)).trans (at7_main_v12 m ρ c)
theorem at8_main_arg6 (c : Dev nD) : W8 m ρ c (Proc.devRef .tc main_arg6) = W0 m ρ c (Proc.devRef .tc main_arg6) :=
  (W8_of_ne m ρ c main_arg6 (by decide)).trans (at7_main_arg6 m ρ c)
theorem at8_main_arg7 (c : Dev nD) : W8 m ρ c (Proc.devRef .tc main_arg7) = W0 m ρ c (Proc.devRef .tc main_arg7) :=
  (W8_of_ne m ρ c main_arg7 (by decide)).trans (at7_main_arg7 m ρ c)
theorem at8_main_arg8 (c : Dev nD) : W8 m ρ c (Proc.devRef .tc main_arg8) = W0 m ρ c (Proc.devRef .tc main_arg8) :=
  (W8_of_ne m ρ c main_arg8 (by decide)).trans (at7_main_arg8 m ρ c)
theorem at8_main_arg9 (c : Dev nD) : W8 m ρ c (Proc.devRef .tc main_arg9) = W0 m ρ c (Proc.devRef .tc main_arg9) :=
  (W8_of_ne m ρ c main_arg9 (by decide)).trans (at7_main_arg9 m ρ c)
theorem at8_main_arg10 (c : Dev nD) : W8 m ρ c (Proc.devRef .tc main_arg10) = W0 m ρ c (Proc.devRef .tc main_arg10) :=
  (W8_of_ne m ρ c main_arg10 (by decide)).trans (at7_main_arg10 m ρ c)
theorem at8_main_arg11 (c : Dev nD) : W8 m ρ c (Proc.devRef .tc main_arg11) = W0 m ρ c (Proc.devRef .tc main_arg11) :=
  (W8_of_ne m ρ c main_arg11 (by decide)).trans (at7_main_arg11 m ρ c)
theorem at8_main_arg12 (c : Dev nD) : W8 m ρ c (Proc.devRef .tc main_arg12) = W0 m ρ c (Proc.devRef .tc main_arg12) :=
  (W8_of_ne m ρ c main_arg12 (by decide)).trans (at7_main_arg12 m ρ c)

/-! ## Boundary 9 -/

theorem at9_main_v3 (c : Dev nD) : W9 m ρ c (Proc.devRef .tc main_v3) = kv_main_v3 (W0 m ρ c) :=
  (keep4 (W8 m ρ c) main_v3 (by decide)).trans (at8_main_v3 m ρ c)
theorem at9_main_v11 (c : Dev nD) : W9 m ρ c (Proc.devRef .tc main_v11) = kv_main_v11 (W0 m ρ c) :=
  (keep4 (W8 m ρ c) main_v11 (by decide)).trans (at8_main_v11 m ρ c)
theorem at9_main_v1 (c : Dev nD) : W9 m ρ c (Proc.devRef .tc main_v1) = kv_main_v1 (W0 m ρ c) :=
  (keep4 (W8 m ρ c) main_v1 (by decide)).trans (at8_main_v1 m ρ c)
theorem at9_main_v84 (c : Dev nD) : W9 m ρ c (Proc.devRef .tc main_v84) = kv_main_v84 (W0 m ρ c) :=
  (keep4 (W8 m ρ c) main_v84 (by decide)).trans (at8_main_v84 m ρ c)
theorem at9_main_v86 (c : Dev nD) : W9 m ρ c (Proc.devRef .tc main_v86) = kv_main_v86 (W0 m ρ c) := by
  refine (stretch4_main_v86 (W8 m ρ c)).trans ?_
  rw [at8_main_arg5 m ρ c]
  rfl
theorem at9_main_v90 (c : Dev nD) : W9 m ρ c (Proc.devRef .tc main_v90) = kv_main_v90 (W0 m ρ c) := by
  refine (stretch4_main_v90 (W8 m ρ c)).trans ?_
  rfl
theorem at9_main_v12 (c : Dev nD) : W9 m ρ c (Proc.devRef .tc main_v12) = kv_main_v12 (W0 m ρ c) :=
  (keep4 (W8 m ρ c) main_v12 (by decide)).trans (at8_main_v12 m ρ c)
theorem at9_main_v88 (c : Dev nD) : W9 m ρ c (Proc.devRef .tc main_v88) = kv_main_v88 (W0 m ρ c) := by
  refine (stretch4_main_v88 (W8 m ρ c)).trans ?_
  rw [at8_main_arg6 m ρ c]
  rfl
theorem at9_main_arg7 (c : Dev nD) : W9 m ρ c (Proc.devRef .tc main_arg7) = W0 m ρ c (Proc.devRef .tc main_arg7) :=
  (keep4 (W8 m ρ c) main_arg7 (by decide)).trans (at8_main_arg7 m ρ c)
theorem at9_main_arg8 (c : Dev nD) : W9 m ρ c (Proc.devRef .tc main_arg8) = W0 m ρ c (Proc.devRef .tc main_arg8) :=
  (keep4 (W8 m ρ c) main_arg8 (by decide)).trans (at8_main_arg8 m ρ c)
theorem at9_main_arg9 (c : Dev nD) : W9 m ρ c (Proc.devRef .tc main_arg9) = W0 m ρ c (Proc.devRef .tc main_arg9) :=
  (keep4 (W8 m ρ c) main_arg9 (by decide)).trans (at8_main_arg9 m ρ c)
theorem at9_main_arg10 (c : Dev nD) : W9 m ρ c (Proc.devRef .tc main_arg10) = W0 m ρ c (Proc.devRef .tc main_arg10) :=
  (keep4 (W8 m ρ c) main_arg10 (by decide)).trans (at8_main_arg10 m ρ c)
theorem at9_main_arg11 (c : Dev nD) : W9 m ρ c (Proc.devRef .tc main_arg11) = W0 m ρ c (Proc.devRef .tc main_arg11) :=
  (keep4 (W8 m ρ c) main_arg11 (by decide)).trans (at8_main_arg11 m ρ c)
theorem at9_main_arg12 (c : Dev nD) : W9 m ρ c (Proc.devRef .tc main_arg12) = W0 m ρ c (Proc.devRef .tc main_arg12) :=
  (keep4 (W8 m ρ c) main_arg12 (by decide)).trans (at8_main_arg12 m ρ c)

/-! ## Boundary 10 -/

theorem at10_main_v3 (c : Dev nD) : W10 m ρ c (Proc.devRef .tc main_v3) = kv_main_v3 (W0 m ρ c) :=
  (W10_of_ne m ρ c main_v3 (by decide)).trans (at9_main_v3 m ρ c)
theorem at10_main_v11 (c : Dev nD) : W10 m ρ c (Proc.devRef .tc main_v11) = kv_main_v11 (W0 m ρ c) :=
  (W10_of_ne m ρ c main_v11 (by decide)).trans (at9_main_v11 m ρ c)
theorem at10_main_v1 (c : Dev nD) : W10 m ρ c (Proc.devRef .tc main_v1) = kv_main_v1 (W0 m ρ c) :=
  (W10_of_ne m ρ c main_v1 (by decide)).trans (at9_main_v1 m ρ c)
theorem at10_main_v91 (c : Dev nD) : W10 m ρ c (Proc.devRef .tc main_v91) = kv_main_v91 (W0 m ρ c) := by
  refine ((W10_arr m ρ c 3).trans (Region4.final (V9 m ρ) c)).trans ?_
  show dense id (W9 m ρ c (Proc.devRef .tc main_v84)) (W9 m ρ c (Proc.devRef .tc main_v86)) (W9 m ρ c (Proc.devRef .tc main_v90)) = _
  rw [at9_main_v84 m ρ c, at9_main_v86 m ρ c, at9_main_v90 m ρ c]
  rfl
theorem at10_main_v12 (c : Dev nD) : W10 m ρ c (Proc.devRef .tc main_v12) = kv_main_v12 (W0 m ρ c) :=
  (W10_of_ne m ρ c main_v12 (by decide)).trans (at9_main_v12 m ρ c)
theorem at10_main_v88 (c : Dev nD) : W10 m ρ c (Proc.devRef .tc main_v88) = kv_main_v88 (W0 m ρ c) :=
  (W10_of_ne m ρ c main_v88 (by decide)).trans (at9_main_v88 m ρ c)
theorem at10_main_arg7 (c : Dev nD) : W10 m ρ c (Proc.devRef .tc main_arg7) = W0 m ρ c (Proc.devRef .tc main_arg7) :=
  (W10_of_ne m ρ c main_arg7 (by decide)).trans (at9_main_arg7 m ρ c)
theorem at10_main_arg8 (c : Dev nD) : W10 m ρ c (Proc.devRef .tc main_arg8) = W0 m ρ c (Proc.devRef .tc main_arg8) :=
  (W10_of_ne m ρ c main_arg8 (by decide)).trans (at9_main_arg8 m ρ c)
theorem at10_main_arg9 (c : Dev nD) : W10 m ρ c (Proc.devRef .tc main_arg9) = W0 m ρ c (Proc.devRef .tc main_arg9) :=
  (W10_of_ne m ρ c main_arg9 (by decide)).trans (at9_main_arg9 m ρ c)
theorem at10_main_arg10 (c : Dev nD) : W10 m ρ c (Proc.devRef .tc main_arg10) = W0 m ρ c (Proc.devRef .tc main_arg10) :=
  (W10_of_ne m ρ c main_arg10 (by decide)).trans (at9_main_arg10 m ρ c)
theorem at10_main_arg11 (c : Dev nD) : W10 m ρ c (Proc.devRef .tc main_arg11) = W0 m ρ c (Proc.devRef .tc main_arg11) :=
  (W10_of_ne m ρ c main_arg11 (by decide)).trans (at9_main_arg11 m ρ c)
theorem at10_main_arg12 (c : Dev nD) : W10 m ρ c (Proc.devRef .tc main_arg12) = W0 m ρ c (Proc.devRef .tc main_arg12) :=
  (W10_of_ne m ρ c main_arg12 (by decide)).trans (at9_main_arg12 m ρ c)

/-! ## Boundary 11 -/

theorem at11_main_v3 (c : Dev nD) : W11 m ρ c (Proc.devRef .tc main_v3) = kv_main_v3 (W0 m ρ c) :=
  (keep5 (W10 m ρ c) main_v3 (by decide)).trans (at10_main_v3 m ρ c)
theorem at11_main_v119 (c : Dev nD) : W11 m ρ c (Proc.devRef .tc main_v119) = kv_main_v119 (W0 m ρ c) := by
  refine (stretch5_main_v119 (W10 m ρ c)).trans ?_
  rw [at10_main_v3 m ρ c, at10_main_v91 m ρ c, at10_main_v1 m ρ c, at10_main_v11 m ρ c]
  rfl
theorem at11_main_v91 (c : Dev nD) : W11 m ρ c (Proc.devRef .tc main_v91) = kv_main_v91 (W0 m ρ c) :=
  (keep5 (W10 m ρ c) main_v91 (by decide)).trans (at10_main_v91 m ρ c)
theorem at11_main_v120 (c : Dev nD) : W11 m ρ c (Proc.devRef .tc main_v120) = kv_main_v120 (W0 m ρ c) := by
  refine (stretch5_main_v120 (W10 m ρ c)).trans ?_
  rw [at10_main_v12 m ρ c]
  rfl
theorem at11_main_v121 (c : Dev nD) : W11 m ρ c (Proc.devRef .tc main_v121) = kv_main_v121 (W0 m ρ c) := by
  refine (stretch5_main_v121 (W10 m ρ c)).trans ?_
  rw [at10_main_v88 m ρ c]
  rfl
theorem at11_main_arg7 (c : Dev nD) : W11 m ρ c (Proc.devRef .tc main_arg7) = W0 m ρ c (Proc.devRef .tc main_arg7) :=
  (keep5 (W10 m ρ c) main_arg7 (by decide)).trans (at10_main_arg7 m ρ c)
theorem at11_main_arg8 (c : Dev nD) : W11 m ρ c (Proc.devRef .tc main_arg8) = W0 m ρ c (Proc.devRef .tc main_arg8) :=
  (keep5 (W10 m ρ c) main_arg8 (by decide)).trans (at10_main_arg8 m ρ c)
theorem at11_main_arg9 (c : Dev nD) : W11 m ρ c (Proc.devRef .tc main_arg9) = W0 m ρ c (Proc.devRef .tc main_arg9) :=
  (keep5 (W10 m ρ c) main_arg9 (by decide)).trans (at10_main_arg9 m ρ c)
theorem at11_main_arg10 (c : Dev nD) : W11 m ρ c (Proc.devRef .tc main_arg10) = W0 m ρ c (Proc.devRef .tc main_arg10) :=
  (keep5 (W10 m ρ c) main_arg10 (by decide)).trans (at10_main_arg10 m ρ c)
theorem at11_main_v1 (c : Dev nD) : W11 m ρ c (Proc.devRef .tc main_v1) = kv_main_v1 (W0 m ρ c) :=
  (keep5 (W10 m ρ c) main_v1 (by decide)).trans (at10_main_v1 m ρ c)
theorem at11_main_arg11 (c : Dev nD) : W11 m ρ c (Proc.devRef .tc main_arg11) = W0 m ρ c (Proc.devRef .tc main_arg11) :=
  (keep5 (W10 m ρ c) main_arg11 (by decide)).trans (at10_main_arg11 m ρ c)
theorem at11_main_arg12 (c : Dev nD) : W11 m ρ c (Proc.devRef .tc main_arg12) = W0 m ρ c (Proc.devRef .tc main_arg12) :=
  (keep5 (W10 m ρ c) main_arg12 (by decide)).trans (at10_main_arg12 m ρ c)

/-! ## Boundary 12 -/

theorem at12_main_v3 (c : Dev nD) : W12 m ρ c (Proc.devRef .tc main_v3) = kv_main_v3 (W0 m ρ c) :=
  (W12_of_ne m ρ c main_v3 (by decide)).trans (at11_main_v3 m ρ c)
theorem at12_main_v122 (c : Dev nD) : W12 m ρ c (Proc.devRef .tc main_v122) = kv_main_v122 (W0 m ρ c) := by
  refine ((W12_arr m ρ c 4).trans (Region5.final (V11 m ρ) c)).trans ?_
  show combine (W11 m ρ c (Proc.devRef .tc main_v119)) (W11 m ρ c (Proc.devRef .tc main_v91)) (W11 m ρ c (Proc.devRef .tc main_v120)) (W11 m ρ c (Proc.devRef .tc main_v121)) = _
  rw [at11_main_v119 m ρ c, at11_main_v91 m ρ c, at11_main_v120 m ρ c, at11_main_v121 m ρ c]
  rfl
theorem at12_main_arg7 (c : Dev nD) : W12 m ρ c (Proc.devRef .tc main_arg7) = W0 m ρ c (Proc.devRef .tc main_arg7) :=
  (W12_of_ne m ρ c main_arg7 (by decide)).trans (at11_main_arg7 m ρ c)
theorem at12_main_arg8 (c : Dev nD) : W12 m ρ c (Proc.devRef .tc main_arg8) = W0 m ρ c (Proc.devRef .tc main_arg8) :=
  (W12_of_ne m ρ c main_arg8 (by decide)).trans (at11_main_arg8 m ρ c)
theorem at12_main_arg9 (c : Dev nD) : W12 m ρ c (Proc.devRef .tc main_arg9) = W0 m ρ c (Proc.devRef .tc main_arg9) :=
  (W12_of_ne m ρ c main_arg9 (by decide)).trans (at11_main_arg9 m ρ c)
theorem at12_main_arg10 (c : Dev nD) : W12 m ρ c (Proc.devRef .tc main_arg10) = W0 m ρ c (Proc.devRef .tc main_arg10) :=
  (W12_of_ne m ρ c main_arg10 (by decide)).trans (at11_main_arg10 m ρ c)
theorem at12_main_v1 (c : Dev nD) : W12 m ρ c (Proc.devRef .tc main_v1) = kv_main_v1 (W0 m ρ c) :=
  (W12_of_ne m ρ c main_v1 (by decide)).trans (at11_main_v1 m ρ c)
theorem at12_main_arg11 (c : Dev nD) : W12 m ρ c (Proc.devRef .tc main_arg11) = W0 m ρ c (Proc.devRef .tc main_arg11) :=
  (W12_of_ne m ρ c main_arg11 (by decide)).trans (at11_main_arg11 m ρ c)
theorem at12_main_arg12 (c : Dev nD) : W12 m ρ c (Proc.devRef .tc main_arg12) = W0 m ρ c (Proc.devRef .tc main_arg12) :=
  (W12_of_ne m ρ c main_arg12 (by decide)).trans (at11_main_arg12 m ρ c)

/-! ## Boundary 13 -/

theorem at13_main_v3 (c : Dev nD) : W13 m ρ c (Proc.devRef .tc main_v3) = kv_main_v3 (W0 m ρ c) :=
  (keep6 (W12 m ρ c) main_v3 (by decide)).trans (at12_main_v3 m ρ c)
theorem at13_main_v122 (c : Dev nD) : W13 m ρ c (Proc.devRef .tc main_v122) = kv_main_v122 (W0 m ρ c) :=
  (keep6 (W12 m ρ c) main_v122 (by decide)).trans (at12_main_v122 m ρ c)
theorem at13_main_arg7 (c : Dev nD) : W13 m ρ c (Proc.devRef .tc main_arg7) = W0 m ρ c (Proc.devRef .tc main_arg7) :=
  (keep6 (W12 m ρ c) main_arg7 (by decide)).trans (at12_main_arg7 m ρ c)
theorem at13_main_v123 (c : Dev nD) : W13 m ρ c (Proc.devRef .tc main_v123) = kv_main_v123 (W0 m ρ c) := by
  refine (stretch6_main_v123 (W12 m ρ c)).trans ?_
  rw [at12_main_arg8 m ρ c]
  rfl
theorem at13_main_arg9 (c : Dev nD) : W13 m ρ c (Proc.devRef .tc main_arg9) = W0 m ρ c (Proc.devRef .tc main_arg9) :=
  (keep6 (W12 m ρ c) main_arg9 (by decide)).trans (at12_main_arg9 m ρ c)
theorem at13_main_arg10 (c : Dev nD) : W13 m ρ c (Proc.devRef .tc main_arg10) = W0 m ρ c (Proc.devRef .tc main_arg10) :=
  (keep6 (W12 m ρ c) main_arg10 (by decide)).trans (at12_main_arg10 m ρ c)
theorem at13_main_v1 (c : Dev nD) : W13 m ρ c (Proc.devRef .tc main_v1) = kv_main_v1 (W0 m ρ c) :=
  (keep6 (W12 m ρ c) main_v1 (by decide)).trans (at12_main_v1 m ρ c)
theorem at13_main_arg11 (c : Dev nD) : W13 m ρ c (Proc.devRef .tc main_arg11) = W0 m ρ c (Proc.devRef .tc main_arg11) :=
  (keep6 (W12 m ρ c) main_arg11 (by decide)).trans (at12_main_arg11 m ρ c)
theorem at13_main_arg12 (c : Dev nD) : W13 m ρ c (Proc.devRef .tc main_arg12) = W0 m ρ c (Proc.devRef .tc main_arg12) :=
  (keep6 (W12 m ρ c) main_arg12 (by decide)).trans (at12_main_arg12 m ρ c)

/-! ## Boundary 14 -/

theorem at14_main_v3 (c : Dev nD) : W14 m ρ c (Proc.devRef .tc main_v3) = kv_main_v3 (W0 m ρ c) :=
  (W14_of_ne m ρ c main_v3 (by decide)).trans (at13_main_v3 m ρ c)
theorem at14_main_v124 (c : Dev nD) : W14 m ρ c (Proc.devRef .tc main_v124) = kv_main_v124 (W0 m ρ c) := by
  refine ((W14_arr m ρ c 3).trans (Region6.final (V13 m ρ) c)).trans ?_
  show dense Ideal.tanh (W13 m ρ c (Proc.devRef .tc main_v122)) (W13 m ρ c (Proc.devRef .tc main_arg7)) (W13 m ρ c (Proc.devRef .tc main_v123)) = _
  rw [at13_main_v122 m ρ c, at13_main_arg7 m ρ c, at13_main_v123 m ρ c]
  rfl
theorem at14_main_arg9 (c : Dev nD) : W14 m ρ c (Proc.devRef .tc main_arg9) = W0 m ρ c (Proc.devRef .tc main_arg9) :=
  (W14_of_ne m ρ c main_arg9 (by decide)).trans (at13_main_arg9 m ρ c)
theorem at14_main_arg10 (c : Dev nD) : W14 m ρ c (Proc.devRef .tc main_arg10) = W0 m ρ c (Proc.devRef .tc main_arg10) :=
  (W14_of_ne m ρ c main_arg10 (by decide)).trans (at13_main_arg10 m ρ c)
theorem at14_main_v1 (c : Dev nD) : W14 m ρ c (Proc.devRef .tc main_v1) = kv_main_v1 (W0 m ρ c) :=
  (W14_of_ne m ρ c main_v1 (by decide)).trans (at13_main_v1 m ρ c)
theorem at14_main_arg11 (c : Dev nD) : W14 m ρ c (Proc.devRef .tc main_arg11) = W0 m ρ c (Proc.devRef .tc main_arg11) :=
  (W14_of_ne m ρ c main_arg11 (by decide)).trans (at13_main_arg11 m ρ c)
theorem at14_main_arg12 (c : Dev nD) : W14 m ρ c (Proc.devRef .tc main_arg12) = W0 m ρ c (Proc.devRef .tc main_arg12) :=
  (W14_of_ne m ρ c main_arg12 (by decide)).trans (at13_main_arg12 m ρ c)

/-! ## Boundary 15 -/

theorem at15_main_v3 (c : Dev nD) : W15 m ρ c (Proc.devRef .tc main_v3) = kv_main_v3 (W0 m ρ c) :=
  (keep7 (W14 m ρ c) main_v3 (by decide)).trans (at14_main_v3 m ρ c)
theorem at15_main_v124 (c : Dev nD) : W15 m ρ c (Proc.devRef .tc main_v124) = kv_main_v124 (W0 m ρ c) :=
  (keep7 (W14 m ρ c) main_v124 (by decide)).trans (at14_main_v124 m ρ c)
theorem at15_main_arg9 (c : Dev nD) : W15 m ρ c (Proc.devRef .tc main_arg9) = W0 m ρ c (Proc.devRef .tc main_arg9) :=
  (keep7 (W14 m ρ c) main_arg9 (by decide)).trans (at14_main_arg9 m ρ c)
theorem at15_main_v125 (c : Dev nD) : W15 m ρ c (Proc.devRef .tc main_v125) = kv_main_v125 (W0 m ρ c) := by
  refine (stretch7_main_v125 (W14 m ρ c)).trans ?_
  rw [at14_main_arg10 m ρ c]
  rfl
theorem at15_main_v1 (c : Dev nD) : W15 m ρ c (Proc.devRef .tc main_v1) = kv_main_v1 (W0 m ρ c) :=
  (keep7 (W14 m ρ c) main_v1 (by decide)).trans (at14_main_v1 m ρ c)
theorem at15_main_arg11 (c : Dev nD) : W15 m ρ c (Proc.devRef .tc main_arg11) = W0 m ρ c (Proc.devRef .tc main_arg11) :=
  (keep7 (W14 m ρ c) main_arg11 (by decide)).trans (at14_main_arg11 m ρ c)
theorem at15_main_arg12 (c : Dev nD) : W15 m ρ c (Proc.devRef .tc main_arg12) = W0 m ρ c (Proc.devRef .tc main_arg12) :=
  (keep7 (W14 m ρ c) main_arg12 (by decide)).trans (at14_main_arg12 m ρ c)

/-! ## Boundary 16 -/

theorem at16_main_v3 (c : Dev nD) : W16 m ρ c (Proc.devRef .tc main_v3) = kv_main_v3 (W0 m ρ c) :=
  (W16_of_ne m ρ c main_v3 (by decide)).trans (at15_main_v3 m ρ c)
theorem at16_main_v126 (c : Dev nD) : W16 m ρ c (Proc.devRef .tc main_v126) = kv_main_v126 (W0 m ρ c) := by
  refine ((W16_arr m ρ c 3).trans (Region7.final (V15 m ρ) c)).trans ?_
  show dense Ideal.tanh (W15 m ρ c (Proc.devRef .tc main_v124)) (W15 m ρ c (Proc.devRef .tc main_arg9)) (W15 m ρ c (Proc.devRef .tc main_v125)) = _
  rw [at15_main_v124 m ρ c, at15_main_arg9 m ρ c, at15_main_v125 m ρ c]
  rfl
theorem at16_main_v1 (c : Dev nD) : W16 m ρ c (Proc.devRef .tc main_v1) = kv_main_v1 (W0 m ρ c) :=
  (W16_of_ne m ρ c main_v1 (by decide)).trans (at15_main_v1 m ρ c)
theorem at16_main_arg11 (c : Dev nD) : W16 m ρ c (Proc.devRef .tc main_arg11) = W0 m ρ c (Proc.devRef .tc main_arg11) :=
  (W16_of_ne m ρ c main_arg11 (by decide)).trans (at15_main_arg11 m ρ c)
theorem at16_main_arg12 (c : Dev nD) : W16 m ρ c (Proc.devRef .tc main_arg12) = W0 m ρ c (Proc.devRef .tc main_arg12) :=
  (W16_of_ne m ρ c main_arg12 (by decide)).trans (at15_main_arg12 m ρ c)

/-! ## Boundary 17 -/

theorem at17_main_v141 (c : Dev nD) : W17 m ρ c (Proc.devRef .tc main_v141) = kv_main_v141 (W0 m ρ c) := by
  refine (stretch8_main_v141 (W16 m ρ c)).trans ?_
  rw [at16_main_v126 m ρ c, at16_main_v1 m ρ c, at16_main_v3 m ρ c]
  rfl
theorem at17_main_arg11 (c : Dev nD) : W17 m ρ c (Proc.devRef .tc main_arg11) = W0 m ρ c (Proc.devRef .tc main_arg11) :=
  (keep8 (W16 m ρ c) main_arg11 (by decide)).trans (at16_main_arg11 m ρ c)
theorem at17_main_v142 (c : Dev nD) : W17 m ρ c (Proc.devRef .tc main_v142) = kv_main_v142 (W0 m ρ c) := by
  refine (stretch8_main_v142 (W16 m ρ c)).trans ?_
  rw [at16_main_arg12 m ρ c]
  rfl

/-! ## Boundary 18 -/

theorem at18_main_v143 (c : Dev nD) : W18 m ρ c (Proc.devRef .tc main_v143) = kv_main_v143 (W0 m ρ c) := by
  refine ((W18_arr m ρ c 3).trans (Region8.final (V17 m ρ) c)).trans ?_
  show dense id (W17 m ρ c (Proc.devRef .tc main_v141)) (W17 m ρ c (Proc.devRef .tc main_arg11)) (W17 m ρ c (Proc.devRef .tc main_v142)) = _
  rw [at17_main_v141 m ρ c, at17_main_arg11 m ρ c, at17_main_v142 m ρ c]
  rfl
theorem at18_main_v141 (c : Dev nD) : W18 m ρ c (Proc.devRef .tc main_v141) = kv_main_v141 (W0 m ρ c) :=
  ((W18_arr m ρ c 0).trans (((dat8 (V17 m ρ) c).arrAt_in 0 rfl _).trans (A_eq8 (V17 m ρ) c 0))).trans (at17_main_v141 m ρ c)

end Cert.KernelIdeal.Chain

end
-- ==== Proof.RValues.lean ====
/-
  The reference's intermediate arrays, named.

  The reference is one straight line of host operations.  Its arrays that matter — the edge sources and destinations,
  the normalisation dinv, and per layer the dense product, the normalised aggregate over the edges and the activated
  sum; then the two dense layers, the concatenation and the final dense layer — are named here, each as ONE function
  of the arrays before it, and the run's two results are these names applied to the launch contents.
-/
import proofs.«170606_j48361331753433_2_alg».proof.Proof.Gen.ReferenceIdeal.Run

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## Each array as a function of the arrays before it -/

def rg_main_v1 (x_arg1 : (Proc.devRef .tc main_arg1 : DevRef τ sig).ty.Contents (Elt F)) : (Proc.devRef .tc main_v1 : DevRef τ sig).ty.Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_arg1) shapeCasts_S1x1600000_S1600000)

def rg_main_v3 (x_arg1 : (Proc.devRef .tc main_arg1 : DevRef τ sig).ty.Contents (Elt F)) : (Proc.devRef .tc main_v3 : DevRef τ sig).ty.Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_arg1) shapeCasts_S1x1600000_S1600000)

def rg_main_v11 (x_arg1 : (Proc.devRef .tc main_arg1 : DevRef τ sig).ty.Contents (Elt F)) : (Proc.devRef .tc main_v11 : DevRef τ sig).ty.Contents (Elt F) :=
  ((Host.powf : (⟨S100000, .f32⟩ : BufTy).Contents (Elt F) → (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_arg1) shapeCasts_S1x1600000_S1600000)) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0xBF000000#32)))

def rg_main_v12 (x_arg0 : (Proc.devRef .tc main_arg0 : DevRef τ sig).ty.Contents (Elt F)) (x_arg3 : (Proc.devRef .tc main_arg3 : DevRef τ sig).ty.Contents (Elt F)) : (Proc.devRef .tc main_v12 : DevRef τ sig).ty.Contents (Elt F) :=
  (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x_arg0 x_arg3)

def rg_main_v40 (x_v3 : (Proc.devRef .tc main_v3 : DevRef τ sig).ty.Contents (Elt F)) (x_v12 : (Proc.devRef .tc main_v12 : DevRef τ sig).ty.Contents (Elt F)) (x_v1 : (Proc.devRef .tc main_v1 : DevRef τ sig).ty.Contents (Elt F)) (x_v11 : (Proc.devRef .tc main_v11 : DevRef τ sig).ty.Contents (Elt F)) : (Proc.devRef .tc main_v40 : DevRef τ sig).ty.Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x_v3) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_v12 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))))))

def rg_main_v49 (x_v40 : (Proc.devRef .tc main_v40 : DevRef τ sig).ty.Contents (Elt F)) (x_v12 : (Proc.devRef .tc main_v12 : DevRef τ sig).ty.Contents (Elt F)) (x_v11 : (Proc.devRef .tc main_v11 : DevRef τ sig).ty.Contents (Elt F)) (x_arg4 : (Proc.devRef .tc main_arg4 : DevRef τ sig).ty.Contents (Elt F)) : (Proc.devRef .tc main_v49 : DevRef τ sig).ty.Contents (Elt F) :=
  ((Host.tanh : (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) x_v40 ((mulf : (⟨S100000x128, .f32⟩ : BufTy).Contents (Elt F) → (⟨S100000x128, .f32⟩ : BufTy).Contents (Elt F) → (⟨S100000x128, .f32⟩ : BufTy).Contents (Elt F)) x_v12 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) x_v11 x_v11))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg4))))

def rg_main_v51 (x_arg5 : (Proc.devRef .tc main_arg5 : DevRef τ sig).ty.Contents (Elt F)) : (Proc.devRef .tc main_v51 : DevRef τ sig).ty.Contents (Elt F) :=
  (shapeCast S128x128 (((extractStridedSlice S1x128x128 ![0, 0, 0] · slices_S2x128x128_S1x128x128_0_0_0) : (⟨S2x128x128, .f32⟩ : BufTy).Contents (Elt F) → (⟨S1x128x128, .f32⟩ : BufTy).Contents (Elt F)) x_arg5) shapeCasts_S1x128x128_S128x128)

def rg_main_v53 (x_arg6 : (Proc.devRef .tc main_arg6 : DevRef τ sig).ty.Contents (Elt F)) : (Proc.devRef .tc main_v53 : DevRef τ sig).ty.Contents (Elt F) :=
  (shapeCast S128 (((extractStridedSlice S1x128 ![0, 0] · slices_S2x128_S1x128_0_0) : (⟨S2x128, .f32⟩ : BufTy).Contents (Elt F) → (⟨S1x128, .f32⟩ : BufTy).Contents (Elt F)) x_arg6) shapeCasts_S1x128_S128)

def rg_main_v54 (x_v49 : (Proc.devRef .tc main_v49 : DevRef τ sig).ty.Contents (Elt F)) (x_v51 : (Proc.devRef .tc main_v51 : DevRef τ sig).ty.Contents (Elt F)) : (Proc.devRef .tc main_v54 : DevRef τ sig).ty.Contents (Elt F) :=
  (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x_v49 x_v51)

def rg_main_v82 (x_v3 : (Proc.devRef .tc main_v3 : DevRef τ sig).ty.Contents (Elt F)) (x_v54 : (Proc.devRef .tc main_v54 : DevRef τ sig).ty.Contents (Elt F)) (x_v1 : (Proc.devRef .tc main_v1 : DevRef τ sig).ty.Contents (Elt F)) (x_v11 : (Proc.devRef .tc main_v11 : DevRef τ sig).ty.Contents (Elt F)) : (Proc.devRef .tc main_v82 : DevRef τ sig).ty.Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x_v3) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_v54 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))))))

def rg_main_v91 (x_v82 : (Proc.devRef .tc main_v82 : DevRef τ sig).ty.Contents (Elt F)) (x_v54 : (Proc.devRef .tc main_v54 : DevRef τ sig).ty.Contents (Elt F)) (x_v11 : (Proc.devRef .tc main_v11 : DevRef τ sig).ty.Contents (Elt F)) (x_v53 : (Proc.devRef .tc main_v53 : DevRef τ sig).ty.Contents (Elt F)) : (Proc.devRef .tc main_v91 : DevRef τ sig).ty.Contents (Elt F) :=
  ((Host.tanh : (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) x_v82 ((mulf : (⟨S100000x128, .f32⟩ : BufTy).Contents (Elt F) → (⟨S100000x128, .f32⟩ : BufTy).Contents (Elt F) → (⟨S100000x128, .f32⟩ : BufTy).Contents (Elt F)) x_v54 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) x_v11 x_v11))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_v53))))

def rg_main_v93 (x_arg5 : (Proc.devRef .tc main_arg5 : DevRef τ sig).ty.Contents (Elt F)) : (Proc.devRef .tc main_v93 : DevRef τ sig).ty.Contents (Elt F) :=
  (shapeCast S128x128 (((extractStridedSlice S1x128x128 ![1, 0, 0] · slices_S2x128x128_S1x128x128_1_0_0) : (⟨S2x128x128, .f32⟩ : BufTy).Contents (Elt F) → (⟨S1x128x128, .f32⟩ : BufTy).Contents (Elt F)) x_arg5) shapeCasts_S1x128x128_S128x128)

def rg_main_v95 (x_arg6 : (Proc.devRef .tc main_arg6 : DevRef τ sig).ty.Contents (Elt F)) : (Proc.devRef .tc main_v95 : DevRef τ sig).ty.Contents (Elt F) :=
  (shapeCast S128 (((extractStridedSlice S1x128 ![1, 0] · slices_S2x128_S1x128_1_0) : (⟨S2x128, .f32⟩ : BufTy).Contents (Elt F) → (⟨S1x128, .f32⟩ : BufTy).Contents (Elt F)) x_arg6) shapeCasts_S1x128_S128)

def rg_main_v96 (x_v91 : (Proc.devRef .tc main_v91 : DevRef τ sig).ty.Contents (Elt F)) (x_v93 : (Proc.devRef .tc main_v93 : DevRef τ sig).ty.Contents (Elt F)) : (Proc.devRef .tc main_v96 : DevRef τ sig).ty.Contents (Elt F) :=
  (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x_v91 x_v93)

def rg_main_v124 (x_v3 : (Proc.devRef .tc main_v3 : DevRef τ sig).ty.Contents (Elt F)) (x_v96 : (Proc.devRef .tc main_v96 : DevRef τ sig).ty.Contents (Elt F)) (x_v1 : (Proc.devRef .tc main_v1 : DevRef τ sig).ty.Contents (Elt F)) (x_v11 : (Proc.devRef .tc main_v11 : DevRef τ sig).ty.Contents (Elt F)) : (Proc.devRef .tc main_v124 : DevRef τ sig).ty.Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x_v3) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_v96 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x_v11 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))))))

def rg_main_v133 (x_v124 : (Proc.devRef .tc main_v124 : DevRef τ sig).ty.Contents (Elt F)) (x_v96 : (Proc.devRef .tc main_v96 : DevRef τ sig).ty.Contents (Elt F)) (x_v11 : (Proc.devRef .tc main_v11 : DevRef τ sig).ty.Contents (Elt F)) (x_v95 : (Proc.devRef .tc main_v95 : DevRef τ sig).ty.Contents (Elt F)) : (Proc.devRef .tc main_v133 : DevRef τ sig).ty.Contents (Elt F) :=
  ((Host.tanh : (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) x_v124 ((mulf : (⟨S100000x128, .f32⟩ : BufTy).Contents (Elt F) → (⟨S100000x128, .f32⟩ : BufTy).Contents (Elt F) → (⟨S100000x128, .f32⟩ : BufTy).Contents (Elt F)) x_v96 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) x_v11 x_v11))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_v95))))

def rg_main_v138 (x_v133 : (Proc.devRef .tc main_v133 : DevRef τ sig).ty.Contents (Elt F)) (x_arg7 : (Proc.devRef .tc main_arg7 : DevRef τ sig).ty.Contents (Elt F)) (x_arg8 : (Proc.devRef .tc main_arg8 : DevRef τ sig).ty.Contents (Elt F)) : (Proc.devRef .tc main_v138 : DevRef τ sig).ty.Contents (Elt F) :=
  ((Host.tanh : (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) x_v133 x_arg7) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) x_arg8))))

def rg_main_v143 (x_v138 : (Proc.devRef .tc main_v138 : DevRef τ sig).ty.Contents (Elt F)) (x_arg9 : (Proc.devRef .tc main_arg9 : DevRef τ sig).ty.Contents (Elt F)) (x_arg10 : (Proc.devRef .tc main_arg10 : DevRef τ sig).ty.Contents (Elt F)) : (Proc.devRef .tc main_v143 : DevRef τ sig).ty.Contents (Elt F) :=
  ((Host.tanh : (⟨S100000x32, .f32⟩ : BufTy).Contents (Elt F) → (⟨S100000x32, .f32⟩ : BufTy).Contents (Elt F)) ((addf : (⟨S100000x32, .f32⟩ : BufTy).Contents (Elt F) → (⟨S100000x32, .f32⟩ : BufTy).Contents (Elt F) → (⟨S100000x32, .f32⟩ : BufTy).Contents (Elt F)) (((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) x_v138 x_arg9) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) x_arg10))))

def rg_main_v158 (x_v143 : (Proc.devRef .tc main_v143 : DevRef τ sig).ty.Contents (Elt F)) (x_v1 : (Proc.devRef .tc main_v1 : DevRef τ sig).ty.Contents (Elt F)) (x_v3 : (Proc.devRef .tc main_v3 : DevRef τ sig).ty.Contents (Elt F)) : (Proc.devRef .tc main_v158 : DevRef τ sig).ty.Contents (Elt F) :=
  ((fn_main_v158 (F := F)) (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) x_v143 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v1 ((broadcastInDim S1600000 ![] bcast_S_S1600000 : (⟨S_, .i32⟩ : BufTy).Contents (Elt F) → (⟨S1600000, .i32⟩ : BufTy).Contents (Elt F)) (constantI S_ 32 100000#32))) x_v1))) (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) x_v143 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x_v3 ((broadcastInDim S1600000 ![] bcast_S_S1600000 : (⟨S_, .i32⟩ : BufTy).Contents (Elt F) → (⟨S1600000, .i32⟩ : BufTy).Contents (Elt F)) (constantI S_ 32 100000#32))) x_v3))))

def rg_main_v162 (x_v158 : (Proc.devRef .tc main_v158 : DevRef τ sig).ty.Contents (Elt F)) (x_arg11 : (Proc.devRef .tc main_arg11 : DevRef τ sig).ty.Contents (Elt F)) (x_arg12 : (Proc.devRef .tc main_arg12 : DevRef τ sig).ty.Contents (Elt F)) : (Proc.devRef .tc main_v162 : DevRef τ sig).ty.Contents (Elt F) :=
  ((addf : (⟨S1600000x6, .f32⟩ : BufTy).Contents (Elt F) → (⟨S1600000x6, .f32⟩ : BufTy).Contents (Elt F) → (⟨S1600000x6, .f32⟩ : BufTy).Contents (Elt F)) (((fun l r => Host.dotGeneral dot_S1600000x64_S64x6_S1600000x6_1_0_0_1_n_n none l r) : (⟨S1600000x64, .f32⟩ : BufTy).Contents (Elt F) → (⟨S64x6, .f32⟩ : BufTy).Contents (Elt F) → (⟨S1600000x6, .f32⟩ : BufTy).Contents (Elt F)) x_v158 x_arg11) ((broadcastInDim S1600000x6 ![0, 1] bcast_S1x6_S1600000x6_0_1 : (⟨S1x6, .f32⟩ : BufTy).Contents (Elt F) → (⟨S1600000x6, .f32⟩ : BufTy).Contents (Elt F)) ((broadcastInDim S1x6 ![1] bcast_S6_S1x6_1 : (⟨S6, .f32⟩ : BufTy).Contents (Elt F) → (⟨S1x6, .f32⟩ : BufTy).Contents (Elt F)) x_arg12)))

/-! ## The arrays, from the launch contents of the arguments -/

def rv_main_v1 (A : Valuation τ sig (Elt F)) : (Proc.devRef .tc main_v1 : DevRef τ sig).ty.Contents (Elt F) :=
  rg_main_v1 (A (Proc.devRef .tc main_arg1))

def rv_main_v3 (A : Valuation τ sig (Elt F)) : (Proc.devRef .tc main_v3 : DevRef τ sig).ty.Contents (Elt F) :=
  rg_main_v3 (A (Proc.devRef .tc main_arg1))

def rv_main_v11 (A : Valuation τ sig (Elt F)) : (Proc.devRef .tc main_v11 : DevRef τ sig).ty.Contents (Elt F) :=
  rg_main_v11 (A (Proc.devRef .tc main_arg1))

def rv_main_v12 (A : Valuation τ sig (Elt F)) : (Proc.devRef .tc main_v12 : DevRef τ sig).ty.Contents (Elt F) :=
  rg_main_v12 (A (Proc.devRef .tc main_arg0)) (A (Proc.devRef .tc main_arg3))

def rv_main_v40 (A : Valuation τ sig (Elt F)) : (Proc.devRef .tc main_v40 : DevRef τ sig).ty.Contents (Elt F) :=
  rg_main_v40 (rv_main_v3 A) (rv_main_v12 A) (rv_main_v1 A) (rv_main_v11 A)

def rv_main_v49 (A : Valuation τ sig (Elt F)) : (Proc.devRef .tc main_v49 : DevRef τ sig).ty.Contents (Elt F) :=
  rg_main_v49 (rv_main_v40 A) (rv_main_v12 A) (rv_main_v11 A) (A (Proc.devRef .tc main_arg4))

def rv_main_v51 (A : Valuation τ sig (Elt F)) : (Proc.devRef .tc main_v51 : DevRef τ sig).ty.Contents (Elt F) :=
  rg_main_v51 (A (Proc.devRef .tc main_arg5))

def rv_main_v53 (A : Valuation τ sig (Elt F)) : (Proc.devRef .tc main_v53 : DevRef τ sig).ty.Contents (Elt F) :=
  rg_main_v53 (A (Proc.devRef .tc main_arg6))

def rv_main_v54 (A : Valuation τ sig (Elt F)) : (Proc.devRef .tc main_v54 : DevRef τ sig).ty.Contents (Elt F) :=
  rg_main_v54 (rv_main_v49 A) (rv_main_v51 A)

def rv_main_v82 (A : Valuation τ sig (Elt F)) : (Proc.devRef .tc main_v82 : DevRef τ sig).ty.Contents (Elt F) :=
  rg_main_v82 (rv_main_v3 A) (rv_main_v54 A) (rv_main_v1 A) (rv_main_v11 A)

def rv_main_v91 (A : Valuation τ sig (Elt F)) : (Proc.devRef .tc main_v91 : DevRef τ sig).ty.Contents (Elt F) :=
  rg_main_v91 (rv_main_v82 A) (rv_main_v54 A) (rv_main_v11 A) (rv_main_v53 A)

def rv_main_v93 (A : Valuation τ sig (Elt F)) : (Proc.devRef .tc main_v93 : DevRef τ sig).ty.Contents (Elt F) :=
  rg_main_v93 (A (Proc.devRef .tc main_arg5))

def rv_main_v95 (A : Valuation τ sig (Elt F)) : (Proc.devRef .tc main_v95 : DevRef τ sig).ty.Contents (Elt F) :=
  rg_main_v95 (A (Proc.devRef .tc main_arg6))

def rv_main_v96 (A : Valuation τ sig (Elt F)) : (Proc.devRef .tc main_v96 : DevRef τ sig).ty.Contents (Elt F) :=
  rg_main_v96 (rv_main_v91 A) (rv_main_v93 A)

def rv_main_v124 (A : Valuation τ sig (Elt F)) : (Proc.devRef .tc main_v124 : DevRef τ sig).ty.Contents (Elt F) :=
  rg_main_v124 (rv_main_v3 A) (rv_main_v96 A) (rv_main_v1 A) (rv_main_v11 A)

def rv_main_v133 (A : Valuation τ sig (Elt F)) : (Proc.devRef .tc main_v133 : DevRef τ sig).ty.Contents (Elt F) :=
  rg_main_v133 (rv_main_v124 A) (rv_main_v96 A) (rv_main_v11 A) (rv_main_v95 A)

def rv_main_v138 (A : Valuation τ sig (Elt F)) : (Proc.devRef .tc main_v138 : DevRef τ sig).ty.Contents (Elt F) :=
  rg_main_v138 (rv_main_v133 A) (A (Proc.devRef .tc main_arg7)) (A (Proc.devRef .tc main_arg8))

def rv_main_v143 (A : Valuation τ sig (Elt F)) : (Proc.devRef .tc main_v143 : DevRef τ sig).ty.Contents (Elt F) :=
  rg_main_v143 (rv_main_v138 A) (A (Proc.devRef .tc main_arg9)) (A (Proc.devRef .tc main_arg10))

def rv_main_v158 (A : Valuation τ sig (Elt F)) : (Proc.devRef .tc main_v158 : DevRef τ sig).ty.Contents (Elt F) :=
  rg_main_v158 (rv_main_v143 A) (rv_main_v1 A) (rv_main_v3 A)

def rv_main_v162 (A : Valuation τ sig (Elt F)) : (Proc.devRef .tc main_v162 : DevRef τ sig).ty.Contents (Elt F) :=
  rg_main_v162 (rv_main_v158 A) (A (Proc.devRef .tc main_arg11)) (A (Proc.devRef .tc main_arg12))

/-! ## They are the generated run's named results -/

set_option maxHeartbeats 1000000 in
theorem rv_main_v1_eq (A : Valuation τ sig (Elt F)) : rv_main_v1 A = res_main_v1 A := by
  unfold rv_main_v1 res_main_v1
  rfl

set_option maxHeartbeats 1000000 in
theorem rv_main_v3_eq (A : Valuation τ sig (Elt F)) : rv_main_v3 A = res_main_v3 A := by
  unfold rv_main_v3 res_main_v3
  rfl

set_option maxHeartbeats 1000000 in
theorem rv_main_v11_eq (A : Valuation τ sig (Elt F)) : rv_main_v11 A = res_main_v11 A := by
  unfold rv_main_v11 res_main_v11
  rfl

set_option maxHeartbeats 1000000 in
theorem rv_main_v12_eq (A : Valuation τ sig (Elt F)) : rv_main_v12 A = res_main_v12 A := by
  unfold rv_main_v12 res_main_v12
  rfl

set_option maxHeartbeats 1000000 in
theorem rv_main_v54_eq (A : Valuation τ sig (Elt F)) : rv_main_v54 A = res_main_v54 A := by
  unfold rv_main_v54 rv_main_v49 rv_main_v40 rv_main_v51 res_main_v54
  rw [rv_main_v12_eq, rv_main_v11_eq, rv_main_v3_eq, rv_main_v1_eq]
  rfl

set_option maxHeartbeats 1000000 in
theorem rv_main_v96_eq (A : Valuation τ sig (Elt F)) : rv_main_v96 A = res_main_v96 A := by
  unfold rv_main_v96 rv_main_v91 rv_main_v82 rv_main_v93 rv_main_v53 res_main_v96
  rw [rv_main_v54_eq, rv_main_v11_eq, rv_main_v3_eq, rv_main_v1_eq]
  rfl

set_option maxHeartbeats 1000000 in
theorem rv_main_v143_eq (A : Valuation τ sig (Elt F)) : rv_main_v143 A = res_main_v143 A := by
  unfold rv_main_v143 rv_main_v138 rv_main_v133 rv_main_v124 rv_main_v95 res_main_v143
  rw [rv_main_v96_eq, rv_main_v11_eq, rv_main_v3_eq, rv_main_v1_eq]
  rfl

set_option maxHeartbeats 1000000 in
theorem post_main_v158 (A : Valuation τ sig (Elt F)) :
    concatenate S1600000x64 1 [⟨S1600000x32, (Host.gather gather_S100000x32_S1600000x1_S1600000x32_1_0_n_n_0_1_132 (res_main_v143 A) (broadcastInDim S1600000x1 ![0] bcast_S1600000_S1600000x1_0 (select (cmpi .slt (res_main_v1 A) (broadcastInDim S1600000 ![] bcast_S_S1600000 (constantI S_ 32 0#32))) (addi (res_main_v1 A) (broadcastInDim S1600000 ![] bcast_S_S1600000 (constantI S_ 32 100000#32))) (res_main_v1 A))))⟩, ⟨S1600000x32, (Host.gather gather_S100000x32_S1600000x1_S1600000x32_1_0_n_n_0_1_132 (res_main_v143 A) (broadcastInDim S1600000x1 ![0] bcast_S1600000_S1600000x1_0 (select (cmpi .slt (res_main_v3 A) (broadcastInDim S1600000 ![] bcast_S_S1600000 (constantI S_ 32 0#32))) (addi (res_main_v3 A) (broadcastInDim S1600000 ![] bcast_S_S1600000 (constantI S_ 32 100000#32))) (res_main_v3 A))))⟩] concatenates_S1600000x32_S1600000x32_S1600000x64_d1 = rv_main_v158 A := by
  unfold rv_main_v158
  rw [rv_main_v143_eq, rv_main_v3_eq, rv_main_v1_eq]
  rfl

set_option maxHeartbeats 1000000 in
theorem post_main_v162 (A : Valuation τ sig (Elt F)) :
    addf (Host.dotGeneral dot_S1600000x64_S64x6_S1600000x6_1_0_0_1_n_n none (concatenate S1600000x64 1 [⟨S1600000x32, (Host.gather gather_S100000x32_S1600000x1_S1600000x32_1_0_n_n_0_1_132 (res_main_v143 A) (broadcastInDim S1600000x1 ![0] bcast_S1600000_S1600000x1_0 (select (cmpi .slt (res_main_v1 A) (broadcastInDim S1600000 ![] bcast_S_S1600000 (constantI S_ 32 0#32))) (addi (res_main_v1 A) (broadcastInDim S1600000 ![] bcast_S_S1600000 (constantI S_ 32 100000#32))) (res_main_v1 A))))⟩, ⟨S1600000x32, (Host.gather gather_S100000x32_S1600000x1_S1600000x32_1_0_n_n_0_1_132 (res_main_v143 A) (broadcastInDim S1600000x1 ![0] bcast_S1600000_S1600000x1_0 (select (cmpi .slt (res_main_v3 A) (broadcastInDim S1600000 ![] bcast_S_S1600000 (constantI S_ 32 0#32))) (addi (res_main_v3 A) (broadcastInDim S1600000 ![] bcast_S_S1600000 (constantI S_ 32 100000#32))) (res_main_v3 A))))⟩] concatenates_S1600000x32_S1600000x32_S1600000x64_d1) (A (Proc.devRef .tc main_arg11))) (broadcastInDim S1600000x6 ![0, 1] bcast_S1x6_S1600000x6_0_1 (broadcastInDim S1x6 ![1] bcast_S6_S1x6_1 (A (Proc.devRef .tc main_arg12)))) = rv_main_v162 A := by
  unfold rv_main_v162 rv_main_v158
  rw [rv_main_v143_eq, rv_main_v3_eq, rv_main_v1_eq]
  rfl

/-- The reference's run: both results at their named functions of the launch contents, the arguments unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162) = rv_main_v162 (launchContents m c)
      ∧ r.2.mem ((c.tc : Thread nD τ).loc main_v158) = rv_main_v158 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (post_main_v162 _), (h c).2.1.trans (post_main_v158 _), (h c).2.2⟩)
    (Value.run m ρ)

end Cert.ReferenceIdeal.Stages

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibDenseHost.lean ====
/-
  Dense layers and the combine step, spelt with the host's operations.
-/
import proofs.«170606_j48361331753433_2_alg».proof.Proof.LibDense
import proofs.«170606_j48361331753433_2_alg».proof.Proof.LibIndexNorm
import proofs.«170606_j48361331753433_2_alg».proof.Proof.LibKeepdims

noncomputable section

namespace Cert.Lib.Dense

open Idealize.ShloMosaic Idealize.ShloMosaic.ValueIdx
open scoped BigOperators

/-! ## The same layers spelt with the host's operations

  On the host a dense layer is `act (dot(x, w) + rows(row(b)))`: the bias vector made a row, the row spread over all
  rows.  In the kernel the bias vector is cast to a row and the layer is `dense`.  Entry by entry both are
  `act ((∑ k, x(p, k) · w(k, q)) + b(q))`.  Likewise the combine step: the kernel casts the squared scale vector to a
  column, the host spreads it over the columns. -/

section HostForms

open Cert.Lib.IndexNorm Cert.Lib.Keepdims

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

theorem exists_ix2 {a b : ℕ} (i : (⟨2, ![a, b]⟩ : Shape).Idx) : ∃ (p : Fin a) (q : Fin b), i = ix2 p q :=
  ⟨i 0, i 1, eq_ix2 i⟩

include hlc hrc hln hrn hlb hrb in
/-- A dense layer whose bias row is a vector cast to a row is the host's `act (dot + spread bias)`. -/
theorem dense_eq_host (act : EReal → EReal) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense act x w (shapeCast ⟨2, ![1, N]⟩ b hc)
      = fun i => act (addf (F := Ideal) (Host.dotGeneral D none x w)
          (broadcastInDim ⟨2, ![M, N]⟩ ![0, 1] h₂ (broadcastInDim ⟨2, ![1, N]⟩ ![1] h₁ b)) i) := by
  funext i
  obtain ⟨p, q, rfl⟩ := exists_ix2 i
  rw [dense_ix2]
  refine congrArg act (congrArg₂ (fun a b : EReal => a + b) ?_ ?_)
  · exact (dotGeneral_at D hlc hrc hln hrn hlb hrb x w p q).symm
  · exact (shapeCast_a_1a_apply b hc 0 q).trans (bcast_row_rows_apply b h₁ h₂ p q).symm

include hlc hrc hln hrn hlb hrb in
/-- With tanh: the host's `tanh (dot + spread bias)`. -/
theorem dense_tanh_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense Ideal.tanh x w (shapeCast ⟨2, ![1, N]⟩ b hc)
      = Host.tanh (F := Ideal) (addf (F := Ideal) (Host.dotGeneral D none x w)
          (broadcastInDim ⟨2, ![M, N]⟩ ![0, 1] h₂ (broadcastInDim ⟨2, ![1, N]⟩ ![1] h₁ b))) :=
  (dense_eq_host D hlc hrc hln hrn hlb hrb Ideal.tanh x w b hc h₁ h₂).trans
    (funext fun i => (Ideal.hostUnary_tanh_def _).symm)

include hlc hrc hln hrn hlb hrb in
/-- Without an activation: the host's `dot + spread bias`. -/
theorem dense_id_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense id x w (shapeCast ⟨2, ![1, N]⟩ b hc)
      = addf (F := Ideal) (Host.dotGeneral D none x w)
          (broadcastInDim ⟨2, ![M, N]⟩ ![0, 1] h₂ (broadcastInDim ⟨2, ![1, N]⟩ ![1] h₁ b)) :=
  (dense_eq_host D hlc hrc hln hrn hlb hrb id x w b hc h₁ h₂).trans rfl

include hlc hrc hln hrn hlb hrb in
/-- A dense layer whose bias row is the zero vector cast to a row is the host's plain dot product. -/
theorem dense_zero_eq_dot (x : FVec Ideal ⟨2, ![M, K]⟩ .f32) (w : FVec Ideal ⟨2, ![K, N]⟩ .f32)
    (h₀ : (⟨0, ![]⟩ : Shape).BroadcastsInDim ⟨1, ![N]⟩ ![]) (hc : (⟨1, ![N]⟩ : Shape).ShapeCasts ⟨2, ![1, N]⟩) :
    dense id x w (shapeCast ⟨2, ![1, N]⟩
        (broadcastInDim ⟨1, ![N]⟩ ![] h₀ (constant (F := Ideal) ⟨0, ![]⟩ .f32 0x00000000#32)) hc)
      = Host.dotGeneral D none x w := by
  funext i
  obtain ⟨p, q, rfl⟩ := exists_ix2 i
  rw [dense_ix2]
  have hz : shapeCast ⟨2, ![1, N]⟩ (broadcastInDim ⟨1, ![N]⟩ ![] h₀ (constant (F := Ideal) ⟨0, ![]⟩ .f32 0x00000000#32)) hc
      (ix2 (0 : Fin 1) q) = (0 : EReal) :=
    (shapeCast_a_1a_apply _ hc 0 q).trans
      ((broadcastInDim_apply ![] h₀ _ (ix1 q) ix0 (fun a => a.elim0)).trans Ideal.ofBits_zero_f32)
  show rowDot x w p q + _ = _
  rw [hz, add_zero]
  exact (dotGeneral_at D hlc hrc hln hrn hlb hrb x w p q).symm

/-- The combine step with the squared scale vector cast to a column and the bias vector cast to a row is the host's
    `tanh((a + h · cols(col(d · d))) + rows(row(b)))`. -/
theorem combine_eq_host (a h : FVec Ideal ⟨2, ![M, N]⟩ .f32) (d : FVec Ideal ⟨1, ![M]⟩ .f32) (b : FVec Ideal ⟨1, ![N]⟩ .f32)
    (hc₁ : (⟨1, ![M]⟩ : Shape).ShapeCasts ⟨2, ![M, 1]⟩) (hc₂ : (⟨1, ![N]⟩ : Shape).ShapeCasts ⟨2, ![1, N]⟩)
    (hd₁ : (⟨1, ![M]⟩ : Shape).BroadcastsInDim ⟨2, ![M, 1]⟩ ![0])
    (hd₂ : (⟨2, ![M, 1]⟩ : Shape).BroadcastsInDim ⟨2, ![M, N]⟩ ![0, 1])
    (hb₁ : (⟨1, ![N]⟩ : Shape).BroadcastsInDim ⟨2, ![1, N]⟩ ![1])
    (hb₂ : (⟨2, ![1, N]⟩ : Shape).BroadcastsInDim ⟨2, ![M, N]⟩ ![0, 1]) :
    combine a h (shapeCast ⟨2, ![M, 1]⟩ (mulf (F := Ideal) d d) hc₁) (shapeCast ⟨2, ![1, N]⟩ b hc₂)
      = Host.tanh (F := Ideal) (addf (addf a (mulf h
          (broadcastInDim ⟨2, ![M, N]⟩ ![0, 1] hd₂ (broadcastInDim ⟨2, ![M, 1]⟩ ![0] hd₁ (mulf (F := Ideal) d d)))))
          (broadcastInDim ⟨2, ![M, N]⟩ ![0, 1] hb₂ (broadcastInDim ⟨2, ![1, N]⟩ ![1] hb₁ b))) := by
  funext i
  obtain ⟨p, q, rfl⟩ := exists_ix2 i
  rw [combine_ix2]
  refine congrArg Ideal.tanh (congrArg₂ (fun a b : EReal => a + b) (congrArg₂ (fun a b : EReal => a + b) rfl
    (congrArg₂ (fun a b : EReal => a * b) rfl ?_)) ?_)
  · exact (shapeCast_a_a1_apply _ hc₁ p 0).trans (bcast_col_cols_apply _ hd₁ hd₂ p q).symm
  · exact (shapeCast_a_1a_apply b hc₂ 0 q).trans (bcast_row_rows_apply b hb₁ hb₂ p q).symm

end HostForms

end Cert.Lib.Dense

end
-- ==== Proof.Bridge.lean ====
/-
  The two programs compute the same arrays.

  Both programs are read at the extended reals, from argument arrays that agree.  Going through the computation in
  order, each named array of the idealized kernel equals the corresponding array of the reference:

    • the edge sources and destinations, the normalisation, the weight and bias slices, the normalised aggregate over
      the edges and the concatenation at the edges' ends are the SAME compositions of the same host operations on both
      sides, so equal arrays in give equal arrays out;
    • a region's dense layer with the zero bias row is the reference's dot product;
    • a region's combine step, tanh((agg + hw · d²) + b) with d² cast to a column and b to a row, is the reference's
      tanh((agg + hw · cols(col(d · d))) + rows(row(b)));
    • a region's dense layer with a bias (and tanh) is the reference's [tanh of] dot product plus the spread bias.

  Nothing here needs the inputs to be finite: only the definitions of the operations and a re-indexing of sums.
-/
import proofs.«170606_j48361331753433_2_alg».proof.Proof.KValues
import proofs.«170606_j48361331753433_2_alg».proof.Proof.RValues
import proofs.«170606_j48361331753433_2_alg».proof.Proof.LibDenseHost

set_option maxRecDepth 16384

noncomputable section

namespace Cert.Bridge

open Idealize.ShloMosaic Idealize.ShloMosaic.TcCoe Idealize.SL.Sem Idealize.ShloMosaic.StableHlo
open Cert.KernelIdeal.Values Cert.KernelIdeal.Stretch Cert.ReferenceIdeal.Stages Cert.Lib.Dense

/-- The two programs' argument arrays agree (the unused third argument aside). -/
structure Agree (A : Valuation Cert.KernelIdeal.τ Cert.KernelIdeal.sig (Elt Ideal)) (A' : Valuation Cert.ReferenceIdeal.τ Cert.ReferenceIdeal.sig (Elt Ideal)) : Prop where
  a0 : A' (Proc.devRef .tc Cert.ReferenceIdeal.main_arg0) = A (Proc.devRef .tc Cert.KernelIdeal.main_arg0)
  a1 : A' (Proc.devRef .tc Cert.ReferenceIdeal.main_arg1) = A (Proc.devRef .tc Cert.KernelIdeal.main_arg1)
  a3 : A' (Proc.devRef .tc Cert.ReferenceIdeal.main_arg3) = A (Proc.devRef .tc Cert.KernelIdeal.main_arg3)
  a4 : A' (Proc.devRef .tc Cert.ReferenceIdeal.main_arg4) = A (Proc.devRef .tc Cert.KernelIdeal.main_arg4)
  a5 : A' (Proc.devRef .tc Cert.ReferenceIdeal.main_arg5) = A (Proc.devRef .tc Cert.KernelIdeal.main_arg5)
  a6 : A' (Proc.devRef .tc Cert.ReferenceIdeal.main_arg6) = A (Proc.devRef .tc Cert.KernelIdeal.main_arg6)
  a7 : A' (Proc.devRef .tc Cert.ReferenceIdeal.main_arg7) = A (Proc.devRef .tc Cert.KernelIdeal.main_arg7)
  a8 : A' (Proc.devRef .tc Cert.ReferenceIdeal.main_arg8) = A (Proc.devRef .tc Cert.KernelIdeal.main_arg8)
  a9 : A' (Proc.devRef .tc Cert.ReferenceIdeal.main_arg9) = A (Proc.devRef .tc Cert.KernelIdeal.main_arg9)
  a10 : A' (Proc.devRef .tc Cert.ReferenceIdeal.main_arg10) = A (Proc.devRef .tc Cert.KernelIdeal.main_arg10)
  a11 : A' (Proc.devRef .tc Cert.ReferenceIdeal.main_arg11) = A (Proc.devRef .tc Cert.KernelIdeal.main_arg11)
  a12 : A' (Proc.devRef .tc Cert.ReferenceIdeal.main_arg12) = A (Proc.devRef .tc Cert.KernelIdeal.main_arg12)

/-! ## The shared host compositions: the same function on both sides -/

set_option maxHeartbeats 1000000 in
theorem same_v1 (x_arg1 : ((Proc.devRef .tc Cert.KernelIdeal.main_arg1 : DevRef Cert.KernelIdeal.τ Cert.KernelIdeal.sig).ty.Contents (Elt Ideal))) :
    g_main_v1 (F := Ideal) x_arg1 = rg_main_v1 (F := Ideal) x_arg1 := rfl

set_option maxHeartbeats 1000000 in
theorem same_v3 (x_arg1 : ((Proc.devRef .tc Cert.KernelIdeal.main_arg1 : DevRef Cert.KernelIdeal.τ Cert.KernelIdeal.sig).ty.Contents (Elt Ideal))) :
    g_main_v3 (F := Ideal) x_arg1 = rg_main_v3 (F := Ideal) x_arg1 := rfl

set_option maxHeartbeats 1000000 in
theorem same_v11 (x_arg1 : ((Proc.devRef .tc Cert.KernelIdeal.main_arg1 : DevRef Cert.KernelIdeal.τ Cert.KernelIdeal.sig).ty.Contents (Elt Ideal))) :
    g_main_v11 (F := Ideal) x_arg1 = rg_main_v11 (F := Ideal) x_arg1 := rfl

set_option maxHeartbeats 1000000 in
theorem same_v43 (x_v3 : ((Proc.devRef .tc Cert.KernelIdeal.main_v3 : DevRef Cert.KernelIdeal.τ Cert.KernelIdeal.sig).ty.Contents (Elt Ideal))) (x_v15 : ((Proc.devRef .tc Cert.KernelIdeal.main_v15 : DevRef Cert.KernelIdeal.τ Cert.KernelIdeal.sig).ty.Contents (Elt Ideal))) (x_v1 : ((Proc.devRef .tc Cert.KernelIdeal.main_v1 : DevRef Cert.KernelIdeal.τ Cert.KernelIdeal.sig).ty.Contents (Elt Ideal))) (x_v11 : ((Proc.devRef .tc Cert.KernelIdeal.main_v11 : DevRef Cert.KernelIdeal.τ Cert.KernelIdeal.sig).ty.Contents (Elt Ideal))) :
    g_main_v43 (F := Ideal) x_v3 x_v15 x_v1 x_v11 = rg_main_v40 (F := Ideal) x_v3 x_v15 x_v1 x_v11 := rfl

set_option maxHeartbeats 1000000 in
theorem same_v48 (x_arg5 : ((Proc.devRef .tc Cert.KernelIdeal.main_arg5 : DevRef Cert.KernelIdeal.τ Cert.KernelIdeal.sig).ty.Contents (Elt Ideal))) :
    g_main_v48 (F := Ideal) x_arg5 = rg_main_v51 (F := Ideal) x_arg5 := rfl

set_option maxHeartbeats 1000000 in
theorem same_v50 (x_arg6 : ((Proc.devRef .tc Cert.KernelIdeal.main_arg6 : DevRef Cert.KernelIdeal.τ Cert.KernelIdeal.sig).ty.Contents (Elt Ideal))) :
    g_main_v50 (F := Ideal) x_arg6 = rg_main_v53 (F := Ideal) x_arg6 := rfl

set_option maxHeartbeats 1000000 in
theorem same_v81 (x_v3 : ((Proc.devRef .tc Cert.KernelIdeal.main_v3 : DevRef Cert.KernelIdeal.τ Cert.KernelIdeal.sig).ty.Contents (Elt Ideal))) (x_v53 : ((Proc.devRef .tc Cert.KernelIdeal.main_v53 : DevRef Cert.KernelIdeal.τ Cert.KernelIdeal.sig).ty.Contents (Elt Ideal))) (x_v1 : ((Proc.devRef .tc Cert.KernelIdeal.main_v1 : DevRef Cert.KernelIdeal.τ Cert.KernelIdeal.sig).ty.Contents (Elt Ideal))) (x_v11 : ((Proc.devRef .tc Cert.KernelIdeal.main_v11 : DevRef Cert.KernelIdeal.τ Cert.KernelIdeal.sig).ty.Contents (Elt Ideal))) :
    g_main_v81 (F := Ideal) x_v3 x_v53 x_v1 x_v11 = rg_main_v82 (F := Ideal) x_v3 x_v53 x_v1 x_v11 := rfl

set_option maxHeartbeats 1000000 in
theorem same_v86 (x_arg5 : ((Proc.devRef .tc Cert.KernelIdeal.main_arg5 : DevRef Cert.KernelIdeal.τ Cert.KernelIdeal.sig).ty.Contents (Elt Ideal))) :
    g_main_v86 (F := Ideal) x_arg5 = rg_main_v93 (F := Ideal) x_arg5 := rfl

set_option maxHeartbeats 1000000 in
theorem same_v88 (x_arg6 : ((Proc.devRef .tc Cert.KernelIdeal.main_arg6 : DevRef Cert.KernelIdeal.τ Cert.KernelIdeal.sig).ty.Contents (Elt Ideal))) :
    g_main_v88 (F := Ideal) x_arg6 = rg_main_v95 (F := Ideal) x_arg6 := rfl

set_option maxHeartbeats 1000000 in
theorem same_v119 (x_v3 : ((Proc.devRef .tc Cert.KernelIdeal.main_v3 : DevRef Cert.KernelIdeal.τ Cert.KernelIdeal.sig).ty.Contents (Elt Ideal))) (x_v91 : ((Proc.devRef .tc Cert.KernelIdeal.main_v91 : DevRef Cert.KernelIdeal.τ Cert.KernelIdeal.sig).ty.Contents (Elt Ideal))) (x_v1 : ((Proc.devRef .tc Cert.KernelIdeal.main_v1 : DevRef Cert.KernelIdeal.τ Cert.KernelIdeal.sig).ty.Contents (Elt Ideal))) (x_v11 : ((Proc.devRef .tc Cert.KernelIdeal.main_v11 : DevRef Cert.KernelIdeal.τ Cert.KernelIdeal.sig).ty.Contents (Elt Ideal))) :
    g_main_v119 (F := Ideal) x_v3 x_v91 x_v1 x_v11 = rg_main_v124 (F := Ideal) x_v3 x_v91 x_v1 x_v11 := rfl

set_option maxHeartbeats 1000000 in
theorem same_v141 (x_v126 : ((Proc.devRef .tc Cert.KernelIdeal.main_v126 : DevRef Cert.KernelIdeal.τ Cert.KernelIdeal.sig).ty.Contents (Elt Ideal))) (x_v1 : ((Proc.devRef .tc Cert.KernelIdeal.main_v1 : DevRef Cert.KernelIdeal.τ Cert.KernelIdeal.sig).ty.Contents (Elt Ideal))) (x_v3 : ((Proc.devRef .tc Cert.KernelIdeal.main_v3 : DevRef Cert.KernelIdeal.τ Cert.KernelIdeal.sig).ty.Contents (Elt Ideal))) :
    g_main_v141 (F := Ideal) x_v126 x_v1 x_v3 = rg_main_v158 (F := Ideal) x_v126 x_v1 x_v3 := rfl

/-- The kernel's squared normalisation is the normalisation times itself. -/
theorem kv_v12_eq (A : Valuation Cert.KernelIdeal.τ Cert.KernelIdeal.sig (Elt Ideal)) :
    kv_main_v12 A = (mulf : FVec Ideal Cert.KernelIdeal.S100000 .f32 → FVec Ideal Cert.KernelIdeal.S100000 .f32 → FVec Ideal Cert.KernelIdeal.S100000 .f32) (kv_main_v11 A) (kv_main_v11 A) := rfl

/-! ## Array by array -/

variable (A : Valuation Cert.KernelIdeal.τ Cert.KernelIdeal.sig (Elt Ideal)) (A' : Valuation Cert.ReferenceIdeal.τ Cert.ReferenceIdeal.sig (Elt Ideal)) (h : Agree A A')

include h in
theorem P_v1 : kv_main_v1 A = rv_main_v1 A' := by
  unfold kv_main_v1 rv_main_v1
  rw [h.a1]
  exact same_v1 _

include h in
theorem P_v3 : kv_main_v3 A = rv_main_v3 A' := by
  unfold kv_main_v3 rv_main_v3
  rw [h.a1]
  exact same_v3 _

include h in
theorem P_v11 : kv_main_v11 A = rv_main_v11 A' := by
  unfold kv_main_v11 rv_main_v11
  rw [h.a1]
  exact same_v11 _

include h in
theorem P_v15 : kv_main_v15 A = rv_main_v12 A' := by
  unfold kv_main_v15 kv_main_v14 g_main_v14 rv_main_v12 rg_main_v12
  rw [h.a0, h.a3]
  exact dense_zero_eq_dot Cert.ReferenceIdeal.dot_S100000x128_S128x128_S100000x128_1_0_0_1_n_n rfl rfl rfl rfl rfl rfl _ _ _ _

include h in
theorem P_v43 : kv_main_v43 A = rv_main_v40 A' := by
  unfold kv_main_v43 rv_main_v40
  rw [P_v3 A A' h, P_v15 A A' h, P_v1 A A' h, P_v11 A A' h]
  exact same_v43 _ _ _ _

include h in
theorem P_v46 : kv_main_v46 A = rv_main_v49 A' := by
  unfold kv_main_v46 kv_main_v44 g_main_v44 kv_main_v45 g_main_v45 rv_main_v49 rg_main_v49
  rw [P_v43 A A' h, P_v15 A A' h, kv_v12_eq A, P_v11 A A' h, h.a4]
  exact combine_eq_host _ _ _ _ _ _ _ _ _ _

include h in
theorem P_v48 : kv_main_v48 A = rv_main_v51 A' := by
  unfold kv_main_v48 rv_main_v51
  rw [h.a5]
  exact same_v48 _

include h in
theorem P_v50 : kv_main_v50 A = rv_main_v53 A' := by
  unfold kv_main_v50 rv_main_v53
  rw [h.a6]
  exact same_v50 _

include h in
theorem P_v53 : kv_main_v53 A = rv_main_v54 A' := by
  unfold kv_main_v53 kv_main_v52 g_main_v52 rv_main_v54 rg_main_v54
  rw [P_v46 A A' h, P_v48 A A' h]
  exact dense_zero_eq_dot Cert.ReferenceIdeal.dot_S100000x128_S128x128_S100000x128_1_0_0_1_n_n rfl rfl rfl rfl rfl rfl _ _ _ _

include h in
theorem P_v81 : kv_main_v81 A = rv_main_v82 A' := by
  unfold kv_main_v81 rv_main_v82
  rw [P_v3 A A' h, P_v53 A A' h, P_v1 A A' h, P_v11 A A' h]
  exact same_v81 _ _ _ _

include h in
theorem P_v84 : kv_main_v84 A = rv_main_v91 A' := by
  unfold kv_main_v84 kv_main_v82 g_main_v82 kv_main_v83 g_main_v83 rv_main_v91 rg_main_v91
  rw [P_v81 A A' h, P_v53 A A' h, kv_v12_eq A, P_v11 A A' h, P_v50 A A' h]
  exact combine_eq_host _ _ _ _ _ _ _ _ _ _

include h in
theorem P_v86 : kv_main_v86 A = rv_main_v93 A' := by
  unfold kv_main_v86 rv_main_v93
  rw [h.a5]
  exact same_v86 _

include h in
theorem P_v88 : kv_main_v88 A = rv_main_v95 A' := by
  unfold kv_main_v88 rv_main_v95
  rw [h.a6]
  exact same_v88 _

include h in
theorem P_v91 : kv_main_v91 A = rv_main_v96 A' := by
  unfold kv_main_v91 kv_main_v90 g_main_v90 rv_main_v96 rg_main_v96
  rw [P_v84 A A' h, P_v86 A A' h]
  exact dense_zero_eq_dot Cert.ReferenceIdeal.dot_S100000x128_S128x128_S100000x128_1_0_0_1_n_n rfl rfl rfl rfl rfl rfl _ _ _ _

include h in
theorem P_v119 : kv_main_v119 A = rv_main_v124 A' := by
  unfold kv_main_v119 rv_main_v124
  rw [P_v3 A A' h, P_v91 A A' h, P_v1 A A' h, P_v11 A A' h]
  exact same_v119 _ _ _ _

include h in
theorem P_v122 : kv_main_v122 A = rv_main_v133 A' := by
  unfold kv_main_v122 kv_main_v120 g_main_v120 kv_main_v121 g_main_v121 rv_main_v133 rg_main_v133
  rw [P_v119 A A' h, P_v91 A A' h, kv_v12_eq A, P_v11 A A' h, P_v88 A A' h]
  exact combine_eq_host _ _ _ _ _ _ _ _ _ _

include h in
theorem P_v124 : kv_main_v124 A = rv_main_v138 A' := by
  unfold kv_main_v124 kv_main_v123 g_main_v123 rv_main_v138 rg_main_v138
  rw [P_v122 A A' h, h.a7, h.a8]
  exact dense_tanh_eq_host Cert.ReferenceIdeal.dot_S100000x128_S128x64_S100000x64_1_0_0_1_n_n rfl rfl rfl rfl rfl rfl _ _ _ _ _ _

include h in
theorem P_v126 : kv_main_v126 A = rv_main_v143 A' := by
  unfold kv_main_v126 kv_main_v125 g_main_v125 rv_main_v143 rg_main_v143
  rw [P_v124 A A' h, h.a9, h.a10]
  exact dense_tanh_eq_host Cert.ReferenceIdeal.dot_S100000x64_S64x32_S100000x32_1_0_0_1_n_n rfl rfl rfl rfl rfl rfl _ _ _ _ _ _

include h in
theorem P_v141 : kv_main_v141 A = rv_main_v158 A' := by
  unfold kv_main_v141 rv_main_v158
  rw [P_v126 A A' h, P_v1 A A' h, P_v3 A A' h]
  exact same_v141 _ _ _

include h in
theorem P_v143 : kv_main_v143 A = rv_main_v162 A' := by
  unfold kv_main_v143 kv_main_v142 g_main_v142 rv_main_v162 rg_main_v162
  rw [P_v141 A A' h, h.a11, h.a12]
  exact dense_id_eq_host Cert.ReferenceIdeal.dot_S1600000x64_S64x6_S1600000x6_1_0_0_1_n_n rfl rfl rfl rfl rfl rfl _ _ _ _ _ _

end Cert.Bridge

end
-- ==== Proof.lean ====
/-
  The idealized kernel and the reference compute the same two results.

  The program is a graph network: from the edge list, the normalisation dinv = (deg + 1)^(-1/2); three layers
  h ← tanh(agg(h · W) + (h · W) · dinv² + b), where agg sums, into each destination row, the source rows scaled by
  dinv[src] · dinv[dst]; two dense layers with tanh; the concatenation e of the rows at each edge's two ends; and a last
  dense layer on e.  The kernel does every matrix product and every combine step in a pipelined region over blocks of
  rows, and everything that follows the edge list on the host; the reference does everything on the host.

  Frames: the two kernel programs' are the generated ones; the reference's is its run with the results dropped.
  The idealization rewrote nothing, so there is nothing to preserve.  Equal results: the kernel's run leaves in its
  two result buffers what the fold of its segments says (KernelRun); read back segment by segment these are the named
  arrays of the argument arrays (KChain: each region's output is ONE whole-array function because its row blocks tile
  the array); the reference's run leaves its own named arrays (RValues); and array by array the two agree (Bridge):
  at the extended reals a narrowing of the float format is the identity, a product accumulated into zero is the
  plain sum over the contracted axis, and casting a vector to a column or a row reads the same entries as spreading
  it.  No step uses that the inputs are finite.
-/
import proofs.«170606_j48361331753433_2_alg».proof.Defs
import proofs.«170606_j48361331753433_2_alg».proof.Proof.Gen.Kernel
import proofs.«170606_j48361331753433_2_alg».proof.Proof.Gen.Kernel.Skeleton
import proofs.«170606_j48361331753433_2_alg».proof.Proof.Gen.Kernel.Launch
import proofs.«170606_j48361331753433_2_alg».proof.Proof.Gen.Kernel.Points
import proofs.«170606_j48361331753433_2_alg».proof.Proof.Gen.Kernel.Frame
import proofs.«170606_j48361331753433_2_alg».proof.Proof.Gen.KernelIdeal
import proofs.«170606_j48361331753433_2_alg».proof.Proof.Gen.KernelIdeal.Skeleton
import proofs.«170606_j48361331753433_2_alg».proof.Proof.Gen.KernelIdeal.Launch
import proofs.«170606_j48361331753433_2_alg».proof.Proof.Gen.KernelIdeal.Points
import proofs.«170606_j48361331753433_2_alg».proof.Proof.Gen.KernelIdeal.Frame
import proofs.«170606_j48361331753433_2_alg».proof.Proof.Gen.ReferenceIdeal
import proofs.«170606_j48361331753433_2_alg».proof.Proof.Gen.ReferenceIdeal.Run
import proofs.«170606_j48361331753433_2_alg».proof.Proof.Gen.Pre_finite_inputs
import proofs.«170606_j48361331753433_2_alg».proof.Proof.KernelRun
import proofs.«170606_j48361331753433_2_alg».proof.Proof.KChain
import proofs.«170606_j48361331753433_2_alg».proof.Proof.RValues
import proofs.«170606_j48361331753433_2_alg».proof.Proof.Bridge
import Idealize.ShloMosaic.Adequacy
import Idealize.ShloMosaic.Init

set_option maxRecDepth 16384

noncomputable section

namespace Cert.Proof

open Idealize.ShloMosaic Idealize.SL.Sem

/-- Memories that agree on the arguments give launch contents that agree on them. -/
theorem agree_of (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    Cert.Bridge.Agree (Cert.KernelIdeal.Gen.W0 m ρ c) (StableHlo.launchContents m' c) :=
  ⟨(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2⟩

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Stages.run_named (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.Stages.rv_main_v162 (StableHlo.launchContents m' c),
    fun c => Cert.ReferenceIdeal.Stages.rv_main_v158 (StableHlo.launchContents m' c), ?_,
    Cert.ReferenceIdeal.Stages.run_named (F := Ideal) m' ρ'⟩
  refine (θ_run Cert.KernelIdeal.defs _ _).mono (fun r h c => ⟨(h c).1.trans ?_, (h c).2.1.trans ?_, (h c).2.2⟩)
    (Cert.KernelIdeal.Run.run_results (F := Ideal) m ρ)
  · exact (Cert.KernelIdeal.Chain.at18_main_v143 m ρ c).trans
      (Cert.Bridge.P_v143 _ _ (agree_of m ρ m' hagree c))
  · exact (Cert.KernelIdeal.Chain.at18_main_v141 m ρ c).trans
      (Cert.Bridge.P_v141 _ _ (agree_of m ρ m' hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
